-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S256x128 : Shape := ⟨2, ![256, 128]⟩
abbrev S8192x128 : Shape := ⟨2, ![8192, 128]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_
  bcast_S_S8192x128 : S_.BroadcastsInDim S8192x128 (![] : Fin 0 → Fin S8192x128.rank)
  reducesTo_S8192x128_S_d0_1 : S8192x128.ReducesTo [0, 1] S_

variable [Facts]

def fn_part1 {F : FTy → Type} [FloatOps F] (main_arg4 : FVec F S256x128 .f32) (main_arg5 : FVec F S8192x128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S8192x128 .f32 := Host.absf main_arg5
  let main_cst_8 : FVec F S_ .f32 := constant S_ .f32 0x7F800000#32
  let main_v25 : FVec F S8192x128 .f32 := broadcastInDim S8192x128 ![] bcast_S_S8192x128 main_cst_8
  let main_v26 : IVec S8192x128 1 := cmpf .olt main_v24 main_v25
  let main_c_9 : IVec S_ 1 := constantI S_ 1 1#1
  let main_v27 : IVec S_ 1 := (fun x v => Host.reduce IntOp.andi x v reducesTo_S8192x128_S_d0_1 h_S_) main_v26 main_c_9
  let main_v28 : IVec S_ 1 := andi main_v23 main_v27
  main_v28

def fn {F : FTy → Type} [FloatOps F] (main_arg0 : FVec F S8192x512 .f32) (main_arg1 : FVec F S8192x8192 .f32) (main_arg2 : FVec F S512x256 .f32) (main_arg3 : FVec F S256x128 .f32) (main_arg4 : FVec F S256x128 .f32) (main_arg5 : FVec F S8192x128 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_v13 main_v16
-- ==== Kernel.lean ====
abbrev S8192x512 : Shape := ⟨2, ![8192, 512]⟩
abbrev S8192x8192 : Shape := ⟨2, ![8192, 8192]⟩
abbrev S512x256 : Shape := ⟨2, ![512, 256]⟩
abbrev S256x128 : Shape := ⟨2, ![256, 128]⟩
abbrev S8192x128 : Shape := ⟨2, ![8192, 128]⟩
abbrev S8192x256 : Shape := ⟨2, ![8192, 256]⟩
abbrev S1024x1024 : Shape := ⟨2, ![1024, 1024]⟩
abbrev S1024x512 : Shape := ⟨2, ![1024, 512]⟩
abbrev S1024x256 : Shape := ⟨2, ![1024, 256]⟩
abbrev S256x256 : Shape := ⟨2, ![256, 256]⟩
abbrev S1024x128 : Shape := ⟨2, ![1024, 128]⟩

abbrev nBuf : Space → Nat
  | .hbm => 10
  | .vmem => 24
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S256x128, .f32⟩
  | .hbm, ⟨4, _⟩ => ⟨S256x128, .f32⟩
  | .hbm, ⟨5, _⟩ => ⟨S8192x128, .f32⟩
  | .hbm, ⟨6, _⟩ => ⟨S8192x256, .f32⟩
  | .hbm, ⟨7, _⟩ => ⟨S256x256, .f32⟩
  | .hbm, ⟨8, _⟩ => ⟨S8192x128, .f32⟩
  | .hbm, ⟨9, _⟩ => ⟨S8192x8192, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S512x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x1024, .f32⟩
  | .local _ .vmem, ⟨9, _⟩ => ⟨S1024x1024, .f32⟩
  | .local _ .vmem, ⟨10, _⟩ => ⟨S1024x256, .f32⟩
  | .local _ .vmem, ⟨11, _⟩ => ⟨S1024x256, .f32⟩
  | .local _ .vmem, ⟨12, _⟩ => ⟨S256x256, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x256, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x1024, .f32⟩
  | .local _ .vmem, ⟨23, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_11 : BitVec 32 := 0#32
  let v21 : BitVec 1 := Scalar.cmpi .ne v20 c0_i32_11
  v21

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x1024_S1024x1024_0_0 : ∀ a, (![0, 0] : Fin 2 → Nat) a + S1024x1024.size a ≤ S1024x1024.size a
  h_S1024x1024 : 0 < S1024x1024.numel
  concatenates_S256x128_S256x128_S256x256_d1 : Shape.Concatenates [S256x128, S256x128] S256x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S1024x256_o0_0_S1024x128 : S1024x256.Slices ![0, 0] S1024x128
  slices_S1024x256_o0_128_S1024x128 : S1024x256.Slices ![0, 128] S1024x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  dot_S1024x512_S512x256_S1024x256_1_0_0_1_n_n_wf : DotDims.WF S1024x512 S512x256 S1024x256 [1] [0] [0] [1] [] []
  dot_S1024x1024_S1024x256_S1024x256_1_0_0_1_n_n_wf : DotDims.WF S1024x1024 S1024x256 S1024x256 [1] [0] [0] [1] [] []
  dot_S1024x256_S256x256_S1024x256_1_0_0_1_n_n_wf : DotDims.WF S1024x256 S256x256 S1024x256 [1] [0] [0] [1] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .f32 = 32 ∨ (Rect.block (s := S8192x256) S1024x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S8192x128.size a
  hwx1_4 : ∀ i : grid1.Coords, EltTy.bits .f32 = 32 ∨ (Rect.block (s := S8192x128) S1024x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S8192x128.size a
  hwx2_0 : ∀ i : grid2.Coords, EltTy.bits .f32 = 32 ∨ (Rect.block (s := S8192x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .f32 = 32 ∨ (Rect.block (s := S8192x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x8192.size a
  hwx2_2 : ∀ i : grid2.Coords, EltTy.bits .f32 = 32 ∨ (Rect.block (s := S8192x8192) S1024x1024.size (cc2_transform_2 i) (hinb2_2 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v2) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S256x128 : Shape := ⟨2, ![256, 128]⟩
abbrev S8192x128 : Shape := ⟨2, ![8192, 128]⟩
abbrev S8192x256 : Shape := ⟨2, ![8192, 256]⟩
abbrev S_ : Shape := ⟨0, ![]⟩
abbrev S128x8192 : Shape := ⟨2, ![128, 8192]⟩

abbrev nBuf : Space → Nat
  | .hbm => 28
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S256x128, .f32⟩
  | .hbm, ⟨4, _⟩ => ⟨S256x128, .f32⟩
  | .hbm, ⟨5, _⟩ => ⟨S8192x128, .f32⟩
  | .hbm, ⟨6, _⟩ => ⟨S8192x256, .f32⟩
  | .hbm, ⟨7, _⟩ => ⟨S8192x256, .f32⟩
  | .hbm, ⟨8, _⟩ => ⟨S_, .f32⟩
  | .hbm, ⟨9, _⟩ => ⟨S8192x256, .f32⟩
  | .hbm, ⟨10, _⟩ => ⟨S8192x256, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S128x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S_S8192x256 : S_.BroadcastsInDim S8192x256 (![] : Fin 0 → Fin S8192x256.rank)
  transposes_S8192x128_S128x8192_1_0 : S8192x128.Transposes [1, 0] S128x8192
  bcast_S_S8192x8192 : S_.BroadcastsInDim S8192x8192 (![] : Fin 0 → Fin S8192x8192.rank)
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  dot_S8192x256_S256x128_S8192x128_1_0_0_1_n_n_wf : DotDims.WF S8192x256 S256x128 S8192x128 [1] [0] [0] [1] [] []
  dot_S8192x8192_S8192x128_S8192x128_1_0_0_1_n_n_wf : DotDims.WF S8192x8192 S8192x128 S8192x128 [1] [0] [0] [1] [] []
  dot_S8192x128_S128x8192_S8192x8192_1_0_0_1_n_n_wf : DotDims.WF S8192x128 S128x8192 S8192x8192 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Reg0.lean ====
/-
  The first call of the program: the hidden layer H = relu (A · (X · W₁)), row block by row block.

  The grid has 8 × 8 points; point t works on row block t / 8 of the 8192 rows and on step t % 8 of the contraction over
  the 8192 columns of A. At every point the body adds, into a 1024 × 256 accumulator it carries from point to point,
  the product of the 1024 × 1024 block (t / 8, t % 8) of A with the product of the 1024 × 512 row block t % 8 of X and
  the whole of W₁. At step 0 the accumulator is first filled with zeros; at step 7 the entrywise maximum of the
  accumulator with zero is stored into the output's block, which is written back exactly there.

  This module states, for arbitrary contents V of the buffers when the call is entered: each window's block at a point,
  the accumulator after each point (a recursion on the point), the body's effect in each of its three control cases,
  the invariant that carries the accumulator between points, and the resulting obligation of the body at every point.
-/
import proofs.«119699_j17463337026205_1_alg».proof.Proof.Gen.Kernel.Launch
import proofs.«119699_j17463337026205_1_alg».proof.Proof.Gen.Kernel.Skeleton
import proofs.«119699_j17463337026205_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the grid -/

theorem hz2 : (![0, 0] : Fin 2 → Nat) = fun _ => 0 := funext fun a => by fin_cases a <;> rfl

/-- The first condition of the body: the contraction coordinate is zero (the accumulator is zero-filled). -/
abbrev cond0 (i : grid0.Coords) : Prop := (Scalar.cmpi .ne (Scalar.extui (Scalar.cmpi .eq (BitVec.ofNat 32 (i 1).val) 0#32)) 0#32) = 1#1
/-- The second condition: the contraction coordinate is the last one (the output block is stored). -/
abbrev cond1 (i : grid0.Coords) : Prop := k0_cond2 i = 1#1

/-- Point `t` has row block `t / 8` and contraction step `t % 8`: the first condition holds where the step is 0, -/
theorem hcond0 : ∀ t : Fin cfg0.N, cond0 (grid0.coords t) ↔ t.val % 8 = 0 :=
  (by decide +kernel : ∀ t : Fin grid0.N, cond0 (grid0.coords t) ↔ t.val % 8 = 0)
/-- the second where it is 7. -/
theorem hcond1 : ∀ t : Fin cfg0.N, cond1 (grid0.coords t) ↔ t.val % 8 = 7 :=
  (by decide +kernel : ∀ t : Fin grid0.N, cond1 (grid0.coords t) ↔ t.val % 8 = 7)

/-- The three input windows are live at every point; the output window is live exactly at the last step of a row block. -/
theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem idleAt3 : ∀ t : Fin cfg0.N, ¬t.val % 8 = 7 → cfg0.idle 3 (grid0.coords t) = true := by decide +kernel
theorem liveAt3 : ∀ t : Fin cfg0.N, t.val % 8 = 7 → cfg0.idle 3 (grid0.coords t) = false := by decide +kernel
theorem noFlush3 (t : Fin cfg0.N) (h : ¬t.val % 8 = 7) : (cfg0.win 3).flush t = false := by
  cases hf : (cfg0.win 3).flush t with
  | false => rfl
  | true => exact absurd ((flush0_3 t).mp hf) h

/-! ## The staging memrefs at a point, and the scratch -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x256 .f32 := win0_3.stage (cfg0.slots t 3)
abbrev hs3 (t : Fin cfg0.N) : (ms3 t).IsWhole := hstage0_3 ((cfg0.slots t 3).cast nbuf0_3)
/-- The accumulator: a whole scoped buffer of the kernel's own, carried from point to point. -/
abbrev scM : Memref sig .tc .vmem S1024x256 .f32 := Memref.whole cc0_scratch0

/-! ## The body on any whole memrefs, case by case

`x0` is the adjacency block, `x1` the feature block, `x2` the weight matrix; the accumulator step is
`k0_pay2 x1 x2 x0 acc = acc + x0 · (x1 · x2)`. -/

set_option maxHeartbeats 1000000 in
/-- First step of a row block: the accumulator (at anything) is zero-filled, then stepped; the output's buffer is
    handed back as found. -/
theorem kernelA (c : Dev nD) (i : grid0.Coords)
    (arg2 : Memref sig .tc .vmem S1024x1024 .f32) (harg2 : arg2.IsWhole) (arg3 : Memref sig .tc .vmem S1024x512 .f32) (harg3 : arg3.IsWhole)
    (arg4 : Memref sig .tc .vmem S512x256 .f32) (harg4 : arg4.IsWhole) (arg5 : Memref sig .tc .vmem S1024x256 .f32) (harg5 : arg5.IsWhole)
    (arg6 : Memref sig .tc .vmem S1024x256 .f32) (harg6 : arg6.IsWhole) (hc0 : cond0 i) (hc1 : ¬cond1 i)
    (x0 : Vec F S1024x1024 .f32) (x1 : Vec F S1024x512 .f32) (x2 : Vec F S512x256 .f32) (xi3 : Vec F S1024x256 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay2 x1 x2 x0 (k0_pay1 (F := F)))) -∗ K ⟨⟩))
      ⊢ wp frame (wpE (defs₀ (F := F)) Variants.none c none) E (cc0__ab_kernel i arg2 harg2 arg3 harg3 arg4 harg4 arg5 harg5 arg6 harg6) K := by
  simp only [cc0__ab_kernel_eq_skeleton]; unfold cc0__ab_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  rw [View.read_writes_eq_canon _ _ _ (fun y => ⟨_, List.mem_cons_self, View.mem_set_unit_zero hz2 inb_S1024x256_S1024x256_0_0 y⟩)]
  rw [View.canon_cons_unit_zero hz2, View.readCov_unit_zero _ hz2]
  simp only [View.readAt_eq_ld, View.ld_unit_zero (S := S1024x512) hz2, View.ld_unit_zero (S := S512x256) hz2,
    View.ld_unit_zero (S := S1024x1024) hz2, View.ld_unit_zero (S := S1024x256) hz2]

set_option maxHeartbeats 1000000 in
/-- A middle step: the accumulator, at what the step before left (`xs`), is stepped; the output's buffer is handed
    back as found. -/
theorem kernelB (c : Dev nD) (i : grid0.Coords)
    (arg2 : Memref sig .tc .vmem S1024x1024 .f32) (harg2 : arg2.IsWhole) (arg3 : Memref sig .tc .vmem S1024x512 .f32) (harg3 : arg3.IsWhole)
    (arg4 : Memref sig .tc .vmem S512x256 .f32) (harg4 : arg4.IsWhole) (arg5 : Memref sig .tc .vmem S1024x256 .f32) (harg5 : arg5.IsWhole)
    (arg6 : Memref sig .tc .vmem S1024x256 .f32) (harg6 : arg6.IsWhole) (hc0 : ¬cond0 i) (hc1 : ¬cond1 i)
    (x0 : Vec F S1024x1024 .f32) (x1 : Vec F S1024x512 .f32) (x2 : Vec F S512x256 .f32) (xi3 : Vec F S1024x256 .f32)
    (xs : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay2 x1 x2 x0 xs)) -∗ K ⟨⟩))
      ⊢ wp frame (wpE (defs₀ (F := F)) Variants.none c none) E (cc0__ab_kernel i arg2 harg2 arg3 harg3 arg4 harg4 arg5 harg5 arg6 harg6) K := by
  simp only [cc0__ab_kernel_eq_skeleton]; unfold cc0__ab_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  rw [View.read_writes_eq_canon _ _ _ (fun y => ⟨_, List.mem_cons_self, View.mem_set_unit_zero hz2 inb_S1024x256_S1024x256_0_0 y⟩)]
  rw [View.canon_cons_unit_zero hz2]
  simp only [View.readAt_eq_ld, View.ld_unit_zero (S := S1024x512) hz2, View.ld_unit_zero (S := S512x256) hz2,
    View.ld_unit_zero (S := S1024x1024) hz2, View.ld_unit_zero (S := S1024x256) hz2]

set_option maxHeartbeats 1000000 in
/-- Last step of a row block: the accumulator is stepped, and the output's buffer (at anything) is stored with the
    positive part `k0_pay3` of the new accumulator. -/
theorem kernelC (c : Dev nD) (i : grid0.Coords)
    (arg2 : Memref sig .tc .vmem S1024x1024 .f32) (harg2 : arg2.IsWhole) (arg3 : Memref sig .tc .vmem S1024x512 .f32) (harg3 : arg3.IsWhole)
    (arg4 : Memref sig .tc .vmem S512x256 .f32) (harg4 : arg4.IsWhole) (arg5 : Memref sig .tc .vmem S1024x256 .f32) (harg5 : arg5.IsWhole)
    (arg6 : Memref sig .tc .vmem S1024x256 .f32) (harg6 : arg6.IsWhole) (hc0 : ¬cond0 i) (hc1 : cond1 i)
    (x0 : Vec F S1024x1024 .f32) (x1 : Vec F S1024x512 .f32) (x2 : Vec F S512x256 .f32)
    (xs : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 x1 x2 x0 xs)) ∗ owns (c : Thread nD τ) arg6 fullShare (k0_pay2 x1 x2 x0 xs)) -∗ K ⟨⟩))
      ⊢ wp frame (wpE (defs₀ (F := F)) Variants.none c none) E (cc0__ab_kernel i arg2 harg2 arg3 harg3 arg4 harg4 arg5 harg5 arg6 harg6) K := by
  simp only [cc0__ab_kernel_eq_skeleton]; unfold cc0__ab_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [View.read_writes_eq_canon _ _ _ (fun y => ⟨_, List.mem_cons_self, View.mem_set_unit_zero hz2 inb_S1024x256_S1024x256_0_0 y⟩)]
    rw [View.canon_cons_unit_zero hz2, View.readCov_unit_zero _ hz2]
    simp only [View.readAt_eq_ld, View.ld_unit_zero (S := S1024x512) hz2, View.ld_unit_zero (S := S512x256) hz2,
    View.ld_unit_zero (S := S1024x1024) hz2, View.ld_unit_zero (S := S1024x256) hz2]
  iexists _; isplitr
  swap; · iexact HS
  ipureintro
  sl_unfold_run_names
  rw [View.read_writes_eq_canon _ _ _ (fun y => ⟨_, List.mem_cons_self, View.mem_set_unit_zero hz2 inb_S1024x256_S1024x256_0_0 y⟩)]
  rw [View.canon_cons_unit_zero hz2]
  simp only [View.readAt_eq_ld, View.ld_unit_zero (S := S1024x512) hz2, View.ld_unit_zero (S := S512x256) hz2,
    View.ld_unit_zero (S := S1024x1024) hz2, View.ld_unit_zero (S := S1024x256) hz2]

section Region
-- the TensorCore's buffer contents when the region is entered
variable (V : (c : Dev nD) → (b : Ref sig .tc) → Buf (Elt F) ((c : Thread nD τ).loc b))

/-! ## The windows' blocks and the accumulator point by point -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- THE ACCUMULATION. What the accumulator holds after the body at position `n`: one step
    `acc + adjacency block · (feature block · weights)` from the zero fill where `n` starts a row block
    (`n % 8 = 0`), from what position `n - 1` left otherwise. -/
def accAt (c : Dev nD) : (n : ℕ) → n < cfg0.N → Vec F S1024x256 .f32
  | 0, hn => k0_pay2 (iblk V c 1 ⟨0, hn⟩) (iblk V c 2 ⟨0, hn⟩) (iblk V c 0 ⟨0, hn⟩) (k0_pay1 (F := F))
  | n + 1, hn => k0_pay2 (iblk V c 1 ⟨n + 1, hn⟩) (iblk V c 2 ⟨n + 1, hn⟩) (iblk V c 0 ⟨n + 1, hn⟩)
      (if (n + 1) % 8 = 0 then k0_pay1 (F := F) else accAt c n (Nat.lt_of_succ_lt hn))

/-- At the first step of a row block the accumulator is one step from zero. -/
theorem accAt_first (c : Dev nD) (t : Fin cfg0.N) (h : t.val % 8 = 0) :
    accAt V c t.val t.isLt = k0_pay2 (iblk V c 1 t) (iblk V c 2 t) (iblk V c 0 t) (k0_pay1 (F := F)) := by
  obtain ⟨n, hn⟩ := t
  cases n with
  | zero => rfl
  | succ n => exact congrArg (k0_pay2 (iblk V c 1 ⟨n + 1, hn⟩) (iblk V c 2 ⟨n + 1, hn⟩) (iblk V c 0 ⟨n + 1, hn⟩)) (if_pos h)

/-- At any later step it is one step from what the point before left. -/
theorem accAt_next (c : Dev nD) (t : Fin cfg0.N) (h : ¬t.val % 8 = 0) :
    accAt V c t.val t.isLt = k0_pay2 (iblk V c 1 t) (iblk V c 2 t) (iblk V c 0 t)
      (accAt V c (t.val - 1) (Nat.lt_of_le_of_lt (Nat.sub_le _ _) t.isLt)) := by
  obtain ⟨n, hn⟩ := t
  cases n with
  | zero => exact absurd (Nat.zero_mod _) h
  | succ n => exact congrArg (k0_pay2 (iblk V c 1 ⟨n + 1, hn⟩) (iblk V c 2 ⟨n + 1, hn⟩) (iblk V c 0 ⟨n + 1, hn⟩)) (if_neg h)

/-! ## The region invariant -/

/-- The core's scoped buffers that are neither a staging buffer of this call nor its accumulator: the other calls'
    staging buffers and accumulator, each at some contents. The body never touches them. -/
def restOthers (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f))

/-- The launch's invariant (what the call is entered with: the kernels' working buffers at anything and the generator
    register), with the accumulator split off as a memref owned at some contents. -/
theorem PhiA_eq (c : Dev nD) :
    (Pipeline.ΦA spec0 c : sProp 𝕄)
      = iprop(((∃ d, owns (c : Thread nD τ) scM fullShare d) ∗ restOthers (F := F) c) ∗ (∃ r, prngReg c r)) := by
  unfold Pipeline.ΦA restOthers; rw [scopedRest0_eq]; simp only [scM, owns_whole]; try rfl

/-- The invariant before position `n`: before the first point the launch's (every working buffer at anything);
    afterwards the accumulator at what the point before left (`accAt`), the rest as before. -/
def PhiS (c : Dev nD) : (n : ℕ) → n ≤ cfg0.N → sProp 𝕄
  | 0, _ => Pipeline.ΦA spec0 c
  | n + 1, hn => iprop((owns (c : Thread nD τ) scM fullShare (accAt V c n hn) ∗ restOthers (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM fullShare (accAt V c n hn) ∗ restOthers (F := F) c) ∗ (∃ r, prngReg c r)) := rfl

theorem PhiS_pos (c : Dev nD) (n : ℕ) (h : n ≤ cfg0.N) (hz : n ≠ 0) :
    PhiS V c n h = iprop((owns (c : Thread nD τ) scM fullShare (accAt V c (n - 1) (by omega)) ∗ restOthers (F := F) c) ∗ (∃ r, prngReg c r)) := by
  cases n with
  | zero => exact absurd rfl hz
  | succ n => rfl

/-! ## The proof data -/

/-- The proof data of the call on core `c`: the arrays as the region finds them; after the body each input's
    buffer at its block, the output's at the positive part of the accumulator (what the body stores at the last
    step of a row block; the window is idle elsewhere); the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay3 (accAt V c t.val t.isLt)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = k0_pay3 (accAt V c t.val t.isLt) := by dsimp only [dat]

/-- What the body leaves in the output's buffer at the last step of a row block. -/
theorem after3_last (c : Dev nD) (t : Fin cfg0.N) (h : t.val % 8 = 7) : (dat V c).after 3 t = k0_pay3 (accAt V c t.val t.isLt) :=
  after3 V c t

theorem PhiS_castSucc (c : Dev nD) (t : Fin cfg0.N) :
    (dat V c).Φ t.castSucc = PhiS V c t.val (Nat.le_of_lt t.isLt) := by
  dsimp only [dat]; simp only [Fin.coe_castSucc]

/-- Each input's current staging buffer holds its block at every point, fetched there or not: unfetched, the block
    index has not moved (the weights are fetched once, at the first point). -/
theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- An input's buffer is left at its block. -/
theorem leaves_in0 (c : Dev nD) (t : Fin cfg0.N) : (dat V c).leavesExact 0 t = owns (c : Thread nD τ) (ms0 t) fullShare (iblk V c 0 t) := by
  rw [show (dat V c).leavesExact 0 t = owns (c : Thread nD τ) (ms0 t) fullShare ((dat V c).after 0 t) from by
    unfold Dat.leavesExact; rw [liveAt0 t], after0]
theorem leaves_in1 (c : Dev nD) (t : Fin cfg0.N) : (dat V c).leavesExact 1 t = owns (c : Thread nD τ) (ms1 t) fullShare (iblk V c 1 t) := by
  rw [show (dat V c).leavesExact 1 t = owns (c : Thread nD τ) (ms1 t) fullShare ((dat V c).after 1 t) from by
    unfold Dat.leavesExact; rw [liveAt1 t], after1]
theorem leaves_in2 (c : Dev nD) (t : Fin cfg0.N) : (dat V c).leavesExact 2 t = owns (c : Thread nD τ) (ms2 t) fullShare (iblk V c 2 t) := by
  rw [show (dat V c).leavesExact 2 t = owns (c : Thread nD τ) (ms2 t) fullShare ((dat V c).after 2 t) from by
    unfold Dat.leavesExact; rw [liveAt2 t], after2]
/-- At the last step of a row block the output's buffer is left at the positive part of the accumulator. -/
theorem leaves_out3 (c : Dev nD) (t : Fin cfg0.N) (h : t.val % 8 = 7) :
    (dat V c).leavesExact 3 t = owns (c : Thread nD τ) (ms3 t) fullShare (k0_pay3 (accAt V c t.val t.isLt)) := by
  rw [show (dat V c).leavesExact 3 t = owns (c : Thread nD τ) (ms3 t) fullShare ((dat V c).after 3 t) from by
    unfold Dat.leavesExact; rw [liveAt3 t h], after3]

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point, by the step within the row block: the inputs' buffers hold their blocks; the invariant hands
    the body the accumulator (at anything before the first point, at what the point before left afterwards) and takes it
    back at this point's contents; the output's buffer is stored at the last step and handed back untouched elsewhere. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).owesAt () t.succ = (dat V c).owesAt () t.castSucc from rfl]
  rw [show (dat V c).Φ t.succ = PhiS V c (t.val + 1) t.isLt from rfl, PhiS_succ]
  rw [leaves_in0, leaves_in1, leaves_in2]
  have hN : t.val < 64 := lt_of_lt_of_eq t.isLt (show cfg0.N = 64 from N_0)
  by_cases h0 : t.val % 8 = 0
  · have h1 : ¬t.val % 8 = 7 := by omega
    rw [Dat.leavesExact_idle (dat V c) 3 t (idleAt3 t h1) (noFlush3 t h1)]
    rw [accAt_first V c t h0]
    by_cases hz : t.val = 0
    · rw [PhiS_castSucc V c t, PhiS_zero V c _ _ hz, PhiA_eq]
      iintro ⟨⟨⟨HS, Hr⟩, Hg⟩, Ho, ⟨%d0, H0⟩, ⟨%d1, H1⟩, ⟨%d2, H2⟩, ⟨%d3, H3⟩⟩
      iapply (kernelA c (grid0.coords t) _ _ _ _ _ _ _ _ _ _ ((hcond0 t).mpr h0) (fun h => h1 ((hcond1 t).mp h)) (iblk V c 0 t) (iblk V c 1 t) (iblk V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, Hr⟩, Hg⟩, Ho, ⟨%d0, H0⟩, ⟨%d1, H1⟩, ⟨%d2, H2⟩, ⟨%d3, H3⟩⟩
      iapply (kernelA c (grid0.coords t) _ _ _ _ _ _ _ _ _ _ ((hcond0 t).mpr h0) (fun h => h1 ((hcond1 t).mp h)) (iblk V c 0 t) (iblk V c 1 t) (iblk V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [accAt_next V c t h0]
    rw [PhiS_castSucc V c t, PhiS_pos V c _ _ hz]
    by_cases h1 : t.val % 8 = 7
    · rw [leaves_out3 V c t h1, accAt_next V c t h0]
      iintro ⟨⟨⟨HS, Hr⟩, Hg⟩, Ho, ⟨%d0, H0⟩, ⟨%d1, H1⟩, ⟨%d2, H2⟩, ⟨%d3, H3⟩⟩
      iapply (kernelC c (grid0.coords t) _ _ _ _ _ _ _ _ _ _ (fun h => h0 ((hcond0 t).mp h)) ((hcond1 t).mpr h1) (iblk V c 0 t) (iblk V c 1 t) (iblk V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · rw [Dat.leavesExact_idle (dat V c) 3 t (idleAt3 t h1) (noFlush3 t h1)]
      iintro ⟨⟨⟨HS, Hr⟩, Hg⟩, Ho, ⟨%d0, H0⟩, ⟨%d1, H1⟩, ⟨%d2, H2⟩, ⟨%d3, H3⟩⟩
      iapply (kernelB c (grid0.coords t) _ _ _ _ _ _ _ _ _ _ (fun h => h0 ((hcond0 t).mp h)) (fun h => h1 ((hcond1 t).mp h)) (iblk V c 0 t) (iblk V c 1 t) (iblk V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the accumulator's contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, Hr⟩, Hg⟩
  isplitl [HS Hr]
  · isplitl [HS]
    · iexists _; iexact HS
    iexact Hr
  iexact Hg

/-- The same after the last point. -/
theorem hout (c : Dev nD) : (dat V c).Φ (Fin.last cfg0.N) ⊢ Pipeline.ΦA spec0 c :=
  Phi_out V c _ (by rw [Fin.val_last]; have : cfg0.N = 64 := N_0; omega)

end Region

end Cert.Kernel.R0

end
-- ==== Proof.K.Reg1.lean ====
/-
  The second call of the program (the fused mean / log-deviation graph convolution and the reparametrisation) as one
  region of the program: its proof data at the buffer contents the region is entered with, and its body obligation.

  The grid is 8 × 8; point t has row block t / 8 and column step k = t % 8. A scratch accumulator is zero-filled
  at k = 0, receives adjblk · (hblk · Wcat) at every point, and at k = 7 the output block is stored as
  acc[:, :128] + epsblk * exp(acc[:, 128:]). The accumulator's contents after each point are named (accAt), which
  is what the value of the output block is later read from.
-/
import proofs.«119699_j17463337026205_1_alg».proof.Proof.Gen.Kernel.Launch
import proofs.«119699_j17463337026205_1_alg».proof.Proof.Gen.Kernel.Skeleton
import proofs.«119699_j17463337026205_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The invariant between points: the scratch accumulator at named contents -/

/-- A scoped buffer of the core at some contents. -/
abbrev sb (c : Dev nD) (b : Ref sig .tc) : sProp 𝕄 :=
  iprop(∃ f : Buf (Elt F) ((c : Thread nD τ).loc b), ((c : Thread nD τ).loc b) ↦{fullShare} f)

/-- The scratch accumulator of the second call, as a memref. -/
abbrev scM : Memref sig .tc .vmem S1024x256 .f32 := Memref.whole cc1_scratch0

/-- The core's scoped buffers that are no staging buffer of this call, the accumulator held as `S`, and the
    generator register at some state. -/
def PhiW (c : Dev nD) (S : sProp 𝕄) : sProp 𝕄 :=
  iprop((sb (F := F) c cc0_stg0_0 ∗ sb (F := F) c cc0_stg0_1 ∗ sb (F := F) c cc0_stg1_0 ∗ sb (F := F) c cc0_stg1_1 ∗ sb (F := F) c cc0_stg2_0 ∗ sb (F := F) c cc0_stg3_0 ∗ sb (F := F) c cc0_stg3_1 ∗ sb (F := F) c cc0_scratch0 ∗ S ∗ sb (F := F) c cc2_stg0_0 ∗ sb (F := F) c cc2_stg0_1 ∗ sb (F := F) c cc2_stg1_0 ∗ sb (F := F) c cc2_stg1_1 ∗ sb (F := F) c cc2_stg2_0 ∗ sb (F := F) c cc2_stg2_1) ∗ (∃ r, prngReg c r))

/-- The accumulator can be taken out of the invariant and put back at other contents. -/
theorem PhiW_wand (c : Dev nD) (S S' : sProp 𝕄) : PhiW (F := F) c S ⊢ iprop(S ∗ (S' -∗ PhiW (F := F) c S')) := by
  unfold PhiW
  iintro ⟨⟨R0, R1, R2, R3, R4, R5, R6, R7, HS, R9, R10, R11, R12, R13, R14⟩, Hg⟩
  isplitl [HS]; · iexact HS
  iintro HS'
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [HS']; · iexact HS'
  isplitl [R9]; · iexact R9
  isplitl [R10]; · iexact R10
  isplitl [R11]; · iexact R11
  isplitl [R12]; · iexact R12
  isplitl [R13]; · iexact R13
  iexact R14

/-- The launch's invariant holds the accumulator at some contents. -/
theorem PhiA_eq (c : Dev nD) :
    (Pipeline.ΦA spec1 c : sProp 𝕄) = PhiW (F := F) c (iprop(∃ d, owns (c : Thread nD τ) scM fullShare d)) := by
  unfold Pipeline.ΦA PhiW; rw [scopedRest1_eq]; simp only [scM, owns_whole]; try rfl

-- the buffer contents of the core when the call is entered: the parameter everything below is stated at
variable (V : (c : Dev nD) → (b : Ref sig .tc) → Buf (Elt F) ((c : Thread nD τ).loc b))

/-! ## The windows' blocks -/

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (where it is not
    fetched its block index has not moved), for any proof data whose array is the entry contents and whose body leaves
    the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (where it is not
    fetched its block index has not moved), for any proof data whose array is the entry contents and whose body leaves
    the block in place. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (where it is not
    fetched its block index has not moved), for any proof data whose array is the entry contents and whose body leaves
    the block in place. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (where it is not
    fetched its block index has not moved), for any proof data whose array is the entry contents and whose body leaves
    the block in place. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditionals, in closed form over the grid -/

/-- The first conditional's guard (the column coordinate is the first), from the grid coordinates. -/
abbrev cond0 (i : grid1.Coords) : Prop := (Scalar.cmpi .ne (Scalar.extui (Scalar.cmpi .eq (BitVec.ofNat 32 (i 1).val) 0#32)) 0#32) = 1#1
/-- The second conditional's guard (the column coordinate is the last). -/
abbrev cond1 (i : grid1.Coords) : Prop := k1_cond2 i = 1#1

theorem hz2 : (![0, 0] : Fin 2 → ℕ) = fun _ => 0 := by
  funext a; fin_cases a <;> rfl

/-- The first guard holds where the column coordinate is 0: the points ≡ 0 (mod 8). -/
theorem hcond0 : ∀ t : Fin cfg1.N, cond0 (grid1.coords t) ↔ t.val % 8 = 0 :=
  (by decide +kernel : ∀ t : Fin grid1.N, cond0 (grid1.coords t) ↔ t.val % 8 = 0)
/-- The second holds where it is 7: the points ≡ 7 (mod 8). -/
theorem hcond1 : ∀ t : Fin cfg1.N, cond1 (grid1.coords t) ↔ t.val % 8 = 7 :=
  (by decide +kernel : ∀ t : Fin grid1.N, cond1 (grid1.coords t) ↔ t.val % 8 = 7)

/-- The input windows are never idle. -/
theorem liveAt_0 : ∀ t : Fin cfg1.N, cfg1.idle 0 (grid1.coords t) = false := fun _ => rfl
theorem liveAt_1 : ∀ t : Fin cfg1.N, cfg1.idle 1 (grid1.coords t) = false := fun _ => rfl
theorem liveAt_2 : ∀ t : Fin cfg1.N, cfg1.idle 2 (grid1.coords t) = false := fun _ => rfl
theorem liveAt_3 : ∀ t : Fin cfg1.N, cfg1.idle 3 (grid1.coords t) = false := fun _ => rfl
/-- The output window is idle, and not written back, exactly where the second guard fails. -/
theorem idleAt_4 : ∀ t : Fin cfg1.N, ¬cond1 (grid1.coords t) → cfg1.idle 4 (grid1.coords t) = true := by decide +kernel
theorem noFlush_4 : ∀ t : Fin cfg1.N, ¬cond1 (grid1.coords t) → (cfg1.win 4).flush t = false := by decide +kernel
theorem liveAt_4 : ∀ t : Fin cfg1.N, cond1 (grid1.coords t) → cfg1.idle 4 (grid1.coords t) = false := by decide +kernel

/-- Each window's current staging memref at point `t`, as the pipeline passes it to the body. -/
abbrev ms_0 (t : Fin cfg1.N) : Memref sig .tc .vmem S1024x1024 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1024x256 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S256x256 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1024x128 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S1024x128 .f32 := win1_4.stage (cfg1.slots t 4)
abbrev hs_4 (t : Fin cfg1.N) : (ms_4 t).IsWhole := hstage1_4 ((cfg1.slots t 4).cast nbuf1_4)

/-! ## The body on any whole memrefs: its three courses -/

set_option maxHeartbeats 1000000 in
/-- Column coordinate 0: the accumulator is zero-filled, then receives the point's product. The output block is
    not touched. -/
theorem kernelA (c : Dev nD) (i : grid1.Coords)
    (arg2 : Memref sig .tc .vmem S1024x1024 .f32) (harg2 : arg2.IsWhole) (arg3 : Memref sig .tc .vmem S1024x256 .f32) (harg3 : arg3.IsWhole)
    (arg4 : Memref sig .tc .vmem S256x256 .f32) (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x256 .f32) (harg7 : arg7.IsWhole) (hc0 : cond0 i) (hc1 : ¬cond1 i)
    (x0 : Vec F S1024x1024 .f32) (x1 : Vec F S1024x256 .f32) (x2 : Vec F S256x256 .f32) (x3 : Vec F S1024x128 .f32) (xi4 : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4
            ∗ owns (c : Thread nD τ) arg7 fullShare (k1_pay2 x1 x2 x0 (k1_pay1 (F := F)))) -∗ K ⟨⟩))
      ⊢ wp frame (wpE (defs₀ (F := F)) Variants.none c none) E (cc1__cd_kernel i arg2 harg2 arg3 harg3 arg4 harg4 arg5 harg5 arg6 harg6 arg7 harg7) K := by
  simp only [cc1__cd_kernel_eq_skeleton]; unfold cc1__cd_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  rw [View.read_writes_eq_canon _ _ _ (fun y => ⟨_, List.mem_cons_self, View.mem_set_unit_zero hz2 inb_S1024x256_S1024x256_0_0 y⟩),
    View.canon_cons_unit_zero hz2]
  sl_unfold_words
  rw [View.readCov_unit_zero _ hz2]
  simp only [View.readAt_eq_ld, View.ld_unit_zero (S := S1024x256) hz2, View.ld_unit_zero (S := S256x256) hz2,
    View.ld_unit_zero (S := S1024x1024) hz2, View.ld_unit_zero (S := S1024x128) hz2]

set_option maxHeartbeats 1000000 in
/-- Column coordinates 1 … 6: the accumulator receives the point's product on top of what it held. -/
theorem kernelB (c : Dev nD) (i : grid1.Coords)
    (arg2 : Memref sig .tc .vmem S1024x1024 .f32) (harg2 : arg2.IsWhole) (arg3 : Memref sig .tc .vmem S1024x256 .f32) (harg3 : arg3.IsWhole)
    (arg4 : Memref sig .tc .vmem S256x256 .f32) (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x256 .f32) (harg7 : arg7.IsWhole) (hc0 : ¬cond0 i) (hc1 : ¬cond1 i)
    (x0 : Vec F S1024x1024 .f32) (x1 : Vec F S1024x256 .f32) (x2 : Vec F S256x256 .f32) (x3 : Vec F S1024x128 .f32) (xi4 : Vec F S1024x128 .f32)
    (xs : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4
            ∗ owns (c : Thread nD τ) arg7 fullShare (k1_pay2 x1 x2 x0 xs)) -∗ K ⟨⟩))
      ⊢ wp frame (wpE (defs₀ (F := F)) Variants.none c none) E (cc1__cd_kernel i arg2 harg2 arg3 harg3 arg4 harg4 arg5 harg5 arg6 harg6 arg7 harg7) K := by
  simp only [cc1__cd_kernel_eq_skeleton]; unfold cc1__cd_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  rw [View.read_writes_eq_canon _ _ _ (fun y => ⟨_, List.mem_cons_self, View.mem_set_unit_zero hz2 inb_S1024x256_S1024x256_0_0 y⟩),
    View.canon_cons_unit_zero hz2]
  simp only [View.readAt_eq_ld, View.ld_unit_zero (S := S1024x256) hz2, View.ld_unit_zero (S := S256x256) hz2,
    View.ld_unit_zero (S := S1024x1024) hz2, View.ld_unit_zero (S := S1024x128) hz2]

set_option maxHeartbeats 1000000 in
/-- Column coordinate 7: the same, and the output block is stored from the new accumulator and the noise block. -/
theorem kernelC (c : Dev nD) (i : grid1.Coords)
    (arg2 : Memref sig .tc .vmem S1024x1024 .f32) (harg2 : arg2.IsWhole) (arg3 : Memref sig .tc .vmem S1024x256 .f32) (harg3 : arg3.IsWhole)
    (arg4 : Memref sig .tc .vmem S256x256 .f32) (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x256 .f32) (harg7 : arg7.IsWhole) (hc0 : ¬cond0 i) (hc1 : cond1 i)
    (x0 : Vec F S1024x1024 .f32) (x1 : Vec F S1024x256 .f32) (x2 : Vec F S256x256 .f32) (x3 : Vec F S1024x128 .f32)
    (xs : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay3 (k1_pay2 x1 x2 x0 xs) x3)
            ∗ owns (c : Thread nD τ) arg7 fullShare (k1_pay2 x1 x2 x0 xs)) -∗ K ⟨⟩))
      ⊢ wp frame (wpE (defs₀ (F := F)) Variants.none c none) E (cc1__cd_kernel i arg2 harg2 arg3 harg3 arg4 harg4 arg5 harg5 arg6 harg6 arg7 harg7) K := by
  simp only [cc1__cd_kernel_eq_skeleton]; unfold cc1__cd_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_cons_self, View.mem_set_unit_zero hz2 inb_S1024x128_S1024x128_0_0 y⟩),
      View.canon_cons_unit_zero hz2]
    sl_unfold_words
    rw [View.readCov_unit_zero _ hz2]
    simp only [View.readAt_eq_ld, View.ld_unit_zero (S := S1024x256) hz2, View.ld_unit_zero (S := S256x256) hz2,
      View.ld_unit_zero (S := S1024x1024) hz2, View.ld_unit_zero (S := S1024x128) hz2]
  iexists _; isplitr
  swap; · iexact HS
  ipureintro
  sl_unfold_words
  rw [View.read_writes_eq_canon _ _ _ (fun y => ⟨_, List.mem_cons_self, View.mem_set_unit_zero hz2 inb_S1024x256_S1024x256_0_0 y⟩),
    View.canon_cons_unit_zero hz2]
  simp only [View.readAt_eq_ld, View.ld_unit_zero (S := S1024x256) hz2, View.ld_unit_zero (S := S256x256) hz2,
    View.ld_unit_zero (S := S1024x1024) hz2, View.ld_unit_zero (S := S1024x128) hz2]

/-! ## The accumulation -/

/-- The scratch accumulator after the body at point `n`: the step applied to the point's three input blocks and to
    what the point before left, or to the zero fill where the column coordinate is 0. -/
def accAt (c : Dev nD) : (n : ℕ) → n < cfg1.N → Vec F S1024x256 .f32
  | 0, hn => k1_pay2 (iblk V c 1 ⟨0, hn⟩) (iblk V c 2 ⟨0, hn⟩) (iblk V c 0 ⟨0, hn⟩) (k1_pay1 (F := F))
  | n + 1, hn =>
    if (n + 1) % 8 = 0 then
      k1_pay2 (iblk V c 1 ⟨n + 1, hn⟩) (iblk V c 2 ⟨n + 1, hn⟩) (iblk V c 0 ⟨n + 1, hn⟩) (k1_pay1 (F := F))
    else
      k1_pay2 (iblk V c 1 ⟨n + 1, hn⟩) (iblk V c 2 ⟨n + 1, hn⟩) (iblk V c 0 ⟨n + 1, hn⟩) (accAt c n (Nat.lt_of_succ_lt hn))

/-- At a point of column coordinate 0 the accumulation restarts from the zero fill. -/
theorem accAt_first (c : Dev nD) (t : Fin cfg1.N) (h : t.val % 8 = 0) :
    accAt V c t.val t.isLt = k1_pay2 (iblk V c 1 t) (iblk V c 2 t) (iblk V c 0 t) (k1_pay1 (F := F)) := by
  obtain ⟨n, hn⟩ := t
  cases n with
  | zero => rfl
  | succ n => exact (if_pos h).trans rfl

/-- Elsewhere it continues from what the point before left. -/
theorem accAt_next (c : Dev nD) (t : Fin cfg1.N) (h : ¬t.val % 8 = 0) :
    accAt V c t.val t.isLt = k1_pay2 (iblk V c 1 t) (iblk V c 2 t) (iblk V c 0 t)
      (accAt V c (t.val - 1) (Nat.lt_of_le_of_lt (Nat.sub_le _ _) t.isLt)) := by
  obtain ⟨n, hn⟩ := t
  cases n with
  | zero => exact absurd (Nat.zero_mod _) h
  | succ n => exact (if_neg h).trans rfl

/-- The invariant before position `n`: before the first point the launch's; afterwards the accumulator at what the
    point before left. -/
def PhiS (c : Dev nD) : (n : ℕ) → n ≤ cfg1.N → sProp 𝕄
  | 0, _ => Pipeline.ΦA spec1 c
  | n + 1, hn => PhiW (F := F) c (owns (c : Thread nD τ) scM fullShare (accAt V c n hn))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = PhiW (F := F) c (owns (c : Thread nD τ) scM fullShare (accAt V c n hn)) := rfl

theorem PhiS_pos (c : Dev nD) (n : ℕ) (h : n ≤ cfg1.N) (hz : n ≠ 0) :
    PhiS V c n h = PhiW (F := F) c (owns (c : Thread nD τ) scM fullShare (accAt V c (n - 1) (by omega))) := by
  cases n with
  | zero => exact absurd rfl hz
  | succ n => rfl

/-! ## The proof data -/

/-- The proof data of the call on core `c`: the arrays as the call finds them; after the body each input's buffer
    at its block and the output's at the closing step of the accumulator and the noise block (consulted only where the
    column coordinate is 7: elsewhere the window is idle); the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => k1_pay3 (accAt V c t.val t.isLt) (iblk V c 3 t)
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem q_full (c : Dev nD) (w : Fin cfg1.W) : (dat V c).q w = fullShare := rfl
theorem owed_zero (c : Dev nD) (t : Fin (cfg1.N + 1)) : (dat V c).owed t = 0 := rfl

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = k1_pay3 (accAt V c t.val t.isLt) (iblk V c 3 t) := by dsimp only [dat]
/-- What the body leaves in the output window where it stores it. -/
theorem after4_last (c : Dev nD) (t : Fin cfg1.N) (h : t.val % 8 = 7) :
    (dat V c).after 4 t = k1_pay3 (accAt V c t.val t.isLt) (iblk V c 3 t) := after_4 V c t

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d

theorem PhiS_castSucc (c : Dev nD) (t : Fin cfg1.N) :
    (dat V c).Φ t.castSucc = PhiS V c t.val (Nat.le_of_lt t.isLt) := by
  dsimp only [dat]; simp only [Fin.coe_castSucc]

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point. The inputs' memrefs hold their blocks; the column coordinate decides which of the three
    courses the body takes: at 0 it zero-fills the accumulator and adds the point's product, at 1 … 6 it adds it to
    what the point before left, at 7 it adds it and stores the closing step into the output block. The invariant
    hands the body the accumulator (at anything before the first point, else at what the point before left) and takes
    it back at this point's contents; where the output block is not stored its buffer goes back as it came. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  rw [show (dat V c).leavesExact 3 t = owns (c : Thread nD τ) (ms_3 t) fullShare ((dat V c).after 3 t) from by
    unfold Dat.leavesExact; rw [liveAt_3 t], after_3]
  have hN : t.val < 64 := lt_of_lt_of_eq t.isLt (show cfg1.N = 64 from N_1)
  by_cases h0 : t.val % 8 = 0
  · have h1 : ¬t.val % 8 = 7 := by omega
    rw [Dat.leavesExact_idle (dat V c) 4 t (idleAt_4 t (fun h => h1 ((hcond1 t).mp h))) (noFlush_4 t (fun h => h1 ((hcond1 t).mp h)))]
    rw [accAt_first V c t h0]
    by_cases hz : t.val = 0
    · rw [PhiS_castSucc V c t, PhiS_zero V c _ _ hz, PhiA_eq]
      iintro ⟨HΦ, Ho, ⟨%d0, H0⟩, ⟨%d1, H1⟩, ⟨%d2, H2⟩, ⟨%d3, H3⟩, ⟨%d4, H4⟩⟩
      ihave H := (PhiW_wand (F := F) c _ (owns (c : Thread nD τ) scM fullShare (k1_pay2 (iblk V c 1 t) (iblk V c 2 t) (iblk V c 0 t) (k1_pay1 (F := F))))) $$ HΦ
      icases H with ⟨HS, Hw⟩
      iapply (kernelA c (grid1.coords t) _ _ _ _ _ _ _ _ _ _ _ _ ((hcond0 t).mpr h0) (fun h => h1 ((hcond1 t).mp h)) (iblk V c 0 t) (iblk V c 1 t) (iblk V c 2 t) (iblk V c 3 t) ((dat V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hw HS]; · iapply Hw; iexact HS
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨HΦ, Ho, ⟨%d0, H0⟩, ⟨%d1, H1⟩, ⟨%d2, H2⟩, ⟨%d3, H3⟩, ⟨%d4, H4⟩⟩
      ihave H := (PhiW_wand (F := F) c _ (owns (c : Thread nD τ) scM fullShare (k1_pay2 (iblk V c 1 t) (iblk V c 2 t) (iblk V c 0 t) (k1_pay1 (F := F))))) $$ HΦ
      icases H with ⟨HS, Hw⟩
      iapply (kernelA c (grid1.coords t) _ _ _ _ _ _ _ _ _ _ _ _ ((hcond0 t).mpr h0) (fun h => h1 ((hcond1 t).mp h)) (iblk V c 0 t) (iblk V c 1 t) (iblk V c 2 t) (iblk V c 3 t) ((dat V c).before 4 t d4) Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [Hw HS]; · iapply Hw; iexact HS
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [accAt_next V c t h0, PhiS_castSucc V c t, PhiS_pos V c _ _ hz]
    by_cases h1 : t.val % 8 = 7
    · rw [show (dat V c).leavesExact 4 t = owns (c : Thread nD τ) (ms_4 t) fullShare ((dat V c).after 4 t) from by
        unfold Dat.leavesExact; rw [liveAt_4 t ((hcond1 t).mpr h1)], after_4, accAt_next V c t h0]
      iintro ⟨HΦ, Ho, ⟨%d0, H0⟩, ⟨%d1, H1⟩, ⟨%d2, H2⟩, ⟨%d3, H3⟩, ⟨%d4, H4⟩⟩
      ihave H := (PhiW_wand (F := F) c _ (owns (c : Thread nD τ) scM fullShare (k1_pay2 (iblk V c 1 t) (iblk V c 2 t) (iblk V c 0 t) (accAt V c (t.val - 1) (Nat.lt_of_le_of_lt (Nat.sub_le _ _) t.isLt))))) $$ HΦ
      icases H with ⟨HS, Hw⟩
      iapply (kernelC c (grid1.coords t) _ _ _ _ _ _ _ _ _ _ _ _ (fun h => h0 ((hcond0 t).mp h)) ((hcond1 t).mpr h1) (iblk V c 0 t) (iblk V c 1 t) (iblk V c 2 t) (iblk V c 3 t) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [Hw HS]; · iapply Hw; iexact HS
      isplitl [Ho]; · iexact Ho
      isplitl [H0]; · iexact H0
      isplitl [H1]; · iexact H1
      isplitl [H2]; · iexact H2
      isplitl [H3]; · iexact H3
      iexact H4
    · rw [Dat.leavesExact_idle (dat V c) 4 t (idleAt_4 t (fun h => h1 ((hcond1 t).mp h))) (noFlush_4 t (fun h => h1 ((hcond1 t).mp h)))]
      iintro ⟨HΦ, Ho, ⟨%d0, H0⟩, ⟨%d1, H1⟩, ⟨%d2, H2⟩, ⟨%d3, H3⟩, ⟨%d4, H4⟩⟩
      ihave H := (PhiW_wand (F := F) c _ (owns (c : Thread nD τ) scM fullShare (k1_pay2 (iblk V c 1 t) (iblk V c 2 t) (iblk V c 0 t) (accAt V c (t.val - 1) (Nat.lt_of_le_of_lt (Nat.sub_le _ _) t.isLt))))) $$ HΦ
      icases H with ⟨HS, Hw⟩
      iapply (kernelB c (grid1.coords t) _ _ _ _ _ _ _ _ _ _ _ _ (fun h => h0 ((hcond0 t).mp h)) (fun h => h1 ((hcond1 t).mp h)) (iblk V c 0 t) (iblk V c 1 t) (iblk V c 2 t) (iblk V c 3 t) ((dat V c).before 4 t d4) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hw HS]; · iapply Hw; iexact HS
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the call is the invariant before the first point. -/
theorem hin (c : Dev nD) : (Pipeline.ΦA spec1 c : sProp 𝕄) ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the accumulator's contents are forgotten. -/
theorem Phi_out (c : Dev nD) (t : Fin (cfg1.N + 1)) (ht : t.val ≠ 0) : (dat V c).Φ t ⊢ (Pipeline.ΦA spec1 c : sProp 𝕄) := by
  rw [show (dat V c).Φ t = PhiS V c t.val (Nat.le_of_lt_succ t.isLt) from rfl, PhiS_pos V c _ _ ht, PhiA_eq]
  iintro HΦ
  ihave H := (PhiW_wand (F := F) c _ (iprop(∃ d, owns (c : Thread nD τ) scM fullShare d))) $$ HΦ
  icases H with ⟨HS, Hw⟩
  iapply Hw
  iexists _; iexact HS

/-- The same after the last point. -/
theorem hout (c : Dev nD) : (dat V c).Φ (Fin.last cfg1.N) ⊢ (Pipeline.ΦA spec1 c : sProp 𝕄) :=
  Phi_out V c _ (by rw [Fin.val_last]; have : cfg1.N = 64 := N_1; omega)

end Cert.Kernel.R1

end
-- ==== Proof.K.Reg2.lean ====
/-
  Region 2 (the decoder call): the pipeline's proof data and its body obligation.

  The decoder reads two row blocks of the latent array z — block i through window 0 and block j through
  window 1 — and stores, whole, the block (i, j) of the output: the logistic of the product of the first block
  with the transpose of the second. Both input windows are on ONE array. A core holds that array at the full
  share when the region is entered; the proof data deal it between the two windows, the left half of the full
  share to window 0 and the right half to window 1, and the two halves compose to the full share again when the
  region is left, the array being unchanged (no window writes it).
-/
import proofs.«119699_j17463337026205_1_alg».proof.Proof.Gen.Kernel.Launch
import proofs.«119699_j17463337026205_1_alg».proof.Proof.Gen.Kernel.Skeleton
import proofs.«119699_j17463337026205_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 is fetched only where the row block changes, yet its current staging buffer holds its block at
    every point: where it is not fetched the block index has not moved, and the body leaves the block in place. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 likewise (it is fetched at every point). -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rIn : Rect S1024x128 := Rect.unit (s := S1024x128) ![0, 0] S1024x128.size inb_S1024x128_S1024x128_0_0
abbrev rOut : Rect S1024x1024 := Rect.unit (s := S1024x1024) ![0, 0] S1024x1024.size inb_S1024x1024_S1024x1024_0_0

/-! ## What the body leaves in the output window's buffer -/

/-- The output window's staging buffer after the body, from the two input blocks: its one store, of the whole
    buffer, of the payload computed from the two loads. -/
def out2 (x0 x1 : Vec F S1024x128 .f32) : Vec F S1024x1024 .f32 :=
  View.canon [⟨rOut, k2_pay1 (View.ld x0 rIn) (View.ld x1 rIn)⟩]

/-- The one store covers the buffer. -/
theorem cover2 (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body's triple -/

set_option maxHeartbeats 1000000 in
/-- The kernel body on whole staging memrefs, the two inputs' at read contents `x0`, `x1` and the output's at anything,
    runs to the continuation holding the inputs' as they were and the output's at `out2 x0 x1`. -/
theorem sound_kernel (c : Dev nD) (E : Set ℕ) (i : grid2.Coords)
    (arg0 : Memref sig .tc .vmem S1024x128 .f32) (harg0 : arg0.IsWhole)
    (arg1 : Memref sig .tc .vmem S1024x128 .f32) (harg1 : arg1.IsWhole)
    (arg2 : Memref sig .tc .vmem S1024x1024 .f32) (harg2 : arg2.IsWhole)
    (x0 x1 : Vec F S1024x128 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2 x0 x1)) -∗ K ⟨⟩))
      ⊢ wp frame (wpE (defs₀ (F := F)) Variants.none c none) E (cc2__decoder_kernel i arg0 harg0 arg1 harg1 arg2 harg2) K := by
  simp only [cc2__decoder_kernel_eq_skeleton]; unfold cc2__decoder_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The pipeline's proof data -/

/-- The proof data of the decoder's pipeline on core `c`: the arrays as the region finds them; after the body at point
    `t` each input's buffer at its block and the output's at `out2` of the two blocks; the invariant the scoped rest
    and the generator register, untouched; nothing owed. The latent array is read by both input windows: window 0
    holds the left half of its full share, window 1 the right half (the output window's array is held whole). -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => out2 (iblk V c 0 t) (iblk V c 1 t)
  Φ _ := Pipeline.ΦA spec2 c
  q w := match w with
    | ⟨0, _⟩ => fullShare.left
    | ⟨1, _⟩ => fullShare.right
    | ⟨2, _⟩ => fullShare
  owed _ := 0

/-- The proof data's arrays are the region-entry contents. -/
theorem A_eq (c : Dev nD) (w : Fin cfg2.W) : (dat V c).A w = V c (Pipeline.arrRef spec2 w) := by
  dsimp only [dat]

/-- What the body leaves, window by window. -/
theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = out2 (iblk V c 0 t) (iblk V c 1 t) := by dsimp only [dat]

/-- The share each window's array is held at. -/
theorem share0 (c : Dev nD) : (dat V c).share 0 = fullShare.left := rfl
theorem share1 (c : Dev nD) : (dat V c).share 1 = fullShare.right := rfl
theorem share2 (c : Dev nD) : (dat V c).share 2 = fullShare := rfl

/-- Each input's current staging buffer holds its block at every point, fetched there or not. -/
theorem before0 (c : Dev nD) (t : Fin cfg2.N) (d) : (dat V c).before 0 t d = iblk V c 0 t :=
  before_0_of V (dat V c) (A_eq V c 0) (after0 V c) t d
theorem before1 (c : Dev nD) (t : Fin cfg2.N) (d) : (dat V c).before 1 t d = iblk V c 1 t :=
  before_1_of V (dat V c) (A_eq V c 1) (after1 V c) t d

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the inputs' memrefs hold their blocks, so the body's triple applies; the invariant and the
    core's `owes` pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1]
  rw [show (dat V c).Φ t.succ = (dat V c).Φ t.castSucc from rfl,
    show (dat V c).owesAt () t.succ = (dat V c).owesAt () t.castSucc from rfl,
    after0, after1, after2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W2, bigSep_W2]
  exact sound_body V c t

/-! ## The arrays among the core's unscoped buffers: the latent array dealt between its two windows -/

/-- The distinct buffers behind the three windows' arrays: the latent array and the output array. -/
theorem arrBufs_eq (c : Dev nD) (V' : (b : Ref sig .tc) → Buf (Elt F) ((c : Thread nD τ).loc b)) :
    (Pipeline.arrBufs spec2 c V' : sProp 𝕄)
      = iprop((((c : Thread nD τ).loc main_v2) ↦{fullShare} V' main_v2) ∗ (((c : Thread nD τ).loc main_v3) ↦{fullShare} V' main_v3)) := by
  unfold Pipeline.arrBufs
  exact bigSep_eq_bigSepL_of_eq [main_v2, main_v3] (by decide) (by decide) _

/-- The proof data's arrays, window by window: the latent array at the left half of the full share (window 0) and at the
    right half (window 1), the output array at the full share. -/
theorem arrays_eq (c : Dev nD) (G : (w : Fin cfg2.W) → Buf (Elt F) ((cfg2.win w).arr.view.loc (c : Thread nD τ))) :
    ((dat V c).arrays G : sProp 𝕄)
      = iprop((((c : Thread nD τ).loc main_v2) ↦{fullShare.left} G 0) ∗ (((c : Thread nD τ).loc main_v2) ↦{fullShare.right} G 1)
          ∗ (((c : Thread nD τ).loc main_v3) ↦{fullShare} G 2)) := by
  unfold Dat.arrays
  rw [bigSep_W2, (arr_whole2 0).set_eq_univ, (arr_whole2 2).set_eq_univ, share0, share1, share2]

/-- ENTRY: a core's unscoped buffers at the region-entry contents are the proof data's arrays at entry — the latent
    array's full share split into its two halves, one per input window — and the unscoped rest. -/
theorem arrays_of_bufs (c : Dev nD) :
    (unscopedBufs c (V c) : sProp 𝕄)
      ⊢ iprop((dat V c).arrays ((dat V c).arrAt · 0) ∗ Pipeline.unscopedRest spec2 c (V c)) := by
  rw [Pipeline.PerCore.unscopedBufs_split₀ (fun _ : Dev nD => fun _ : Unit => cfg2) () c winFacts₀2.arr_unscoped (V c)]
  refine sep_mono ?_ .rfl
  rw [arrBufs_eq, arrays_eq]
  rw [show (dat V c).arrAt 0 0 = V c main_v2 from rfl, show (dat V c).arrAt 1 0 = V c main_v2 from rfl,
    show (dat V c).arrAt 2 0 = V c main_v3 from rfl]
  iintro ⟨H2, H3⟩
  ihave H := (pointsTo_share (PosShare.mem_left_op_right fullShare)).1 $$ H2
  icases H with ⟨Hl, Hr⟩
  isplitl [Hl]; · iexact Hl
  isplitl [Hr]; · iexact Hr
  iexact H3

/-- EXIT: the proof data's arrays at what the pipeline leaves and the unscoped rest at the entry contents are the core's
    unscoped buffers at any valuation `V'` that has the arrays at those contents and agrees with the entry contents off
    them: the two input windows both end holding the latent array as entered, so its two halves compose to the full
    share again. -/
theorem bufs_of_arrays (c : Dev nD) (V' : (b : Ref sig .tc) → Buf (Elt F) ((c : Thread nD τ).loc b))
    (hF : ∀ w, (dat V c).arrAt w cfg2.N = V' (Pipeline.arrRef spec2 w))
    (hrest : ∀ b, b ∉ Finset.univ.image (Pipeline.arrRef spec2) → V' b = V c b) :
    iprop((dat V c).arrays ((dat V c).arrAt · cfg2.N) ∗ Pipeline.unscopedRest spec2 c (V c))
      ⊢ (unscopedBufs c V' : sProp 𝕄) := by
  rw [Pipeline.PerCore.unscopedBufs_split₀ (fun _ : Dev nD => fun _ : Unit => cfg2) () c winFacts₀2.arr_unscoped V']
  refine sep_mono ?_ (Entails.of_eq ?_)
  · rw [arrBufs_eq, arrays_eq, hF 0, hF 1, hF 2]
    iintro ⟨Hl, Hr, H3⟩
    isplitl [Hl Hr]
    · iapply (pointsTo_share (PosShare.mem_left_op_right fullShare)).2
      isplitl [Hl]; · iexact Hl
      iexact Hr
    iexact H3
  · unfold Pipeline.unscopedRest
    exact bigSep_congr fun b hb => by rw [hrest b (Finset.mem_sdiff.mp hb).2]

end Cert.Kernel.R2

end
-- ==== Proof.K.Run.lean ====
/-
  The run of the whole program, region by region.

  Between two items of the program (a kernel region, or the one host operation that joins the two weight matrices)
  every buffer outside the kernels' working memory holds known contents: at launch the memory the program was
  started on; after a region, the same except that the region's output array holds what its write-backs leave;
  after the host operation, its result written. Each region is entered from the contents before it and left at the
  contents after it, so the three regions and the host operation chain into one run, at whose end every argument
  array holds its launch contents and the result array holds what the third region wrote.
-/
import proofs.«119699_j17463337026205_1_alg».proof.Proof.Gen.Kernel.Launch
import proofs.«119699_j17463337026205_1_alg».proof.Proof.Gen.Kernel.Skeleton
import proofs.«119699_j17463337026205_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«119699_j17463337026205_1_alg».proof.Proof.Gen.Kernel.Regions
import proofs.«119699_j17463337026205_1_alg».proof.Proof.K.Reg0
import proofs.«119699_j17463337026205_1_alg».proof.Proof.K.Reg1
import proofs.«119699_j17463337026205_1_alg».proof.Proof.K.Reg2

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the buffers between the items -/

/-- At launch. -/
abbrev W0 : Dev nD → Valuation τ sig (Elt F) := fun c b => m ((c : Dev nD), b)
/-- The same, read at the core's own references: what the first region is entered from. -/
abbrev V0 : (c : Dev nD) → (b : Ref sig .tc) → Buf (Elt F) ((c : Thread nD τ).loc b) := fun c b => W0 m c b

/-- After the first region: its arrays at what its write-backs leave, every other buffer as entered. -/
def W1 (c : Dev nD) : Valuation τ sig (Elt F) :=
  Pipeline.withArrays spec0 c (W0 m c) fun w => (R0.dat (V0 m) c).arrAt w cfg0.N
theorem W1_arr (c : Dev nD) (w : Fin cfg0.W) :
    W1 m c (Proc.devRef .tc (Pipeline.arrRef spec0 w)) = (R0.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (R0.dat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host operation that joins the two weight matrices. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b

/-- After the second region. -/
def W3 (c : Dev nD) : Valuation τ sig (Elt F) :=
  Pipeline.withArrays spec1 c (W2 m c) fun w => (R1.dat (V2 m) c).arrAt w cfg1.N
theorem W3_arr (c : Dev nD) (w : Fin cfg1.W) :
    W3 m c (Proc.devRef .tc (Pipeline.arrRef spec1 w)) = (R1.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (R1.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the third region: only the result array changes (both its input windows read one array, which it leaves
    as entered). -/
def W4 (c : Dev nD) : Valuation τ sig (Elt F) :=
  Function.update (W3 m c) (Proc.devRef .tc main_v3) ((R2.dat (V3 m) c).arrAt 2 cfg2.N)
theorem W4_out (c : Dev nD) : W4 m c (Proc.devRef .tc main_v3) = (R2.dat (V3 m) c).arrAt 2 cfg2.N := by
  unfold W4; exact Function.update_self ..
theorem W4_of_ne (c : Dev nD) (b : Ref sig .tc) (hb : b ≠ main_v3) :
    W4 m c (Proc.devRef .tc b) = W3 m c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m c b

/-- An input window's array is left as the region found it: nothing is written back through an input window. -/
theorem W1_in (c : Dev nD) (w : Fin cfg0.W) (hw : (cfg0.win w).isOut = false) :
    W1 m c (Proc.devRef .tc (Pipeline.arrRef spec0 w)) = W0 m c (Proc.devRef .tc (Pipeline.arrRef spec0 w)) :=
  (W1_arr m c w).trans (((R0.dat (V0 m) c).arrAt_in w hw _).trans (R0.A_eq (V0 m) c w))
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((R1.dat (V2 m) c).arrAt_in w hw _).trans (R1.A_eq (V2 m) c w))

/-! ## The arguments end as launched -/

/-- `main_arg0` ends as launched: no region writes it back changed and the host operation does not write it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := StableHlo.after_of_writes_sub hostOps1 _ hostOps1_writes (by decide)
    _ = W0 m c (Proc.devRef .tc main_arg0) := W1_in m c 1 rfl
    _ = m ((c : Thread nD τ).loc main_arg0) := rfl

/-- `main_arg1` ends as launched: no region writes it back changed and the host operation does not write it. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_in m c 0 rfl
    _ = W1 m c (Proc.devRef .tc main_arg1) := StableHlo.after_of_writes_sub hostOps1 _ hostOps1_writes (by decide)
    _ = W0 m c (Proc.devRef .tc main_arg1) := W1_in m c 0 rfl
    _ = m ((c : Thread nD τ).loc main_arg1) := rfl

/-- `main_arg2` ends as launched: no region writes it back changed and the host operation does not write it. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := StableHlo.after_of_writes_sub hostOps1 _ hostOps1_writes (by decide)
    _ = W0 m c (Proc.devRef .tc main_arg2) := W1_in m c 2 rfl
    _ = m ((c : Thread nD τ).loc main_arg2) := rfl

/-- `main_arg3` ends as launched: no region writes it back changed and the host operation does not write it. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := StableHlo.after_of_writes_sub hostOps1 _ hostOps1_writes (by decide)
    _ = W0 m c (Proc.devRef .tc main_arg3) := W1_of_ne m c main_arg3 (by decide)
    _ = m ((c : Thread nD τ).loc main_arg3) := rfl

/-- `main_arg4` ends as launched: no region writes it back changed and the host operation does not write it. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := StableHlo.after_of_writes_sub hostOps1 _ hostOps1_writes (by decide)
    _ = W0 m c (Proc.devRef .tc main_arg4) := W1_of_ne m c main_arg4 (by decide)
    _ = m ((c : Thread nD τ).loc main_arg4) := rfl

/-- `main_arg5` ends as launched: no region writes it back changed and the host operation does not write it. -/
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_in m c 3 rfl
    _ = W1 m c (Proc.devRef .tc main_arg5) := StableHlo.after_of_writes_sub hostOps1 _ hostOps1_writes (by decide)
    _ = W0 m c (Proc.devRef .tc main_arg5) := W1_of_ne m c main_arg5 (by decide)
    _ = m ((c : Thread nD τ).loc main_arg5) := rfl

/-! ## The third region's exit contents -/

theorem hF2 (c : Dev nD) : ∀ w : Fin cfg2.W, (R2.dat (V3 m) c).arrAt w cfg2.N = V4 m c (Pipeline.arrRef spec2 w)
  | ⟨0, _⟩ => (((R2.dat (V3 m) c).arrAt_in 0 rfl _).trans (R2.A_eq (V3 m) c 0)).trans (W4_of_ne m c main_v2 (by decide)).symm
  | ⟨1, _⟩ => (((R2.dat (V3 m) c).arrAt_in 1 rfl _).trans (R2.A_eq (V3 m) c 1)).trans (W4_of_ne m c main_v2 (by decide)).symm
  | ⟨2, _⟩ => (W4_out m c).symm
theorem hrest2 (c : Dev nD) : ∀ b, b ∉ Finset.univ.image (Pipeline.arrRef spec2) → V4 m c b = V3 m c b :=
  fun b hb => W4_of_ne m c b fun e => hb (Finset.mem_image.mpr ⟨2, Finset.mem_univ _, e.symm⟩)

/-! ## The proof data of the three regions, and what rides beside the buffers -/

/-- Each region's proof data at the contents it is entered from. -/
def pdats : (p : Fin 3) → (c : Dev nD) → Dat τ (Elt F) Unit ℕ (UR sig nD τ) ℕ (Pipeline.pin (pcfgs (F := F)) adm p) c
  | ⟨0, _⟩ => fun c => R0.dat (V0 m) c
  | ⟨1, _⟩ => fun c => R1.dat (V2 m) c
  | ⟨2, _⟩ => fun c => R2.dat (V3 m) c
abbrev 𝒱₀ : Variants := Variants.none
/-- No core owes another anything. -/
abbrev L : GSem nD τ sig → Finset Unit := fun _ => ∅
abbrev lv : GSem nD τ sig → Unit → ℕ := fun _ _ => 0
/-- Beside the buffers, through every item: the core's generator register at some state, and nothing owed. -/
abbrev R (c : Dev nD) : sProp 𝕄 := iprop((∃ r, prngReg c r) ∗ ∃ W, owes (c : Thread nD τ) (0 : CellTallies nD τ sig Unit) W)
/-- The host operation as an item: from the contents `W` to those contents after it. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the program ends with, the `owes` apart. -/
abbrev Tₙ (c : Dev nD) : sProp 𝕄 := iprop(StableHlo.held (c : Thread nD τ) (Pipeline.ucRefs τ sig) (W4 m c) ∗ ∃ r, prngReg c r)

/-! ## The regions as items of the program -/

set_option backward.isDefEq.respectTransparency.types false in
/-- Region 0: entered with every buffer outside the kernels' working memory at `W0`, left with them at `W1`. Its windows' arrays
    are taken out of those buffers at entry and put back at what the write-backs leave at exit; the generator register and the
    kernel's working buffers go into the region's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun w => R0.A_eq (V0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec0 c : sProp 𝕄) ⊢ (pdats m 0 c).Φ 0 from R0.hin (V0 m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ (Pipeline.ΦA spec0 c : sProp 𝕄) from R0.hout (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every buffer outside the kernels' working memory at `W2`, left with them at `W3`. Its windows' arrays
    are taken out of those buffers at entry and put back at what the write-backs leave at exit; the generator register and the
    kernel's working buffers go into the region's invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun w => R1.A_eq (V2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m 1 c).Φ 0 from R1.hin (V2 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ (Pipeline.ΦA spec1 c : sProp 𝕄) from R1.hout (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with the buffers at `W3`, left with them at `W4`. Both its input windows read the latent array: at entry the
    array's full share is dealt between them, at exit the two halves (the array unchanged) are joined again, and the result
    array comes back at what the write-backs leave. It is the last item: what it leaves is what the program ends with. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (R2.body_obligation (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := R2.arrays_of_bufs (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := R2.bufs_of_arrays (V3 m) c (V4 m c) (hF2 m c) (hrest2 m c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as its items, and the run -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .region (reg2 m) ]
theorem main_run (c : Dev nD) : main (F := F) c = Pipeline.Seg.run (segs m) := (main_chain c).trans (by chain_rfl)

set_option backward.isDefEq.respectTransparency.types false in
/-- From any memory with every counter at zero, every weakly fair execution of the program terminates without a fault, and at
    its end every buffer outside the kernels' working memory holds the last contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.Kernel.Run

end
-- ==== Proof.KI.Reg0.lean ====
/-
  The first call of the program: the hidden layer H = relu (A · (X · W₁)), row block by row block.

  The grid has 8 × 8 points; point t works on row block t / 8 of the 8192 rows and on step t % 8 of the contraction over
  the 8192 columns of A. At every point the body adds, into a 1024 × 256 accumulator it carries from point to point,
  the product of the 1024 × 1024 block (t / 8, t % 8) of A with the product of the 1024 × 512 row block t % 8 of X and
  the whole of W₁. At step 0 the accumulator is first filled with zeros; at step 7 the entrywise maximum of the
  accumulator with zero is stored into the output's block, which is written back exactly there.

  This module states, for arbitrary contents V of the buffers when the call is entered: each window's block at a point,
  the accumulator after each point (a recursion on the point), the body's effect in each of its three control cases,
  the invariant that carries the accumulator between points, and the resulting obligation of the body at every point.
-/
import proofs.«119699_j17463337026205_1_alg».proof.Proof.Gen.KernelIdeal.Launch
import proofs.«119699_j17463337026205_1_alg».proof.Proof.Gen.KernelIdeal.Skeleton
import proofs.«119699_j17463337026205_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the grid -/

theorem hz2 : (![0, 0] : Fin 2 → Nat) = fun _ => 0 := funext fun a => by fin_cases a <;> rfl

/-- The first condition of the body: the contraction coordinate is zero (the accumulator is zero-filled). -/
abbrev cond0 (i : grid0.Coords) : Prop := (Scalar.cmpi .ne (Scalar.extui (Scalar.cmpi .eq (BitVec.ofNat 32 (i 1).val) 0#32)) 0#32) = 1#1
/-- The second condition: the contraction coordinate is the last one (the output block is stored). -/
abbrev cond1 (i : grid0.Coords) : Prop := k0_cond2 i = 1#1

/-- Point `t` has row block `t / 8` and contraction step `t % 8`: the first condition holds where the step is 0, -/
theorem hcond0 : ∀ t : Fin cfg0.N, cond0 (grid0.coords t) ↔ t.val % 8 = 0 :=
  (by decide +kernel : ∀ t : Fin grid0.N, cond0 (grid0.coords t) ↔ t.val % 8 = 0)
/-- the second where it is 7. -/
theorem hcond1 : ∀ t : Fin cfg0.N, cond1 (grid0.coords t) ↔ t.val % 8 = 7 :=
  (by decide +kernel : ∀ t : Fin grid0.N, cond1 (grid0.coords t) ↔ t.val % 8 = 7)

/-- The three input windows are live at every point; the output window is live exactly at the last step of a row block. -/
theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem idleAt3 : ∀ t : Fin cfg0.N, ¬t.val % 8 = 7 → cfg0.idle 3 (grid0.coords t) = true := by decide +kernel
theorem liveAt3 : ∀ t : Fin cfg0.N, t.val % 8 = 7 → cfg0.idle 3 (grid0.coords t) = false := by decide +kernel
theorem noFlush3 (t : Fin cfg0.N) (h : ¬t.val % 8 = 7) : (cfg0.win 3).flush t = false := by
  cases hf : (cfg0.win 3).flush t with
  | false => rfl
  | true => exact absurd ((flush0_3 t).mp hf) h

/-! ## The staging memrefs at a point, and the scratch -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x256 .f32 := win0_3.stage (cfg0.slots t 3)
abbrev hs3 (t : Fin cfg0.N) : (ms3 t).IsWhole := hstage0_3 ((cfg0.slots t 3).cast nbuf0_3)
/-- The accumulator: a whole scoped buffer of the kernel's own, carried from point to point. -/
abbrev scM : Memref sig .tc .vmem S1024x256 .f32 := Memref.whole cc0_scratch0

/-! ## The body on any whole memrefs, case by case

`x0` is the adjacency block, `x1` the feature block, `x2` the weight matrix; the accumulator step is
`k0_pay2 x1 x2 x0 acc = acc + x0 · (x1 · x2)`. -/

set_option maxHeartbeats 1000000 in
/-- First step of a row block: the accumulator (at anything) is zero-filled, then stepped; the output's buffer is
    handed back as found. -/
theorem kernelA (c : Dev nD) (i : grid0.Coords)
    (arg2 : Memref sig .tc .vmem S1024x1024 .f32) (harg2 : arg2.IsWhole) (arg3 : Memref sig .tc .vmem S1024x512 .f32) (harg3 : arg3.IsWhole)
    (arg4 : Memref sig .tc .vmem S512x256 .f32) (harg4 : arg4.IsWhole) (arg5 : Memref sig .tc .vmem S1024x256 .f32) (harg5 : arg5.IsWhole)
    (arg6 : Memref sig .tc .vmem S1024x256 .f32) (harg6 : arg6.IsWhole) (hc0 : cond0 i) (hc1 : ¬cond1 i)
    (x0 : Vec F S1024x1024 .f32) (x1 : Vec F S1024x512 .f32) (x2 : Vec F S512x256 .f32) (xi3 : Vec F S1024x256 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay2 x1 x2 x0 (k0_pay1 (F := F)))) -∗ K ⟨⟩))
      ⊢ wp frame (wpE (defs₀ (F := F)) Variants.none c none) E (cc0__ab_kernel i arg2 harg2 arg3 harg3 arg4 harg4 arg5 harg5 arg6 harg6) K := by
  simp only [cc0__ab_kernel_eq_skeleton]; unfold cc0__ab_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  rw [View.read_writes_eq_canon _ _ _ (fun y => ⟨_, List.mem_cons_self, View.mem_set_unit_zero hz2 inb_S1024x256_S1024x256_0_0 y⟩)]
  rw [View.canon_cons_unit_zero hz2, View.readCov_unit_zero _ hz2]
  simp only [View.readAt_eq_ld, View.ld_unit_zero (S := S1024x512) hz2, View.ld_unit_zero (S := S512x256) hz2,
    View.ld_unit_zero (S := S1024x1024) hz2, View.ld_unit_zero (S := S1024x256) hz2]

set_option maxHeartbeats 1000000 in
/-- A middle step: the accumulator, at what the step before left (`xs`), is stepped; the output's buffer is handed
    back as found. -/
theorem kernelB (c : Dev nD) (i : grid0.Coords)
    (arg2 : Memref sig .tc .vmem S1024x1024 .f32) (harg2 : arg2.IsWhole) (arg3 : Memref sig .tc .vmem S1024x512 .f32) (harg3 : arg3.IsWhole)
    (arg4 : Memref sig .tc .vmem S512x256 .f32) (harg4 : arg4.IsWhole) (arg5 : Memref sig .tc .vmem S1024x256 .f32) (harg5 : arg5.IsWhole)
    (arg6 : Memref sig .tc .vmem S1024x256 .f32) (harg6 : arg6.IsWhole) (hc0 : ¬cond0 i) (hc1 : ¬cond1 i)
    (x0 : Vec F S1024x1024 .f32) (x1 : Vec F S1024x512 .f32) (x2 : Vec F S512x256 .f32) (xi3 : Vec F S1024x256 .f32)
    (xs : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay2 x1 x2 x0 xs)) -∗ K ⟨⟩))
      ⊢ wp frame (wpE (defs₀ (F := F)) Variants.none c none) E (cc0__ab_kernel i arg2 harg2 arg3 harg3 arg4 harg4 arg5 harg5 arg6 harg6) K := by
  simp only [cc0__ab_kernel_eq_skeleton]; unfold cc0__ab_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  rw [View.read_writes_eq_canon _ _ _ (fun y => ⟨_, List.mem_cons_self, View.mem_set_unit_zero hz2 inb_S1024x256_S1024x256_0_0 y⟩)]
  rw [View.canon_cons_unit_zero hz2]
  simp only [View.readAt_eq_ld, View.ld_unit_zero (S := S1024x512) hz2, View.ld_unit_zero (S := S512x256) hz2,
    View.ld_unit_zero (S := S1024x1024) hz2, View.ld_unit_zero (S := S1024x256) hz2]

set_option maxHeartbeats 1000000 in
/-- Last step of a row block: the accumulator is stepped, and the output's buffer (at anything) is stored with the
    positive part `k0_pay3` of the new accumulator. -/
theorem kernelC (c : Dev nD) (i : grid0.Coords)
    (arg2 : Memref sig .tc .vmem S1024x1024 .f32) (harg2 : arg2.IsWhole) (arg3 : Memref sig .tc .vmem S1024x512 .f32) (harg3 : arg3.IsWhole)
    (arg4 : Memref sig .tc .vmem S512x256 .f32) (harg4 : arg4.IsWhole) (arg5 : Memref sig .tc .vmem S1024x256 .f32) (harg5 : arg5.IsWhole)
    (arg6 : Memref sig .tc .vmem S1024x256 .f32) (harg6 : arg6.IsWhole) (hc0 : ¬cond0 i) (hc1 : cond1 i)
    (x0 : Vec F S1024x1024 .f32) (x1 : Vec F S1024x512 .f32) (x2 : Vec F S512x256 .f32)
    (xs : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 x1 x2 x0 xs)) ∗ owns (c : Thread nD τ) arg6 fullShare (k0_pay2 x1 x2 x0 xs)) -∗ K ⟨⟩))
      ⊢ wp frame (wpE (defs₀ (F := F)) Variants.none c none) E (cc0__ab_kernel i arg2 harg2 arg3 harg3 arg4 harg4 arg5 harg5 arg6 harg6) K := by
  simp only [cc0__ab_kernel_eq_skeleton]; unfold cc0__ab_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [View.read_writes_eq_canon _ _ _ (fun y => ⟨_, List.mem_cons_self, View.mem_set_unit_zero hz2 inb_S1024x256_S1024x256_0_0 y⟩)]
    rw [View.canon_cons_unit_zero hz2, View.readCov_unit_zero _ hz2]
    simp only [View.readAt_eq_ld, View.ld_unit_zero (S := S1024x512) hz2, View.ld_unit_zero (S := S512x256) hz2,
    View.ld_unit_zero (S := S1024x1024) hz2, View.ld_unit_zero (S := S1024x256) hz2]
  iexists _; isplitr
  swap; · iexact HS
  ipureintro
  sl_unfold_run_names
  rw [View.read_writes_eq_canon _ _ _ (fun y => ⟨_, List.mem_cons_self, View.mem_set_unit_zero hz2 inb_S1024x256_S1024x256_0_0 y⟩)]
  rw [View.canon_cons_unit_zero hz2]
  simp only [View.readAt_eq_ld, View.ld_unit_zero (S := S1024x512) hz2, View.ld_unit_zero (S := S512x256) hz2,
    View.ld_unit_zero (S := S1024x1024) hz2, View.ld_unit_zero (S := S1024x256) hz2]

section Region
-- the TensorCore's buffer contents when the region is entered
variable (V : (c : Dev nD) → (b : Ref sig .tc) → Buf (Elt F) ((c : Thread nD τ).loc b))

/-! ## The windows' blocks and the accumulator point by point -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- THE ACCUMULATION. What the accumulator holds after the body at position `n`: one step
    `acc + adjacency block · (feature block · weights)` from the zero fill where `n` starts a row block
    (`n % 8 = 0`), from what position `n - 1` left otherwise. -/
def accAt (c : Dev nD) : (n : ℕ) → n < cfg0.N → Vec F S1024x256 .f32
  | 0, hn => k0_pay2 (iblk V c 1 ⟨0, hn⟩) (iblk V c 2 ⟨0, hn⟩) (iblk V c 0 ⟨0, hn⟩) (k0_pay1 (F := F))
  | n + 1, hn => k0_pay2 (iblk V c 1 ⟨n + 1, hn⟩) (iblk V c 2 ⟨n + 1, hn⟩) (iblk V c 0 ⟨n + 1, hn⟩)
      (if (n + 1) % 8 = 0 then k0_pay1 (F := F) else accAt c n (Nat.lt_of_succ_lt hn))

/-- At the first step of a row block the accumulator is one step from zero. -/
theorem accAt_first (c : Dev nD) (t : Fin cfg0.N) (h : t.val % 8 = 0) :
    accAt V c t.val t.isLt = k0_pay2 (iblk V c 1 t) (iblk V c 2 t) (iblk V c 0 t) (k0_pay1 (F := F)) := by
  obtain ⟨n, hn⟩ := t
  cases n with
  | zero => rfl
  | succ n => exact congrArg (k0_pay2 (iblk V c 1 ⟨n + 1, hn⟩) (iblk V c 2 ⟨n + 1, hn⟩) (iblk V c 0 ⟨n + 1, hn⟩)) (if_pos h)

/-- At any later step it is one step from what the point before left. -/
theorem accAt_next (c : Dev nD) (t : Fin cfg0.N) (h : ¬t.val % 8 = 0) :
    accAt V c t.val t.isLt = k0_pay2 (iblk V c 1 t) (iblk V c 2 t) (iblk V c 0 t)
      (accAt V c (t.val - 1) (Nat.lt_of_le_of_lt (Nat.sub_le _ _) t.isLt)) := by
  obtain ⟨n, hn⟩ := t
  cases n with
  | zero => exact absurd (Nat.zero_mod _) h
  | succ n => exact congrArg (k0_pay2 (iblk V c 1 ⟨n + 1, hn⟩) (iblk V c 2 ⟨n + 1, hn⟩) (iblk V c 0 ⟨n + 1, hn⟩)) (if_neg h)

/-! ## The region invariant -/

/-- The core's scoped buffers that are neither a staging buffer of this call nor its accumulator: the other calls'
    staging buffers and accumulator, each at some contents. The body never touches them. -/
def restOthers (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f))

/-- The launch's invariant (what the call is entered with: the kernels' working buffers at anything and the generator
    register), with the accumulator split off as a memref owned at some contents. -/
theorem PhiA_eq (c : Dev nD) :
    (Pipeline.ΦA spec0 c : sProp 𝕄)
      = iprop(((∃ d, owns (c : Thread nD τ) scM fullShare d) ∗ restOthers (F := F) c) ∗ (∃ r, prngReg c r)) := by
  unfold Pipeline.ΦA restOthers; rw [scopedRest0_eq]; simp only [scM, owns_whole]; try rfl

/-- The invariant before position `n`: before the first point the launch's (every working buffer at anything);
    afterwards the accumulator at what the point before left (`accAt`), the rest as before. -/
def PhiS (c : Dev nD) : (n : ℕ) → n ≤ cfg0.N → sProp 𝕄
  | 0, _ => Pipeline.ΦA spec0 c
  | n + 1, hn => iprop((owns (c : Thread nD τ) scM fullShare (accAt V c n hn) ∗ restOthers (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM fullShare (accAt V c n hn) ∗ restOthers (F := F) c) ∗ (∃ r, prngReg c r)) := rfl

theorem PhiS_pos (c : Dev nD) (n : ℕ) (h : n ≤ cfg0.N) (hz : n ≠ 0) :
    PhiS V c n h = iprop((owns (c : Thread nD τ) scM fullShare (accAt V c (n - 1) (by omega)) ∗ restOthers (F := F) c) ∗ (∃ r, prngReg c r)) := by
  cases n with
  | zero => exact absurd rfl hz
  | succ n => rfl

/-! ## The proof data -/

/-- The proof data of the call on core `c`: the arrays as the region finds them; after the body each input's
    buffer at its block, the output's at the positive part of the accumulator (what the body stores at the last
    step of a row block; the window is idle elsewhere); the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay3 (accAt V c t.val t.isLt)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = k0_pay3 (accAt V c t.val t.isLt) := by dsimp only [dat]

/-- What the body leaves in the output's buffer at the last step of a row block. -/
theorem after3_last (c : Dev nD) (t : Fin cfg0.N) (h : t.val % 8 = 7) : (dat V c).after 3 t = k0_pay3 (accAt V c t.val t.isLt) :=
  after3 V c t

theorem PhiS_castSucc (c : Dev nD) (t : Fin cfg0.N) :
    (dat V c).Φ t.castSucc = PhiS V c t.val (Nat.le_of_lt t.isLt) := by
  dsimp only [dat]; simp only [Fin.coe_castSucc]

/-- Each input's current staging buffer holds its block at every point, fetched there or not: unfetched, the block
    index has not moved (the weights are fetched once, at the first point). -/
theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- An input's buffer is left at its block. -/
theorem leaves_in0 (c : Dev nD) (t : Fin cfg0.N) : (dat V c).leavesExact 0 t = owns (c : Thread nD τ) (ms0 t) fullShare (iblk V c 0 t) := by
  rw [show (dat V c).leavesExact 0 t = owns (c : Thread nD τ) (ms0 t) fullShare ((dat V c).after 0 t) from by
    unfold Dat.leavesExact; rw [liveAt0 t], after0]
theorem leaves_in1 (c : Dev nD) (t : Fin cfg0.N) : (dat V c).leavesExact 1 t = owns (c : Thread nD τ) (ms1 t) fullShare (iblk V c 1 t) := by
  rw [show (dat V c).leavesExact 1 t = owns (c : Thread nD τ) (ms1 t) fullShare ((dat V c).after 1 t) from by
    unfold Dat.leavesExact; rw [liveAt1 t], after1]
theorem leaves_in2 (c : Dev nD) (t : Fin cfg0.N) : (dat V c).leavesExact 2 t = owns (c : Thread nD τ) (ms2 t) fullShare (iblk V c 2 t) := by
  rw [show (dat V c).leavesExact 2 t = owns (c : Thread nD τ) (ms2 t) fullShare ((dat V c).after 2 t) from by
    unfold Dat.leavesExact; rw [liveAt2 t], after2]
/-- At the last step of a row block the output's buffer is left at the positive part of the accumulator. -/
theorem leaves_out3 (c : Dev nD) (t : Fin cfg0.N) (h : t.val % 8 = 7) :
    (dat V c).leavesExact 3 t = owns (c : Thread nD τ) (ms3 t) fullShare (k0_pay3 (accAt V c t.val t.isLt)) := by
  rw [show (dat V c).leavesExact 3 t = owns (c : Thread nD τ) (ms3 t) fullShare ((dat V c).after 3 t) from by
    unfold Dat.leavesExact; rw [liveAt3 t h], after3]

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point, by the step within the row block: the inputs' buffers hold their blocks; the invariant hands
    the body the accumulator (at anything before the first point, at what the point before left afterwards) and takes it
    back at this point's contents; the output's buffer is stored at the last step and handed back untouched elsewhere. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).owesAt () t.succ = (dat V c).owesAt () t.castSucc from rfl]
  rw [show (dat V c).Φ t.succ = PhiS V c (t.val + 1) t.isLt from rfl, PhiS_succ]
  rw [leaves_in0, leaves_in1, leaves_in2]
  have hN : t.val < 64 := lt_of_lt_of_eq t.isLt (show cfg0.N = 64 from N_0)
  by_cases h0 : t.val % 8 = 0
  · have h1 : ¬t.val % 8 = 7 := by omega
    rw [Dat.leavesExact_idle (dat V c) 3 t (idleAt3 t h1) (noFlush3 t h1)]
    rw [accAt_first V c t h0]
    by_cases hz : t.val = 0
    · rw [PhiS_castSucc V c t, PhiS_zero V c _ _ hz, PhiA_eq]
      iintro ⟨⟨⟨HS, Hr⟩, Hg⟩, Ho, ⟨%d0, H0⟩, ⟨%d1, H1⟩, ⟨%d2, H2⟩, ⟨%d3, H3⟩⟩
      iapply (kernelA c (grid0.coords t) _ _ _ _ _ _ _ _ _ _ ((hcond0 t).mpr h0) (fun h => h1 ((hcond1 t).mp h)) (iblk V c 0 t) (iblk V c 1 t) (iblk V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, Hr⟩, Hg⟩, Ho, ⟨%d0, H0⟩, ⟨%d1, H1⟩, ⟨%d2, H2⟩, ⟨%d3, H3⟩⟩
      iapply (kernelA c (grid0.coords t) _ _ _ _ _ _ _ _ _ _ ((hcond0 t).mpr h0) (fun h => h1 ((hcond1 t).mp h)) (iblk V c 0 t) (iblk V c 1 t) (iblk V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [accAt_next V c t h0]
    rw [PhiS_castSucc V c t, PhiS_pos V c _ _ hz]
    by_cases h1 : t.val % 8 = 7
    · rw [leaves_out3 V c t h1, accAt_next V c t h0]
      iintro ⟨⟨⟨HS, Hr⟩, Hg⟩, Ho, ⟨%d0, H0⟩, ⟨%d1, H1⟩, ⟨%d2, H2⟩, ⟨%d3, H3⟩⟩
      iapply (kernelC c (grid0.coords t) _ _ _ _ _ _ _ _ _ _ (fun h => h0 ((hcond0 t).mp h)) ((hcond1 t).mpr h1) (iblk V c 0 t) (iblk V c 1 t) (iblk V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · rw [Dat.leavesExact_idle (dat V c) 3 t (idleAt3 t h1) (noFlush3 t h1)]
      iintro ⟨⟨⟨HS, Hr⟩, Hg⟩, Ho, ⟨%d0, H0⟩, ⟨%d1, H1⟩, ⟨%d2, H2⟩, ⟨%d3, H3⟩⟩
      iapply (kernelB c (grid0.coords t) _ _ _ _ _ _ _ _ _ _ (fun h => h0 ((hcond0 t).mp h)) (fun h => h1 ((hcond1 t).mp h)) (iblk V c 0 t) (iblk V c 1 t) (iblk V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the accumulator's contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, Hr⟩, Hg⟩
  isplitl [HS Hr]
  · isplitl [HS]
    · iexists _; iexact HS
    iexact Hr
  iexact Hg

/-- The same after the last point. -/
theorem hout (c : Dev nD) : (dat V c).Φ (Fin.last cfg0.N) ⊢ Pipeline.ΦA spec0 c :=
  Phi_out V c _ (by rw [Fin.val_last]; have : cfg0.N = 64 := N_0; omega)

end Region

end Cert.KernelIdeal.R0

end
-- ==== Proof.KI.Reg1.lean ====
/-
  The second call of the program (the fused mean / log-deviation graph convolution and the reparametrisation) as one
  region of the program: its proof data at the buffer contents the region is entered with, and its body obligation.

  The grid is 8 × 8; point t has row block t / 8 and column step k = t % 8. A scratch accumulator is zero-filled
  at k = 0, receives adjblk · (hblk · Wcat) at every point, and at k = 7 the output block is stored as
  acc[:, :128] + epsblk * exp(acc[:, 128:]). The accumulator's contents after each point are named (accAt), which
  is what the value of the output block is later read from.
-/
import proofs.«119699_j17463337026205_1_alg».proof.Proof.Gen.KernelIdeal.Launch
import proofs.«119699_j17463337026205_1_alg».proof.Proof.Gen.KernelIdeal.Skeleton
import proofs.«119699_j17463337026205_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The invariant between points: the scratch accumulator at named contents -/

/-- A scoped buffer of the core at some contents. -/
abbrev sb (c : Dev nD) (b : Ref sig .tc) : sProp 𝕄 :=
  iprop(∃ f : Buf (Elt F) ((c : Thread nD τ).loc b), ((c : Thread nD τ).loc b) ↦{fullShare} f)

/-- The scratch accumulator of the second call, as a memref. -/
abbrev scM : Memref sig .tc .vmem S1024x256 .f32 := Memref.whole cc1_scratch0

/-- The core's scoped buffers that are no staging buffer of this call, the accumulator held as `S`, and the
    generator register at some state. -/
def PhiW (c : Dev nD) (S : sProp 𝕄) : sProp 𝕄 :=
  iprop((sb (F := F) c cc0_stg0_0 ∗ sb (F := F) c cc0_stg0_1 ∗ sb (F := F) c cc0_stg1_0 ∗ sb (F := F) c cc0_stg1_1 ∗ sb (F := F) c cc0_stg2_0 ∗ sb (F := F) c cc0_stg3_0 ∗ sb (F := F) c cc0_stg3_1 ∗ sb (F := F) c cc0_scratch0 ∗ S ∗ sb (F := F) c cc2_stg0_0 ∗ sb (F := F) c cc2_stg0_1 ∗ sb (F := F) c cc2_stg1_0 ∗ sb (F := F) c cc2_stg1_1 ∗ sb (F := F) c cc2_stg2_0 ∗ sb (F := F) c cc2_stg2_1) ∗ (∃ r, prngReg c r))

/-- The accumulator can be taken out of the invariant and put back at other contents. -/
theorem PhiW_wand (c : Dev nD) (S S' : sProp 𝕄) : PhiW (F := F) c S ⊢ iprop(S ∗ (S' -∗ PhiW (F := F) c S')) := by
  unfold PhiW
  iintro ⟨⟨R0, R1, R2, R3, R4, R5, R6, R7, HS, R9, R10, R11, R12, R13, R14⟩, Hg⟩
  isplitl [HS]; · iexact HS
  iintro HS'
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [HS']; · iexact HS'
  isplitl [R9]; · iexact R9
  isplitl [R10]; · iexact R10
  isplitl [R11]; · iexact R11
  isplitl [R12]; · iexact R12
  isplitl [R13]; · iexact R13
  iexact R14

/-- The launch's invariant holds the accumulator at some contents. -/
theorem PhiA_eq (c : Dev nD) :
    (Pipeline.ΦA spec1 c : sProp 𝕄) = PhiW (F := F) c (iprop(∃ d, owns (c : Thread nD τ) scM fullShare d)) := by
  unfold Pipeline.ΦA PhiW; rw [scopedRest1_eq]; simp only [scM, owns_whole]; try rfl

-- the buffer contents of the core when the call is entered: the parameter everything below is stated at
variable (V : (c : Dev nD) → (b : Ref sig .tc) → Buf (Elt F) ((c : Thread nD τ).loc b))

/-! ## The windows' blocks -/

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (where it is not
    fetched its block index has not moved), for any proof data whose array is the entry contents and whose body leaves
    the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (where it is not
    fetched its block index has not moved), for any proof data whose array is the entry contents and whose body leaves
    the block in place. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (where it is not
    fetched its block index has not moved), for any proof data whose array is the entry contents and whose body leaves
    the block in place. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (where it is not
    fetched its block index has not moved), for any proof data whose array is the entry contents and whose body leaves
    the block in place. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditionals, in closed form over the grid -/

/-- The first conditional's guard (the column coordinate is the first), from the grid coordinates. -/
abbrev cond0 (i : grid1.Coords) : Prop := (Scalar.cmpi .ne (Scalar.extui (Scalar.cmpi .eq (BitVec.ofNat 32 (i 1).val) 0#32)) 0#32) = 1#1
/-- The second conditional's guard (the column coordinate is the last). -/
abbrev cond1 (i : grid1.Coords) : Prop := k1_cond2 i = 1#1

theorem hz2 : (![0, 0] : Fin 2 → ℕ) = fun _ => 0 := by
  funext a; fin_cases a <;> rfl

/-- The first guard holds where the column coordinate is 0: the points ≡ 0 (mod 8). -/
theorem hcond0 : ∀ t : Fin cfg1.N, cond0 (grid1.coords t) ↔ t.val % 8 = 0 :=
  (by decide +kernel : ∀ t : Fin grid1.N, cond0 (grid1.coords t) ↔ t.val % 8 = 0)
/-- The second holds where it is 7: the points ≡ 7 (mod 8). -/
theorem hcond1 : ∀ t : Fin cfg1.N, cond1 (grid1.coords t) ↔ t.val % 8 = 7 :=
  (by decide +kernel : ∀ t : Fin grid1.N, cond1 (grid1.coords t) ↔ t.val % 8 = 7)

/-- The input windows are never idle. -/
theorem liveAt_0 : ∀ t : Fin cfg1.N, cfg1.idle 0 (grid1.coords t) = false := fun _ => rfl
theorem liveAt_1 : ∀ t : Fin cfg1.N, cfg1.idle 1 (grid1.coords t) = false := fun _ => rfl
theorem liveAt_2 : ∀ t : Fin cfg1.N, cfg1.idle 2 (grid1.coords t) = false := fun _ => rfl
theorem liveAt_3 : ∀ t : Fin cfg1.N, cfg1.idle 3 (grid1.coords t) = false := fun _ => rfl
/-- The output window is idle, and not written back, exactly where the second guard fails. -/
theorem idleAt_4 : ∀ t : Fin cfg1.N, ¬cond1 (grid1.coords t) → cfg1.idle 4 (grid1.coords t) = true := by decide +kernel
theorem noFlush_4 : ∀ t : Fin cfg1.N, ¬cond1 (grid1.coords t) → (cfg1.win 4).flush t = false := by decide +kernel
theorem liveAt_4 : ∀ t : Fin cfg1.N, cond1 (grid1.coords t) → cfg1.idle 4 (grid1.coords t) = false := by decide +kernel

/-- Each window's current staging memref at point `t`, as the pipeline passes it to the body. -/
abbrev ms_0 (t : Fin cfg1.N) : Memref sig .tc .vmem S1024x1024 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1024x256 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S256x256 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1024x128 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S1024x128 .f32 := win1_4.stage (cfg1.slots t 4)
abbrev hs_4 (t : Fin cfg1.N) : (ms_4 t).IsWhole := hstage1_4 ((cfg1.slots t 4).cast nbuf1_4)

/-! ## The body on any whole memrefs: its three courses -/

set_option maxHeartbeats 1000000 in
/-- Column coordinate 0: the accumulator is zero-filled, then receives the point's product. The output block is
    not touched. -/
theorem kernelA (c : Dev nD) (i : grid1.Coords)
    (arg2 : Memref sig .tc .vmem S1024x1024 .f32) (harg2 : arg2.IsWhole) (arg3 : Memref sig .tc .vmem S1024x256 .f32) (harg3 : arg3.IsWhole)
    (arg4 : Memref sig .tc .vmem S256x256 .f32) (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x256 .f32) (harg7 : arg7.IsWhole) (hc0 : cond0 i) (hc1 : ¬cond1 i)
    (x0 : Vec F S1024x1024 .f32) (x1 : Vec F S1024x256 .f32) (x2 : Vec F S256x256 .f32) (x3 : Vec F S1024x128 .f32) (xi4 : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4
            ∗ owns (c : Thread nD τ) arg7 fullShare (k1_pay2 x1 x2 x0 (k1_pay1 (F := F)))) -∗ K ⟨⟩))
      ⊢ wp frame (wpE (defs₀ (F := F)) Variants.none c none) E (cc1__cd_kernel i arg2 harg2 arg3 harg3 arg4 harg4 arg5 harg5 arg6 harg6 arg7 harg7) K := by
  simp only [cc1__cd_kernel_eq_skeleton]; unfold cc1__cd_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  rw [View.read_writes_eq_canon _ _ _ (fun y => ⟨_, List.mem_cons_self, View.mem_set_unit_zero hz2 inb_S1024x256_S1024x256_0_0 y⟩),
    View.canon_cons_unit_zero hz2]
  sl_unfold_words
  rw [View.readCov_unit_zero _ hz2]
  simp only [View.readAt_eq_ld, View.ld_unit_zero (S := S1024x256) hz2, View.ld_unit_zero (S := S256x256) hz2,
    View.ld_unit_zero (S := S1024x1024) hz2, View.ld_unit_zero (S := S1024x128) hz2]

set_option maxHeartbeats 1000000 in
/-- Column coordinates 1 … 6: the accumulator receives the point's product on top of what it held. -/
theorem kernelB (c : Dev nD) (i : grid1.Coords)
    (arg2 : Memref sig .tc .vmem S1024x1024 .f32) (harg2 : arg2.IsWhole) (arg3 : Memref sig .tc .vmem S1024x256 .f32) (harg3 : arg3.IsWhole)
    (arg4 : Memref sig .tc .vmem S256x256 .f32) (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x256 .f32) (harg7 : arg7.IsWhole) (hc0 : ¬cond0 i) (hc1 : ¬cond1 i)
    (x0 : Vec F S1024x1024 .f32) (x1 : Vec F S1024x256 .f32) (x2 : Vec F S256x256 .f32) (x3 : Vec F S1024x128 .f32) (xi4 : Vec F S1024x128 .f32)
    (xs : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4
            ∗ owns (c : Thread nD τ) arg7 fullShare (k1_pay2 x1 x2 x0 xs)) -∗ K ⟨⟩))
      ⊢ wp frame (wpE (defs₀ (F := F)) Variants.none c none) E (cc1__cd_kernel i arg2 harg2 arg3 harg3 arg4 harg4 arg5 harg5 arg6 harg6 arg7 harg7) K := by
  simp only [cc1__cd_kernel_eq_skeleton]; unfold cc1__cd_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  rw [View.read_writes_eq_canon _ _ _ (fun y => ⟨_, List.mem_cons_self, View.mem_set_unit_zero hz2 inb_S1024x256_S1024x256_0_0 y⟩),
    View.canon_cons_unit_zero hz2]
  simp only [View.readAt_eq_ld, View.ld_unit_zero (S := S1024x256) hz2, View.ld_unit_zero (S := S256x256) hz2,
    View.ld_unit_zero (S := S1024x1024) hz2, View.ld_unit_zero (S := S1024x128) hz2]

set_option maxHeartbeats 1000000 in
/-- Column coordinate 7: the same, and the output block is stored from the new accumulator and the noise block. -/
theorem kernelC (c : Dev nD) (i : grid1.Coords)
    (arg2 : Memref sig .tc .vmem S1024x1024 .f32) (harg2 : arg2.IsWhole) (arg3 : Memref sig .tc .vmem S1024x256 .f32) (harg3 : arg3.IsWhole)
    (arg4 : Memref sig .tc .vmem S256x256 .f32) (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x256 .f32) (harg7 : arg7.IsWhole) (hc0 : ¬cond0 i) (hc1 : cond1 i)
    (x0 : Vec F S1024x1024 .f32) (x1 : Vec F S1024x256 .f32) (x2 : Vec F S256x256 .f32) (x3 : Vec F S1024x128 .f32)
    (xs : Vec F S1024x256 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay3 (k1_pay2 x1 x2 x0 xs) x3)
            ∗ owns (c : Thread nD τ) arg7 fullShare (k1_pay2 x1 x2 x0 xs)) -∗ K ⟨⟩))
      ⊢ wp frame (wpE (defs₀ (F := F)) Variants.none c none) E (cc1__cd_kernel i arg2 harg2 arg3 harg3 arg4 harg4 arg5 harg5 arg6 harg6 arg7 harg7) K := by
  simp only [cc1__cd_kernel_eq_skeleton]; unfold cc1__cd_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_cons_self, View.mem_set_unit_zero hz2 inb_S1024x128_S1024x128_0_0 y⟩),
      View.canon_cons_unit_zero hz2]
    sl_unfold_words
    rw [View.readCov_unit_zero _ hz2]
    simp only [View.readAt_eq_ld, View.ld_unit_zero (S := S1024x256) hz2, View.ld_unit_zero (S := S256x256) hz2,
      View.ld_unit_zero (S := S1024x1024) hz2, View.ld_unit_zero (S := S1024x128) hz2]
  iexists _; isplitr
  swap; · iexact HS
  ipureintro
  sl_unfold_words
  rw [View.read_writes_eq_canon _ _ _ (fun y => ⟨_, List.mem_cons_self, View.mem_set_unit_zero hz2 inb_S1024x256_S1024x256_0_0 y⟩),
    View.canon_cons_unit_zero hz2]
  simp only [View.readAt_eq_ld, View.ld_unit_zero (S := S1024x256) hz2, View.ld_unit_zero (S := S256x256) hz2,
    View.ld_unit_zero (S := S1024x1024) hz2, View.ld_unit_zero (S := S1024x128) hz2]

/-! ## The accumulation -/

/-- The scratch accumulator after the body at point `n`: the step applied to the point's three input blocks and to
    what the point before left, or to the zero fill where the column coordinate is 0. -/
def accAt (c : Dev nD) : (n : ℕ) → n < cfg1.N → Vec F S1024x256 .f32
  | 0, hn => k1_pay2 (iblk V c 1 ⟨0, hn⟩) (iblk V c 2 ⟨0, hn⟩) (iblk V c 0 ⟨0, hn⟩) (k1_pay1 (F := F))
  | n + 1, hn =>
    if (n + 1) % 8 = 0 then
      k1_pay2 (iblk V c 1 ⟨n + 1, hn⟩) (iblk V c 2 ⟨n + 1, hn⟩) (iblk V c 0 ⟨n + 1, hn⟩) (k1_pay1 (F := F))
    else
      k1_pay2 (iblk V c 1 ⟨n + 1, hn⟩) (iblk V c 2 ⟨n + 1, hn⟩) (iblk V c 0 ⟨n + 1, hn⟩) (accAt c n (Nat.lt_of_succ_lt hn))

/-- At a point of column coordinate 0 the accumulation restarts from the zero fill. -/
theorem accAt_first (c : Dev nD) (t : Fin cfg1.N) (h : t.val % 8 = 0) :
    accAt V c t.val t.isLt = k1_pay2 (iblk V c 1 t) (iblk V c 2 t) (iblk V c 0 t) (k1_pay1 (F := F)) := by
  obtain ⟨n, hn⟩ := t
  cases n with
  | zero => rfl
  | succ n => exact (if_pos h).trans rfl

/-- Elsewhere it continues from what the point before left. -/
theorem accAt_next (c : Dev nD) (t : Fin cfg1.N) (h : ¬t.val % 8 = 0) :
    accAt V c t.val t.isLt = k1_pay2 (iblk V c 1 t) (iblk V c 2 t) (iblk V c 0 t)
      (accAt V c (t.val - 1) (Nat.lt_of_le_of_lt (Nat.sub_le _ _) t.isLt)) := by
  obtain ⟨n, hn⟩ := t
  cases n with
  | zero => exact absurd (Nat.zero_mod _) h
  | succ n => exact (if_neg h).trans rfl

/-- The invariant before position `n`: before the first point the launch's; afterwards the accumulator at what the
    point before left. -/
def PhiS (c : Dev nD) : (n : ℕ) → n ≤ cfg1.N → sProp 𝕄
  | 0, _ => Pipeline.ΦA spec1 c
  | n + 1, hn => PhiW (F := F) c (owns (c : Thread nD τ) scM fullShare (accAt V c n hn))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = PhiW (F := F) c (owns (c : Thread nD τ) scM fullShare (accAt V c n hn)) := rfl

theorem PhiS_pos (c : Dev nD) (n : ℕ) (h : n ≤ cfg1.N) (hz : n ≠ 0) :
    PhiS V c n h = PhiW (F := F) c (owns (c : Thread nD τ) scM fullShare (accAt V c (n - 1) (by omega))) := by
  cases n with
  | zero => exact absurd rfl hz
  | succ n => rfl

/-! ## The proof data -/

/-- The proof data of the call on core `c`: the arrays as the call finds them; after the body each input's buffer
    at its block and the output's at the closing step of the accumulator and the noise block (consulted only where the
    column coordinate is 7: elsewhere the window is idle); the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => k1_pay3 (accAt V c t.val t.isLt) (iblk V c 3 t)
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem q_full (c : Dev nD) (w : Fin cfg1.W) : (dat V c).q w = fullShare := rfl
theorem owed_zero (c : Dev nD) (t : Fin (cfg1.N + 1)) : (dat V c).owed t = 0 := rfl

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = k1_pay3 (accAt V c t.val t.isLt) (iblk V c 3 t) := by dsimp only [dat]
/-- What the body leaves in the output window where it stores it. -/
theorem after4_last (c : Dev nD) (t : Fin cfg1.N) (h : t.val % 8 = 7) :
    (dat V c).after 4 t = k1_pay3 (accAt V c t.val t.isLt) (iblk V c 3 t) := after_4 V c t

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d

theorem PhiS_castSucc (c : Dev nD) (t : Fin cfg1.N) :
    (dat V c).Φ t.castSucc = PhiS V c t.val (Nat.le_of_lt t.isLt) := by
  dsimp only [dat]; simp only [Fin.coe_castSucc]

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point. The inputs' memrefs hold their blocks; the column coordinate decides which of the three
    courses the body takes: at 0 it zero-fills the accumulator and adds the point's product, at 1 … 6 it adds it to
    what the point before left, at 7 it adds it and stores the closing step into the output block. The invariant
    hands the body the accumulator (at anything before the first point, else at what the point before left) and takes
    it back at this point's contents; where the output block is not stored its buffer goes back as it came. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  rw [show (dat V c).leavesExact 3 t = owns (c : Thread nD τ) (ms_3 t) fullShare ((dat V c).after 3 t) from by
    unfold Dat.leavesExact; rw [liveAt_3 t], after_3]
  have hN : t.val < 64 := lt_of_lt_of_eq t.isLt (show cfg1.N = 64 from N_1)
  by_cases h0 : t.val % 8 = 0
  · have h1 : ¬t.val % 8 = 7 := by omega
    rw [Dat.leavesExact_idle (dat V c) 4 t (idleAt_4 t (fun h => h1 ((hcond1 t).mp h))) (noFlush_4 t (fun h => h1 ((hcond1 t).mp h)))]
    rw [accAt_first V c t h0]
    by_cases hz : t.val = 0
    · rw [PhiS_castSucc V c t, PhiS_zero V c _ _ hz, PhiA_eq]
      iintro ⟨HΦ, Ho, ⟨%d0, H0⟩, ⟨%d1, H1⟩, ⟨%d2, H2⟩, ⟨%d3, H3⟩, ⟨%d4, H4⟩⟩
      ihave H := (PhiW_wand (F := F) c _ (owns (c : Thread nD τ) scM fullShare (k1_pay2 (iblk V c 1 t) (iblk V c 2 t) (iblk V c 0 t) (k1_pay1 (F := F))))) $$ HΦ
      icases H with ⟨HS, Hw⟩
      iapply (kernelA c (grid1.coords t) _ _ _ _ _ _ _ _ _ _ _ _ ((hcond0 t).mpr h0) (fun h => h1 ((hcond1 t).mp h)) (iblk V c 0 t) (iblk V c 1 t) (iblk V c 2 t) (iblk V c 3 t) ((dat V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hw HS]; · iapply Hw; iexact HS
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨HΦ, Ho, ⟨%d0, H0⟩, ⟨%d1, H1⟩, ⟨%d2, H2⟩, ⟨%d3, H3⟩, ⟨%d4, H4⟩⟩
      ihave H := (PhiW_wand (F := F) c _ (owns (c : Thread nD τ) scM fullShare (k1_pay2 (iblk V c 1 t) (iblk V c 2 t) (iblk V c 0 t) (k1_pay1 (F := F))))) $$ HΦ
      icases H with ⟨HS, Hw⟩
      iapply (kernelA c (grid1.coords t) _ _ _ _ _ _ _ _ _ _ _ _ ((hcond0 t).mpr h0) (fun h => h1 ((hcond1 t).mp h)) (iblk V c 0 t) (iblk V c 1 t) (iblk V c 2 t) (iblk V c 3 t) ((dat V c).before 4 t d4) Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [Hw HS]; · iapply Hw; iexact HS
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [accAt_next V c t h0, PhiS_castSucc V c t, PhiS_pos V c _ _ hz]
    by_cases h1 : t.val % 8 = 7
    · rw [show (dat V c).leavesExact 4 t = owns (c : Thread nD τ) (ms_4 t) fullShare ((dat V c).after 4 t) from by
        unfold Dat.leavesExact; rw [liveAt_4 t ((hcond1 t).mpr h1)], after_4, accAt_next V c t h0]
      iintro ⟨HΦ, Ho, ⟨%d0, H0⟩, ⟨%d1, H1⟩, ⟨%d2, H2⟩, ⟨%d3, H3⟩, ⟨%d4, H4⟩⟩
      ihave H := (PhiW_wand (F := F) c _ (owns (c : Thread nD τ) scM fullShare (k1_pay2 (iblk V c 1 t) (iblk V c 2 t) (iblk V c 0 t) (accAt V c (t.val - 1) (Nat.lt_of_le_of_lt (Nat.sub_le _ _) t.isLt))))) $$ HΦ
      icases H with ⟨HS, Hw⟩
      iapply (kernelC c (grid1.coords t) _ _ _ _ _ _ _ _ _ _ _ _ (fun h => h0 ((hcond0 t).mp h)) ((hcond1 t).mpr h1) (iblk V c 0 t) (iblk V c 1 t) (iblk V c 2 t) (iblk V c 3 t) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [Hw HS]; · iapply Hw; iexact HS
      isplitl [Ho]; · iexact Ho
      isplitl [H0]; · iexact H0
      isplitl [H1]; · iexact H1
      isplitl [H2]; · iexact H2
      isplitl [H3]; · iexact H3
      iexact H4
    · rw [Dat.leavesExact_idle (dat V c) 4 t (idleAt_4 t (fun h => h1 ((hcond1 t).mp h))) (noFlush_4 t (fun h => h1 ((hcond1 t).mp h)))]
      iintro ⟨HΦ, Ho, ⟨%d0, H0⟩, ⟨%d1, H1⟩, ⟨%d2, H2⟩, ⟨%d3, H3⟩, ⟨%d4, H4⟩⟩
      ihave H := (PhiW_wand (F := F) c _ (owns (c : Thread nD τ) scM fullShare (k1_pay2 (iblk V c 1 t) (iblk V c 2 t) (iblk V c 0 t) (accAt V c (t.val - 1) (Nat.lt_of_le_of_lt (Nat.sub_le _ _) t.isLt))))) $$ HΦ
      icases H with ⟨HS, Hw⟩
      iapply (kernelB c (grid1.coords t) _ _ _ _ _ _ _ _ _ _ _ _ (fun h => h0 ((hcond0 t).mp h)) (fun h => h1 ((hcond1 t).mp h)) (iblk V c 0 t) (iblk V c 1 t) (iblk V c 2 t) (iblk V c 3 t) ((dat V c).before 4 t d4) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [Hw HS]; · iapply Hw; iexact HS
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the call is the invariant before the first point. -/
theorem hin (c : Dev nD) : (Pipeline.ΦA spec1 c : sProp 𝕄) ⊢ (dat V c).Φ 0 := by
  rw [show (dat V c).Φ 0 = PhiS V c 0 (Nat.zero_le _) from rfl, PhiS_zero V c 0 _ rfl]
  try exact Idealize.SL.BI.Entails.refl _

/-- After any point but the first the invariant gives the launch's back: the accumulator's contents are forgotten. -/
theorem Phi_out (c : Dev nD) (t : Fin (cfg1.N + 1)) (ht : t.val ≠ 0) : (dat V c).Φ t ⊢ (Pipeline.ΦA spec1 c : sProp 𝕄) := by
  rw [show (dat V c).Φ t = PhiS V c t.val (Nat.le_of_lt_succ t.isLt) from rfl, PhiS_pos V c _ _ ht, PhiA_eq]
  iintro HΦ
  ihave H := (PhiW_wand (F := F) c _ (iprop(∃ d, owns (c : Thread nD τ) scM fullShare d))) $$ HΦ
  icases H with ⟨HS, Hw⟩
  iapply Hw
  iexists _; iexact HS

/-- The same after the last point. -/
theorem hout (c : Dev nD) : (dat V c).Φ (Fin.last cfg1.N) ⊢ (Pipeline.ΦA spec1 c : sProp 𝕄) :=
  Phi_out V c _ (by rw [Fin.val_last]; have : cfg1.N = 64 := N_1; omega)

end Cert.KernelIdeal.R1

end
-- ==== Proof.KI.Reg2.lean ====
/-
  Region 2 (the decoder call): the pipeline's proof data and its body obligation.

  The decoder reads two row blocks of the latent array z — block i through window 0 and block j through
  window 1 — and stores, whole, the block (i, j) of the output: the logistic of the product of the first block
  with the transpose of the second. Both input windows are on ONE array. A core holds that array at the full
  share when the region is entered; the proof data deal it between the two windows, the left half of the full
  share to window 0 and the right half to window 1, and the two halves compose to the full share again when the
  region is left, the array being unchanged (no window writes it).
-/
import proofs.«119699_j17463337026205_1_alg».proof.Proof.Gen.KernelIdeal.Launch
import proofs.«119699_j17463337026205_1_alg».proof.Proof.Gen.KernelIdeal.Skeleton
import proofs.«119699_j17463337026205_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 is fetched only where the row block changes, yet its current staging buffer holds its block at
    every point: where it is not fetched the block index has not moved, and the body leaves the block in place. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1 likewise (it is fetched at every point). -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rIn : Rect S1024x128 := Rect.unit (s := S1024x128) ![0, 0] S1024x128.size inb_S1024x128_S1024x128_0_0
abbrev rOut : Rect S1024x1024 := Rect.unit (s := S1024x1024) ![0, 0] S1024x1024.size inb_S1024x1024_S1024x1024_0_0

/-! ## What the body leaves in the output window's buffer -/

/-- The output window's staging buffer after the body, from the two input blocks: its one store, of the whole
    buffer, of the payload computed from the two loads. -/
def out2 (x0 x1 : Vec F S1024x128 .f32) : Vec F S1024x1024 .f32 :=
  View.canon [⟨rOut, k2_pay1 (View.ld x0 rIn) (View.ld x1 rIn)⟩]

/-- The one store covers the buffer. -/
theorem cover2 (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body's triple -/

set_option maxHeartbeats 1000000 in
/-- The kernel body on whole staging memrefs, the two inputs' at read contents `x0`, `x1` and the output's at anything,
    runs to the continuation holding the inputs' as they were and the output's at `out2 x0 x1`. -/
theorem sound_kernel (c : Dev nD) (E : Set ℕ) (i : grid2.Coords)
    (arg0 : Memref sig .tc .vmem S1024x128 .f32) (harg0 : arg0.IsWhole)
    (arg1 : Memref sig .tc .vmem S1024x128 .f32) (harg1 : arg1.IsWhole)
    (arg2 : Memref sig .tc .vmem S1024x1024 .f32) (harg2 : arg2.IsWhole)
    (x0 x1 : Vec F S1024x128 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2 x0 x1)) -∗ K ⟨⟩))
      ⊢ wp frame (wpE (defs₀ (F := F)) Variants.none c none) E (cc2__decoder_kernel i arg0 harg0 arg1 harg1 arg2 harg2) K := by
  simp only [cc2__decoder_kernel_eq_skeleton]; unfold cc2__decoder_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The pipeline's proof data -/

/-- The proof data of the decoder's pipeline on core `c`: the arrays as the region finds them; after the body at point
    `t` each input's buffer at its block and the output's at `out2` of the two blocks; the invariant the scoped rest
    and the generator register, untouched; nothing owed. The latent array is read by both input windows: window 0
    holds the left half of its full share, window 1 the right half (the output window's array is held whole). -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => out2 (iblk V c 0 t) (iblk V c 1 t)
  Φ _ := Pipeline.ΦA spec2 c
  q w := match w with
    | ⟨0, _⟩ => fullShare.left
    | ⟨1, _⟩ => fullShare.right
    | ⟨2, _⟩ => fullShare
  owed _ := 0

/-- The proof data's arrays are the region-entry contents. -/
theorem A_eq (c : Dev nD) (w : Fin cfg2.W) : (dat V c).A w = V c (Pipeline.arrRef spec2 w) := by
  dsimp only [dat]

/-- What the body leaves, window by window. -/
theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = out2 (iblk V c 0 t) (iblk V c 1 t) := by dsimp only [dat]

/-- The share each window's array is held at. -/
theorem share0 (c : Dev nD) : (dat V c).share 0 = fullShare.left := rfl
theorem share1 (c : Dev nD) : (dat V c).share 1 = fullShare.right := rfl
theorem share2 (c : Dev nD) : (dat V c).share 2 = fullShare := rfl

/-- Each input's current staging buffer holds its block at every point, fetched there or not. -/
theorem before0 (c : Dev nD) (t : Fin cfg2.N) (d) : (dat V c).before 0 t d = iblk V c 0 t :=
  before_0_of V (dat V c) (A_eq V c 0) (after0 V c) t d
theorem before1 (c : Dev nD) (t : Fin cfg2.N) (d) : (dat V c).before 1 t d = iblk V c 1 t :=
  before_1_of V (dat V c) (A_eq V c 1) (after1 V c) t d

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the inputs' memrefs hold their blocks, so the body's triple applies; the invariant and the
    core's `owes` pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1]
  rw [show (dat V c).Φ t.succ = (dat V c).Φ t.castSucc from rfl,
    show (dat V c).owesAt () t.succ = (dat V c).owesAt () t.castSucc from rfl,
    after0, after1, after2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W2, bigSep_W2]
  exact sound_body V c t

/-! ## The arrays among the core's unscoped buffers: the latent array dealt between its two windows -/

/-- The distinct buffers behind the three windows' arrays: the latent array and the output array. -/
theorem arrBufs_eq (c : Dev nD) (V' : (b : Ref sig .tc) → Buf (Elt F) ((c : Thread nD τ).loc b)) :
    (Pipeline.arrBufs spec2 c V' : sProp 𝕄)
      = iprop((((c : Thread nD τ).loc main_v2) ↦{fullShare} V' main_v2) ∗ (((c : Thread nD τ).loc main_v3) ↦{fullShare} V' main_v3)) := by
  unfold Pipeline.arrBufs
  exact bigSep_eq_bigSepL_of_eq [main_v2, main_v3] (by decide) (by decide) _

/-- The proof data's arrays, window by window: the latent array at the left half of the full share (window 0) and at the
    right half (window 1), the output array at the full share. -/
theorem arrays_eq (c : Dev nD) (G : (w : Fin cfg2.W) → Buf (Elt F) ((cfg2.win w).arr.view.loc (c : Thread nD τ))) :
    ((dat V c).arrays G : sProp 𝕄)
      = iprop((((c : Thread nD τ).loc main_v2) ↦{fullShare.left} G 0) ∗ (((c : Thread nD τ).loc main_v2) ↦{fullShare.right} G 1)
          ∗ (((c : Thread nD τ).loc main_v3) ↦{fullShare} G 2)) := by
  unfold Dat.arrays
  rw [bigSep_W2, (arr_whole2 0).set_eq_univ, (arr_whole2 2).set_eq_univ, share0, share1, share2]

/-- ENTRY: a core's unscoped buffers at the region-entry contents are the proof data's arrays at entry — the latent
    array's full share split into its two halves, one per input window — and the unscoped rest. -/
theorem arrays_of_bufs (c : Dev nD) :
    (unscopedBufs c (V c) : sProp 𝕄)
      ⊢ iprop((dat V c).arrays ((dat V c).arrAt · 0) ∗ Pipeline.unscopedRest spec2 c (V c)) := by
  rw [Pipeline.PerCore.unscopedBufs_split₀ (fun _ : Dev nD => fun _ : Unit => cfg2) () c winFacts₀2.arr_unscoped (V c)]
  refine sep_mono ?_ .rfl
  rw [arrBufs_eq, arrays_eq]
  rw [show (dat V c).arrAt 0 0 = V c main_v2 from rfl, show (dat V c).arrAt 1 0 = V c main_v2 from rfl,
    show (dat V c).arrAt 2 0 = V c main_v3 from rfl]
  iintro ⟨H2, H3⟩
  ihave H := (pointsTo_share (PosShare.mem_left_op_right fullShare)).1 $$ H2
  icases H with ⟨Hl, Hr⟩
  isplitl [Hl]; · iexact Hl
  isplitl [Hr]; · iexact Hr
  iexact H3

/-- EXIT: the proof data's arrays at what the pipeline leaves and the unscoped rest at the entry contents are the core's
    unscoped buffers at any valuation `V'` that has the arrays at those contents and agrees with the entry contents off
    them: the two input windows both end holding the latent array as entered, so its two halves compose to the full
    share again. -/
theorem bufs_of_arrays (c : Dev nD) (V' : (b : Ref sig .tc) → Buf (Elt F) ((c : Thread nD τ).loc b))
    (hF : ∀ w, (dat V c).arrAt w cfg2.N = V' (Pipeline.arrRef spec2 w))
    (hrest : ∀ b, b ∉ Finset.univ.image (Pipeline.arrRef spec2) → V' b = V c b) :
    iprop((dat V c).arrays ((dat V c).arrAt · cfg2.N) ∗ Pipeline.unscopedRest spec2 c (V c))
      ⊢ (unscopedBufs c V' : sProp 𝕄) := by
  rw [Pipeline.PerCore.unscopedBufs_split₀ (fun _ : Dev nD => fun _ : Unit => cfg2) () c winFacts₀2.arr_unscoped V']
  refine sep_mono ?_ (Entails.of_eq ?_)
  · rw [arrBufs_eq, arrays_eq, hF 0, hF 1, hF 2]
    iintro ⟨Hl, Hr, H3⟩
    isplitl [Hl Hr]
    · iapply (pointsTo_share (PosShare.mem_left_op_right fullShare)).2
      isplitl [Hl]; · iexact Hl
      iexact Hr
    iexact H3
  · unfold Pipeline.unscopedRest
    exact bigSep_congr fun b hb => by rw [hrest b (Finset.mem_sdiff.mp hb).2]

end Cert.KernelIdeal.R2

end
-- ==== Proof.KI.Run.lean ====
/-
  The run of the whole program, region by region.

  Between two items of the program (a kernel region, or the one host operation that joins the two weight matrices)
  every buffer outside the kernels' working memory holds known contents: at launch the memory the program was
  started on; after a region, the same except that the region's output array holds what its write-backs leave;
  after the host operation, its result written. Each region is entered from the contents before it and left at the
  contents after it, so the three regions and the host operation chain into one run, at whose end every argument
  array holds its launch contents and the result array holds what the third region wrote.
-/
import proofs.«119699_j17463337026205_1_alg».proof.Proof.Gen.KernelIdeal.Launch
import proofs.«119699_j17463337026205_1_alg».proof.Proof.Gen.KernelIdeal.Skeleton
import proofs.«119699_j17463337026205_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«119699_j17463337026205_1_alg».proof.Proof.Gen.KernelIdeal.Regions
import proofs.«119699_j17463337026205_1_alg».proof.Proof.KI.Reg0
import proofs.«119699_j17463337026205_1_alg».proof.Proof.KI.Reg1
import proofs.«119699_j17463337026205_1_alg».proof.Proof.KI.Reg2

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the buffers between the items -/

/-- At launch. -/
abbrev W0 : Dev nD → Valuation τ sig (Elt F) := fun c b => m ((c : Dev nD), b)
/-- The same, read at the core's own references: what the first region is entered from. -/
abbrev V0 : (c : Dev nD) → (b : Ref sig .tc) → Buf (Elt F) ((c : Thread nD τ).loc b) := fun c b => W0 m c b

/-- After the first region: its arrays at what its write-backs leave, every other buffer as entered. -/
def W1 (c : Dev nD) : Valuation τ sig (Elt F) :=
  Pipeline.withArrays spec0 c (W0 m c) fun w => (R0.dat (V0 m) c).arrAt w cfg0.N
theorem W1_arr (c : Dev nD) (w : Fin cfg0.W) :
    W1 m c (Proc.devRef .tc (Pipeline.arrRef spec0 w)) = (R0.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (R0.dat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host operation that joins the two weight matrices. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b

/-- After the second region. -/
def W3 (c : Dev nD) : Valuation τ sig (Elt F) :=
  Pipeline.withArrays spec1 c (W2 m c) fun w => (R1.dat (V2 m) c).arrAt w cfg1.N
theorem W3_arr (c : Dev nD) (w : Fin cfg1.W) :
    W3 m c (Proc.devRef .tc (Pipeline.arrRef spec1 w)) = (R1.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (R1.dat (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the third region: only the result array changes (both its input windows read one array, which it leaves
    as entered). -/
def W4 (c : Dev nD) : Valuation τ sig (Elt F) :=
  Function.update (W3 m c) (Proc.devRef .tc main_v3) ((R2.dat (V3 m) c).arrAt 2 cfg2.N)
theorem W4_out (c : Dev nD) : W4 m c (Proc.devRef .tc main_v3) = (R2.dat (V3 m) c).arrAt 2 cfg2.N := by
  unfold W4; exact Function.update_self ..
theorem W4_of_ne (c : Dev nD) (b : Ref sig .tc) (hb : b ≠ main_v3) :
    W4 m c (Proc.devRef .tc b) = W3 m c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m c b

/-- An input window's array is left as the region found it: nothing is written back through an input window. -/
theorem W1_in (c : Dev nD) (w : Fin cfg0.W) (hw : (cfg0.win w).isOut = false) :
    W1 m c (Proc.devRef .tc (Pipeline.arrRef spec0 w)) = W0 m c (Proc.devRef .tc (Pipeline.arrRef spec0 w)) :=
  (W1_arr m c w).trans (((R0.dat (V0 m) c).arrAt_in w hw _).trans (R0.A_eq (V0 m) c w))
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((R1.dat (V2 m) c).arrAt_in w hw _).trans (R1.A_eq (V2 m) c w))

/-! ## The arguments end as launched -/

/-- `main_arg0` ends as launched: no region writes it back changed and the host operation does not write it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := StableHlo.after_of_writes_sub hostOps1 _ hostOps1_writes (by decide)
    _ = W0 m c (Proc.devRef .tc main_arg0) := W1_in m c 1 rfl
    _ = m ((c : Thread nD τ).loc main_arg0) := rfl

/-- `main_arg1` ends as launched: no region writes it back changed and the host operation does not write it. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_in m c 0 rfl
    _ = W1 m c (Proc.devRef .tc main_arg1) := StableHlo.after_of_writes_sub hostOps1 _ hostOps1_writes (by decide)
    _ = W0 m c (Proc.devRef .tc main_arg1) := W1_in m c 0 rfl
    _ = m ((c : Thread nD τ).loc main_arg1) := rfl

/-- `main_arg2` ends as launched: no region writes it back changed and the host operation does not write it. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := StableHlo.after_of_writes_sub hostOps1 _ hostOps1_writes (by decide)
    _ = W0 m c (Proc.devRef .tc main_arg2) := W1_in m c 2 rfl
    _ = m ((c : Thread nD τ).loc main_arg2) := rfl

/-- `main_arg3` ends as launched: no region writes it back changed and the host operation does not write it. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := StableHlo.after_of_writes_sub hostOps1 _ hostOps1_writes (by decide)
    _ = W0 m c (Proc.devRef .tc main_arg3) := W1_of_ne m c main_arg3 (by decide)
    _ = m ((c : Thread nD τ).loc main_arg3) := rfl

/-- `main_arg4` ends as launched: no region writes it back changed and the host operation does not write it. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := StableHlo.after_of_writes_sub hostOps1 _ hostOps1_writes (by decide)
    _ = W0 m c (Proc.devRef .tc main_arg4) := W1_of_ne m c main_arg4 (by decide)
    _ = m ((c : Thread nD τ).loc main_arg4) := rfl

/-- `main_arg5` ends as launched: no region writes it back changed and the host operation does not write it. -/
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := W3_in m c 3 rfl
    _ = W1 m c (Proc.devRef .tc main_arg5) := StableHlo.after_of_writes_sub hostOps1 _ hostOps1_writes (by decide)
    _ = W0 m c (Proc.devRef .tc main_arg5) := W1_of_ne m c main_arg5 (by decide)
    _ = m ((c : Thread nD τ).loc main_arg5) := rfl

/-! ## The third region's exit contents -/

theorem hF2 (c : Dev nD) : ∀ w : Fin cfg2.W, (R2.dat (V3 m) c).arrAt w cfg2.N = V4 m c (Pipeline.arrRef spec2 w)
  | ⟨0, _⟩ => (((R2.dat (V3 m) c).arrAt_in 0 rfl _).trans (R2.A_eq (V3 m) c 0)).trans (W4_of_ne m c main_v2 (by decide)).symm
  | ⟨1, _⟩ => (((R2.dat (V3 m) c).arrAt_in 1 rfl _).trans (R2.A_eq (V3 m) c 1)).trans (W4_of_ne m c main_v2 (by decide)).symm
  | ⟨2, _⟩ => (W4_out m c).symm
theorem hrest2 (c : Dev nD) : ∀ b, b ∉ Finset.univ.image (Pipeline.arrRef spec2) → V4 m c b = V3 m c b :=
  fun b hb => W4_of_ne m c b fun e => hb (Finset.mem_image.mpr ⟨2, Finset.mem_univ _, e.symm⟩)

/-! ## The proof data of the three regions, and what rides beside the buffers -/

/-- Each region's proof data at the contents it is entered from. -/
def pdats : (p : Fin 3) → (c : Dev nD) → Dat τ (Elt F) Unit ℕ (UR sig nD τ) ℕ (Pipeline.pin (pcfgs (F := F)) adm p) c
  | ⟨0, _⟩ => fun c => R0.dat (V0 m) c
  | ⟨1, _⟩ => fun c => R1.dat (V2 m) c
  | ⟨2, _⟩ => fun c => R2.dat (V3 m) c
abbrev 𝒱₀ : Variants := Variants.none
/-- No core owes another anything. -/
abbrev L : GSem nD τ sig → Finset Unit := fun _ => ∅
abbrev lv : GSem nD τ sig → Unit → ℕ := fun _ _ => 0
/-- Beside the buffers, through every item: the core's generator register at some state, and nothing owed. -/
abbrev R (c : Dev nD) : sProp 𝕄 := iprop((∃ r, prngReg c r) ∗ ∃ W, owes (c : Thread nD τ) (0 : CellTallies nD τ sig Unit) W)
/-- The host operation as an item: from the contents `W` to those contents after it. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the program ends with, the `owes` apart. -/
abbrev Tₙ (c : Dev nD) : sProp 𝕄 := iprop(StableHlo.held (c : Thread nD τ) (Pipeline.ucRefs τ sig) (W4 m c) ∗ ∃ r, prngReg c r)

/-! ## The regions as items of the program -/

set_option backward.isDefEq.respectTransparency.types false in
/-- Region 0: entered with every buffer outside the kernels' working memory at `W0`, left with them at `W1`. Its windows' arrays
    are taken out of those buffers at entry and put back at what the write-backs leave at exit; the generator register and the
    kernel's working buffers go into the region's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun w => R0.A_eq (V0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec0 c : sProp 𝕄) ⊢ (pdats m 0 c).Φ 0 from R0.hin (V0 m) c)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ (Pipeline.ΦA spec0 c : sProp 𝕄) from R0.hout (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every buffer outside the kernels' working memory at `W2`, left with them at `W3`. Its windows' arrays
    are taken out of those buffers at entry and put back at what the write-backs leave at exit; the generator register and the
    kernel's working buffers go into the region's invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun w => R1.A_eq (V2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m 1 c).Φ 0 from R1.hin (V2 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ (Pipeline.ΦA spec1 c : sProp 𝕄) from R1.hout (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with the buffers at `W3`, left with them at `W4`. Both its input windows read the latent array: at entry the
    array's full share is dealt between them, at exit the two halves (the array unchanged) are joined again, and the result
    array comes back at what the write-backs leave. It is the last item: what it leaves is what the program ends with. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (R2.body_obligation (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := R2.arrays_of_bufs (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := R2.bufs_of_arrays (V3 m) c (V4 m c) (hF2 m c) (hrest2 m c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as its items, and the run -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .region (reg2 m) ]
theorem main_run (c : Dev nD) : main (F := F) c = Pipeline.Seg.run (segs m) := (main_chain c).trans (by chain_rfl)

set_option backward.isDefEq.respectTransparency.types false in
/-- From any memory with every counter at zero, every weakly fair execution of the program terminates without a fault, and at
    its end every buffer outside the kernels' working memory holds the last contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.KernelIdeal.Run

end
-- ==== Proof.LibMatmulPlain.lean ====
/-
  A plain matrix product read at an index written by coordinates.

  For the dimension numbers "rows × contraction times contraction × columns" (`DotDims.plain M K N`: the left operand
  `[M, K]` contracted on its last axis against the first axis of the right operand `[K, N]`, no batch axis), a
  `tpu.matmul` into the zero accumulator, read on the extended reals at `(r, c)`, is the sum over `k` of the left
  operand at `(r, k)` times the right operand at `(k, c)`: the library reads the product as a sum over the dot's own
  contraction index, whose operand indices are named coordinate by coordinate here, and the one-axis contraction index
  is exchanged for `Fin K`.
-/
import Idealize.ShloMosaic.PureOps.Ideal.Laws
import Idealize.ShloMosaic.Lib.ValueIdx

namespace Cert.LibMatmulPlain

open Idealize.ShloMosaic Idealize.ShloMosaic.ValueIdx

variable {M K N : ℕ}

/-- The left operand's index keeps the output's row. -/
theorem lhsIdx_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's index takes the contraction position as its column. -/
theorem lhsIdx_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's index takes the contraction position as its row. -/
theorem rhsIdx_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's index keeps the output's column. -/
theorem rhsIdx_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- A plain `[M, K] × [K, N]` product into the zero accumulator, at `(r, c)`: `∑ k, L (r, k) · R (k, c)`. -/
theorem matmul_plain_zero_apply {φ₁ φ₂ : FTy} (prec : Option ContractPrecision)
    (L : FVec Ideal ⟨2, ![M, K]⟩ φ₁) (R : FVec Ideal ⟨2, ![K, N]⟩ φ₂) (r : Fin M) (c : Fin N) :
    FloatOps.matmul (DotDims.plain M K N) prec L R (constant ⟨2, ![M, N]⟩ .f32 0x00000000#32) (ix2 r c)
      = ∑ k : Fin K, L (ix2 r k) * R (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhsIdx_row _ _
      | ⟨1, _⟩ => exact (lhsIdx_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhsIdx_row _ _).trans hk
      | ⟨1, _⟩ => exact rhsIdx_col _ _)
  rw [el, er]

end Cert.LibMatmulPlain
-- ==== Proof.LibGram.lean ====
/-
  Three array forms read at an index written by coordinates, at the ideal instance (floats are extended reals).

  * A matrix product contracted on BOTH operands' last axes, `[M, K] × [N, K] → [M, N]` (a Gram matrix `X · Xᵀ` when the
    two operands are one array), into the zero accumulator: entry `(r, c)` is `∑ k, L (r, k) · R (c, k)`.
  * The sum of a column `[a, 1]` over its first axis, into `[1]`, from the neutral word: `∑ k, v (k, 0)`.
  * A `[1, 1]` value broadcast to `[a, b]`: every entry is the one value.
  Imports only the library.
-/
import Idealize.ShloMosaic.PureOps.Ideal.Laws
import Idealize.ShloMosaic.Lib.ValueIdx
import Idealize.ShloMosaic.Lib.Pipeline.Value

namespace Cert.LibGram

open Idealize.ShloMosaic Idealize.ShloMosaic.ValueIdx

variable {M K N : ℕ}

/-- The left operand's index keeps the output's row. -/
theorem lhsIdx_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The left operand's index takes the contraction position as its column. -/
theorem lhsIdx_col (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's index takes the output's column as its row. -/
theorem rhsIdx_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The right operand's index takes the contraction position as its column. -/
theorem rhsIdx_col (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- A product contracted on both last axes into the zero accumulator, at `(r, c)`: `∑ k, L (r, k) · R (c, k)`. -/
theorem matmul_transposedRhs_zero_apply {φ₁ φ₂ : FTy} (prec : Option ContractPrecision)
    (L : FVec Ideal ⟨2, ![M, K]⟩ φ₁) (R : FVec Ideal ⟨2, ![N, K]⟩ φ₂) (r : Fin M) (c : Fin N) :
    FloatOps.matmul (DotDims.transposedRhs M K N) prec L R (constant ⟨2, ![M, N]⟩ .f32 0x00000000#32) (ix2 r c)
      = ∑ k : Fin K, L (ix2 r k) * R (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact lhsIdx_row _ _
      | ⟨1, _⟩ => exact (lhsIdx_col _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact rhsIdx_row _ _
      | ⟨1, _⟩ => exact (rhsIdx_col _ _).trans hk)
  rw [el, er]

variable {a b : ℕ}

/-- The reduced index `0` with the row `k` put back is `(k, 0)`. -/
theorem lift_first (h : (⟨2, ![a, 1]⟩ : Shape).Reduces [0] ⟨1, ![1]⟩) (u : Fin 1) (k : Fin a) :
    h.lift (ix1 u) k = ix2 k (0 : Fin 1) :=
  funext fun c => Fin.ext (by
    match c with
    | ⟨0, _⟩ => rfl
    | ⟨1, _⟩ =>
      have h1 : ((h.lift (ix1 u) k) 1).val < 1 := idx2_lt1 _
      show ((h.lift (ix1 u) k) 1).val = 0
      omega)

/-- A column summed over its first axis from the neutral word: `∑ k, v (k, 0)`. -/
theorem colSum_apply {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ k : Fin a, src (ix2 k (0 : Fin 1)) :=
  (Ideal.multiReduction_add_single src acc h hφ hacc (ix1 u)).trans
    (Finset.sum_congr rfl fun k _ => congrArg src (lift_first h u k))

variable {α : Type}

/-- A `[1, 1]` value broadcast to `[a, b]` reads, everywhere, the one value. -/
theorem broadcastTo_11_ab_apply (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibGram
-- ==== Proof.LibConcatRows.lean ====
/-
  Two matrices of 128 columns laid side by side, read at an index written by coordinates.

  A concatenation along axis 1 of two `[R, 128]` arrays into `[R, 256]`, read at `(p, k)`, is the first array at
  `(p, k)` when `k` is below 128 and the second at `(p, k - 128)` otherwise: the library reads a two-piece
  concatenation at an index of either piece, and the piece is decided by the column.
-/
import Idealize.ShloMosaic.Lib.Pipeline.Value
import Idealize.ShloMosaic.Lib.ValueIdx

namespace Cert.LibConcatRows

open Idealize.ShloMosaic Idealize.ShloMosaic.ValueIdx

variable {α : Type}

/-- `[R, 128]` beside `[R, 128]` at `(p, k)`: the left array below column 128, the right one from there on. -/
theorem concat_rows_apply {R : ℕ} (a b : (⟨2, ![R, 128]⟩ : Shape).Idx → α)
    (h : Shape.Concatenates [(⟨2, ![R, 128]⟩ : Shape), ⟨2, ![R, 128]⟩] ⟨2, ![R, 256]⟩ 1) (p : Fin R) (k : Fin 256) :
    concatenate ⟨2, ![R, 256]⟩ 1 [⟨⟨2, ![R, 128]⟩, a⟩, ⟨⟨2, ![R, 128]⟩, b⟩] h (ix2 p k)
      = if hk : k.val < 128 then a (ix2 p ⟨k.val, hk⟩) else b (ix2 p ⟨k.val - 128, by have := k.isLt; omega⟩) := by
  split
  · next hk =>
    refine concatenate_pair_apply_left (1 : Fin 2) a b h (ix2 p k) rfl (ix2 p ⟨k.val, hk⟩) fun bx => ?_
    match bx with
    | ⟨0, _⟩ => rfl
    | ⟨1, _⟩ => rfl
  · next hk =>
    refine concatenate_pair_apply_right (1 : Fin 2) a b h (ix2 p k) rfl rfl
      (ix2 p ⟨k.val - 128, by have := k.isLt; omega⟩) (fun bx hb => ?_) ?_
    · match bx with
      | ⟨0, _⟩ => rfl
      | ⟨1, _⟩ => exact absurd rfl hb
    · show (k.val - 128) + 128 = k.val
      omega

end Cert.LibConcatRows
-- ==== Proof.KI.PayAt.lean ====
/-
  The three regions' stored values, read at an index written by coordinates, on the extended reals.

  Every format change is the identity and every product is the plain sum over its contraction axis, so a stored value
  at (p, q) is an expression in the blocks' entries: a zero, an accumulator entry plus a row of the adjacency block against a
  column of an inner product, a maximum with zero, an accumulator entry plus noise times an exponential, and the logistic
  function of an inner product of two rows. The side-by-side weight matrix is read in either half.
-/
import proofs.«119699_j17463337026205_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout
import proofs.«119699_j17463337026205_1_alg».proof.Proof.LibMatmulPlain
import proofs.«119699_j17463337026205_1_alg».proof.Proof.LibGram
import proofs.«119699_j17463337026205_1_alg».proof.Proof.LibConcatRows

set_option maxRecDepth 16384

noncomputable section

namespace Cert.KernelIdeal.Pay

open Cert.KernelIdeal Cert.KernelIdeal.Gen Idealize.ShloMosaic Idealize.ShloMosaic.ValueIdx
open scoped BigOperators

/-- The first region's zero fill reads 0 everywhere. -/
theorem pay0_zero (p : Fin 1024) (q : Fin 256) : (k0_pay1 (F := Ideal)) (ix2 p q) = 0 := by
  unfold k0_pay1
  refine (congrFun (shapeCast_self _ _) (ix2 p q)).trans ?_
  exact Ideal.ofBits_zero_f32

/-- One accumulation step of the first region at (p, q): the accumulator plus the adjacency block's row p times column q of
    the product of the feature block and the first-layer weights, the inner product bracketed first. -/
theorem pay0_step (x : Vec Ideal S1024x512 .f32) (w1 : Vec Ideal S512x256 .f32) (a : Vec Ideal S1024x1024 .f32)
    (acc : Vec Ideal S1024x256 .f32) (p : Fin 1024) (q : Fin 256) :
    k0_pay2 x w1 a acc (ix2 p q)
      = acc (ix2 p q) + ∑ j : Fin 1024, a (ix2 p j) * ∑ f : Fin 512, x (ix2 j f) * w1 (ix2 f q) := by
  unfold k0_pay2
  refine (congrFun (shapeCast_self _ _) (ix2 p q)).trans ?_
  refine congrArg (acc (ix2 p q) + ·) ?_
  refine (Cert.LibMatmulPlain.matmul_plain_zero_apply (M := 1024) (K := 1024) (N := 256) none _ _ p q).trans ?_
  refine Finset.sum_congr rfl fun j _ => ?_
  refine congrArg (a (ix2 p j) * ·) ?_
  exact Cert.LibMatmulPlain.matmul_plain_zero_apply (M := 1024) (K := 512) (N := 256) none _ _ j q

/-- The first region's output at (p, q): the maximum of the accumulator and zero. -/
theorem pay0_relu (v : Vec Ideal S1024x256 .f32) (p : Fin 1024) (q : Fin 256) :
    k0_pay3 v (ix2 p q) = max (v (ix2 p q)) 0 := by
  unfold k0_pay3
  refine (maximumf_apply _ _ _).trans ?_
  refine congrArg (max (v (ix2 p q))) ?_
  exact Ideal.ofBits_zero_f32

/-- The second region's zero fill reads 0 everywhere. -/
theorem pay1_zero (p : Fin 1024) (q : Fin 256) : (k1_pay1 (F := Ideal)) (ix2 p q) = 0 := by
  unfold k1_pay1
  refine (congrFun (shapeCast_self _ _) (ix2 p q)).trans ?_
  exact Ideal.ofBits_zero_f32

/-- One accumulation step of the second region at (p, q): the accumulator plus the adjacency block's row p times column q of
    the product of the hidden block and the two weight matrices laid side by side. -/
theorem pay1_step (h : Vec Ideal S1024x256 .f32) (wc : Vec Ideal S256x256 .f32) (a : Vec Ideal S1024x1024 .f32)
    (acc : Vec Ideal S1024x256 .f32) (p : Fin 1024) (q : Fin 256) :
    k1_pay2 h wc a acc (ix2 p q)
      = acc (ix2 p q) + ∑ j : Fin 1024, a (ix2 p j) * ∑ e : Fin 256, h (ix2 j e) * wc (ix2 e q) := by
  unfold k1_pay2
  refine (congrFun (shapeCast_self _ _) (ix2 p q)).trans ?_
  refine congrArg (acc (ix2 p q) + ·) ?_
  refine (Cert.LibMatmulPlain.matmul_plain_zero_apply (M := 1024) (K := 1024) (N := 256) none _ _ p q).trans ?_
  refine Finset.sum_congr rfl fun j _ => ?_
  refine congrArg (a (ix2 p j) * ·) ?_
  refine (Cert.LibMatmulPlain.matmul_plain_zero_apply (M := 1024) (K := 256) (N := 256) none _ _ j q).trans ?_
  refine Finset.sum_congr rfl fun e _ => ?_
  exact congrArg₂ (· * ·) (congrFun (shapeCast_self h _) (ix2 j e)) (congrFun (shapeCast_self wc _) (ix2 e q))

/-- The second region's output at (p, d): the accumulator's column d plus the noise times the exponential of its column
    128 + d. -/
theorem pay1_out (acc : Vec Ideal S1024x256 .f32) (eps : Vec Ideal S1024x128 .f32) (p : Fin 1024) (d : Fin 128) :
    k1_pay3 acc eps (ix2 p d)
      = acc (ix2 p (⟨d.val, Nat.lt_trans d.isLt (by norm_num)⟩ : Fin 256))
        + eps (ix2 p d) * Ideal.exp (acc (ix2 p (⟨128 + d.val, by have := d.isLt; omega⟩ : Fin 256))) := by
  unfold k1_pay3
  refine (addf_apply _ _ _).trans ?_
  refine congrArg₂ (· + ·) ?_ ?_
  · refine extractStridedSlice_apply ![0, 0] acc slices_S1024x256_o0_0_S1024x128 (ix2 p d) _ fun ax => ?_
    match ax with
    | ⟨0, _⟩ => exact (Nat.zero_add _).symm
    | ⟨1, _⟩ => exact (Nat.zero_add _).symm
  · refine (mulf_apply _ _ _).trans ?_
    refine congrArg (eps (ix2 p d) * ·) ?_
    refine congrArg Ideal.exp ?_
    refine extractStridedSlice_apply ![0, 128] acc slices_S1024x256_o0_128_S1024x128 (ix2 p d) _ fun ax => ?_
    match ax with
    | ⟨0, _⟩ => exact (Nat.zero_add _).symm
    | ⟨1, _⟩ => rfl

/-- The third region's output at (p, q): the logistic function of the inner product of row p of the first latent block and
    row q of the second. -/
theorem pay2_out (zi zj : Vec Ideal S1024x128 .f32) (p q : Fin 1024) :
    k2_pay1 zi zj (ix2 p q) = Ideal.logistic (∑ d : Fin 128, zi (ix2 p d) * zj (ix2 q d)) := by
  unfold k2_pay1
  refine congrArg Ideal.logistic ?_
  refine (Cert.LibGram.matmul_transposedRhs_zero_apply (M := 1024) (K := 128) (N := 1024) none _ _ p q).trans ?_
  refine Finset.sum_congr rfl fun d _ => ?_
  exact congrArg₂ (· * ·) (congrFun (shapeCast_self zi _) (ix2 p d)) (congrFun (shapeCast_self zj _) (ix2 q d))

/-- The two weight matrices laid side by side, read in the left half: column d of the first. -/
theorem wcat_left (wm ws : Vec Ideal S256x128 .f32) (e : Fin 256) (d : Fin 128) :
    concatenate S256x256 1 [⟨S256x128, wm⟩, ⟨S256x128, ws⟩] concatenates_S256x128_S256x128_S256x256_d1
        (ix2 e (⟨d.val, Nat.lt_trans d.isLt (by norm_num)⟩ : Fin 256)) = wm (ix2 e d) := by
  refine (Cert.LibConcatRows.concat_rows_apply (R := 256) wm ws concatenates_S256x128_S256x128_S256x256_d1 e _).trans ?_
  rw [dif_pos (show (⟨d.val, Nat.lt_trans d.isLt (by norm_num)⟩ : Fin 256).val < 128 from d.isLt)]

/-- The two weight matrices laid side by side, read in the right half: column 128 + d is column d of the second. -/
theorem wcat_right (wm ws : Vec Ideal S256x128 .f32) (e : Fin 256) (d : Fin 128) :
    concatenate S256x256 1 [⟨S256x128, wm⟩, ⟨S256x128, ws⟩] concatenates_S256x128_S256x128_S256x256_d1
        (ix2 e (⟨128 + d.val, by have := d.isLt; omega⟩ : Fin 256)) = ws (ix2 e d) := by
  refine (Cert.LibConcatRows.concat_rows_apply (R := 256) wm ws concatenates_S256x128_S256x128_S256x256_d1 e _).trans ?_
  rw [dif_neg (show ¬ (⟨128 + d.val, by have := d.isLt; omega⟩ : Fin 256).val < 128 from by show ¬ 128 + d.val < 128; omega)]
  exact congrArg (fun t => ws (ix2 e t)) (Fin.ext (Nat.add_sub_cancel_left 128 d.val))

end Cert.KernelIdeal.Pay

end
-- ==== Proof.LibBlockSum.lean ====
/-
  Summing a sequence block by block.

  A sequence of n * w terms of an additive commutative monoid is cut into n consecutive blocks of w terms: block j holds
  the terms at positions j * w + k for k below w. The running total that starts from zero and adds one block's sum after
  another, nested to the left as ((0 + B0) + B1) + ..., ends at the sum of the whole sequence: every position below n * w
  is j * w + k for exactly one pair (j, k), so the sum over the positions is the sum over the pairs, block by block.
  The instance for four blocks of 1024 terms of a sequence of 4096 terms is stated with literal sizes.
-/
import Mathlib.Algebra.BigOperators.Fin

namespace Cert.BlockSum

open scoped BigOperators

variable {M : Type*} [AddCommMonoid M]

/-- Position k of block j lies in the sequence: j * w + k is below n * w when j is below n and k below w. -/
theorem idx_lt {n w : ℕ} (j : Fin n) (k : Fin w) : j.val * w + k.val < n * w :=
  calc j.val * w + k.val < j.val * w + w := Nat.add_lt_add_left k.isLt _
    _ = (j.val + 1) * w := (Nat.succ_mul _ _).symm
    _ ≤ n * w := Nat.mul_le_mul_right _ j.isLt

/-- The sum of block j: the w terms at positions j * w + k. -/
def blockSum (w : ℕ) {n : ℕ} (f : Fin (n * w) → M) (j : Fin n) : M :=
  ∑ k : Fin w, f ⟨j.val * w + k.val, idx_lt j k⟩

/-- The running total after the first m blocks, accumulated block by block from zero and nested to the left:
    ((0 + B0) + B1) + ... -/
def accBlocks (w : ℕ) {n : ℕ} (f : Fin (n * w) → M) : (m : ℕ) → m ≤ n → M
  | 0, _ => 0
  | m + 1, h => accBlocks w f m (Nat.le_of_succ_le h) + blockSum w f ⟨m, h⟩

/-- The running total after m blocks is the sum of the first m blocks' sums. -/
theorem accBlocks_eq_sum (w : ℕ) {n : ℕ} (f : Fin (n * w) → M) :
    ∀ (m : ℕ) (h : m ≤ n), accBlocks w f m h = ∑ j : Fin m, blockSum w f ⟨j.val, Nat.lt_of_lt_of_le j.isLt h⟩
  | 0, _ => (Finset.sum_empty).symm
  | m + 1, h => by
    rw [accBlocks, accBlocks_eq_sum w f m (Nat.le_of_succ_le h), Fin.sum_univ_castSucc]
    rfl

/-- The blocks' sums add up to the sum of the whole sequence: the positions below n * w are the pairs (block, place in
    the block). -/
theorem sum_blockSum (w : ℕ) {n : ℕ} (f : Fin (n * w) → M) : ∑ j : Fin n, blockSum w f j = ∑ t : Fin (n * w), f t := by
  rw [← Equiv.sum_comp finProdFinEquiv f, Fintype.sum_prod_type]
  refine Finset.sum_congr rfl fun j _ => Finset.sum_congr rfl fun k _ => congrArg f (Fin.ext ?_)
  show j.val * w + k.val = k.val + w * j.val
  rw [Nat.add_comm, Nat.mul_comm]

/-- Accumulating all n blocks from zero gives the sum of the whole sequence. -/
theorem accBlocks_all (w : ℕ) {n : ℕ} (f : Fin (n * w) → M) : accBlocks w f n le_rfl = ∑ t : Fin (n * w), f t :=
  (accBlocks_eq_sum w f n le_rfl).trans (sum_blockSum w f)

/-! ## Four blocks of 1024 terms -/

/-- The sum of block j of a sequence of 4096 terms cut into four blocks of 1024: the terms at positions j * 1024 + k. -/
def blockSum4 (f : Fin 4096 → M) (j : Fin 4) : M :=
  ∑ k : Fin 1024, f ⟨j.val * 1024 + k.val, by have := j.isLt; have := k.isLt; omega⟩

/-- With the literal sizes, a block's sum is the general one (4 * 1024 is 4096). -/
theorem blockSum4_eq (f : Fin 4096 → M) (j : Fin 4) : blockSum4 f j = blockSum 1024 (n := 4) f j := rfl

/-- The four blocks' sums, accumulated from zero and nested to the left, are the sum of all 4096 terms. -/
theorem sum_four_blocks (f : Fin 4096 → M) :
    (((0 + blockSum4 f 0) + blockSum4 f 1) + blockSum4 f 2) + blockSum4 f 3 = ∑ t : Fin 4096, f t := by
  rw [zero_add, blockSum4_eq, blockSum4_eq, blockSum4_eq, blockSum4_eq]
  exact (Fin.sum_univ_four (fun j : Fin 4 => blockSum 1024 (n := 4) f j)).symm.trans (sum_blockSum 1024 (n := 4) f)

end Cert.BlockSum
-- ==== Proof.Spec.lean ====
/-
  The mathematics both programs compute, over the extended reals, entry by entry.

  With A the 8192×8192 adjacency matrix, X the 8192×512 features, W₁ (512×256), Wm and Ws (256×128) the weights and
  E the 8192×128 noise:
    H = relu (A · (X · W₁))                       the hidden layer, 8192×256
    Z = A · (H · Wm) + E ⊙ exp (A · (H · Ws))      the latent sample, 8192×128
    R = logistic (Z · Zᵀ)                          the reconstruction, 8192×8192
  Every product is bracketed as written (the inner product first), every sum runs over the whole contraction axis,
  logistic t = 1 / (1 + exp (−t)) with the extended reals' conventions at the infinities.
  Indices are written by coordinates.
-/
import Idealize.ShloMosaic.PureOps.Ideal
import Idealize.ShloMosaic.Lib.ValueIdx

noncomputable section

open scoped BigOperators

namespace Cert.Spec

open Idealize.ShloMosaic Idealize.ShloMosaic.ValueIdx

abbrev SNN : Shape := ⟨2, ![8192, 8192]⟩
abbrev SNF : Shape := ⟨2, ![8192, 512]⟩
abbrev SFH : Shape := ⟨2, ![512, 256]⟩
abbrev SHL : Shape := ⟨2, ![256, 128]⟩
abbrev SNH : Shape := ⟨2, ![8192, 256]⟩
abbrev SNL : Shape := ⟨2, ![8192, 128]⟩

/-- One entry of X · W₁. -/
def xw (x : SNF.Idx → EReal) (w1 : SFH.Idx → EReal) (j : Fin 8192) (c : Fin 256) : EReal :=
  ∑ f : Fin 512, x (ix2 j f) * w1 (ix2 f c)

/-- One entry of the hidden layer H = relu (A · (X · W₁)). -/
def hidAt (adj : SNN.Idx → EReal) (x : SNF.Idx → EReal) (w1 : SFH.Idx → EReal) (r : Fin 8192) (c : Fin 256) : EReal :=
  max (∑ j : Fin 8192, adj (ix2 r j) * xw x w1 j c) 0

/-- The hidden layer as an array. -/
def hid (adj : SNN.Idx → EReal) (x : SNF.Idx → EReal) (w1 : SFH.Idx → EReal) : SNH.Idx → EReal :=
  fun i => hidAt adj x w1 (i 0) (i 1)

/-- One entry of H · W for a 256×128 weight matrix W. -/
def hw (h : SNH.Idx → EReal) (w : SHL.Idx → EReal) (j : Fin 8192) (d : Fin 128) : EReal :=
  ∑ e : Fin 256, h (ix2 j e) * w (ix2 e d)

/-- One entry of the graph convolution A · (H · W). -/
def conv (adj : SNN.Idx → EReal) (h : SNH.Idx → EReal) (w : SHL.Idx → EReal) (r : Fin 8192) (d : Fin 128) : EReal :=
  ∑ j : Fin 8192, adj (ix2 r j) * hw h w j d

/-- One entry of the latent sample Z = A · (H · Wm) + E ⊙ exp (A · (H · Ws)). -/
def latAt (adj : SNN.Idx → EReal) (h : SNH.Idx → EReal) (wm ws : SHL.Idx → EReal) (eps : SNL.Idx → EReal)
    (r : Fin 8192) (d : Fin 128) : EReal :=
  conv adj h wm r d + eps (ix2 r d) * Ideal.exp (conv adj h ws r d)

/-- The latent sample as an array. -/
def lat (adj : SNN.Idx → EReal) (h : SNH.Idx → EReal) (wm ws : SHL.Idx → EReal) (eps : SNL.Idx → EReal) : SNL.Idx → EReal :=
  fun i => latAt adj h wm ws eps (i 0) (i 1)

/-- One entry of the reconstruction R = logistic (Z · Zᵀ). -/
def recAt (z : SNL.Idx → EReal) (r s : Fin 8192) : EReal :=
  Ideal.logistic (∑ d : Fin 128, z (ix2 r d) * z (ix2 s d))

/-- The reconstruction as an array. -/
def recon (z : SNL.Idx → EReal) : SNN.Idx → EReal :=
  fun i => recAt z (i 0) (i 1)

/-- The whole computation: the reconstruction of the latent sample of the hidden layer. -/
def G (x : SNF.Idx → EReal) (adj : SNN.Idx → EReal) (w1 : SFH.Idx → EReal) (wm ws : SHL.Idx → EReal) (eps : SNL.Idx → EReal) :
    SNN.Idx → EReal :=
  recon (lat adj (hid adj x w1) wm ws eps)

end Cert.Spec

end
-- ==== Proof.BlockLaw.lean ====
/-
  Summing 8192 terms as eight blocks of 1024.

  A sum over the 8192 positions of a contraction axis is taken in eight consecutive blocks of 1024 positions: block k
  holds the positions 1024 * k + j' for j' below 1024. A running total that starts at zero, adds block 0, then block 1, ...
  nested to the left as (((0 + B0) + B1) + ...) + B7, ends at the sum over all 8192 positions: addition of extended
  reals is commutative and associative, and every position is 1024 * k + j' for exactly one pair (k, j').
  The same cut names the rows: row 1024 * i + p is place p of row block i.
-/
import Mathlib.Algebra.BigOperators.Fin
import proofs.«119699_j17463337026205_1_alg».proof.Proof.LibBlockSum
import proofs.«119699_j17463337026205_1_alg».proof.Proof.Spec

namespace Cert.BlockLaw

open scoped BigOperators
open Cert.BlockSum

variable {M : Type*} [AddCommMonoid M]

/-! ## Positions -/

/-- Place p of block i among 8192 positions cut into eight blocks of 1024: the position 1024 * i + p. -/
def pos (i : Fin 8) (p : Fin 1024) : Fin 8192 := ⟨1024 * i.val + p.val, by have := i.isLt; have := p.isLt; omega⟩

@[simp] theorem pos_val (i : Fin 8) (p : Fin 1024) : (pos i p).val = 1024 * i.val + p.val := rfl

/-- The block of position 1024 * i + p is i. -/
theorem pos_div (i : Fin 8) (p : Fin 1024) : (pos i p).val / 1024 = i.val := by
  have := p.isLt; rw [pos_val]; omega

/-- The place of position 1024 * i + p in its block is p. -/
theorem pos_mod (i : Fin 8) (p : Fin 1024) : (pos i p).val % 1024 = p.val := by
  have := p.isLt; rw [pos_val]; omega

/-- The block of a position, as an index below 8. -/
def blockOf (r : Fin 8192) : Fin 8 := ⟨r.val / 1024, by have := r.isLt; omega⟩

/-- The place of a position in its block, as an index below 1024. -/
def placeOf (r : Fin 8192) : Fin 1024 := ⟨r.val % 1024, Nat.mod_lt _ (by norm_num)⟩

@[simp] theorem blockOf_pos (i : Fin 8) (p : Fin 1024) : blockOf (pos i p) = i := Fin.ext (pos_div i p)

@[simp] theorem placeOf_pos (i : Fin 8) (p : Fin 1024) : placeOf (pos i p) = p := Fin.ext (pos_mod i p)

/-- Every position is the place it has in the block it lies in. -/
@[simp] theorem pos_blockOf_placeOf (r : Fin 8192) : pos (blockOf r) (placeOf r) = r :=
  Fin.ext (by show 1024 * (r.val / 1024) + r.val % 1024 = r.val; exact Nat.div_add_mod _ _)

/-- Two positions written by block and place agree only if the blocks and the places do. -/
theorem pos_inj {i i' : Fin 8} {p p' : Fin 1024} (h : pos i p = pos i' p') : i = i' ∧ p = p' :=
  ⟨by rw [← blockOf_pos i p, h, blockOf_pos], by rw [← placeOf_pos i p, h, placeOf_pos]⟩

/-- The position written with the block's offset second, 1024 * i + p = i * 1024 + p. -/
theorem pos_eq_mk (i : Fin 8) (p : Fin 1024) (h : i.val * 1024 + p.val < 8192) :
    (⟨i.val * 1024 + p.val, h⟩ : Fin 8192) = pos i p :=
  Fin.ext (by show i.val * 1024 + p.val = 1024 * i.val + p.val; rw [Nat.mul_comm])

/-! ## Grid points: eight row blocks times eight steps -/

/-- Step k of row block i among the 64 points of an 8 × 8 grid walked row block by row block: the point 8 * i + k. -/
def pt (i k : Fin 8) : Fin 64 := ⟨8 * i.val + k.val, by have := i.isLt; have := k.isLt; omega⟩

@[simp] theorem pt_val (i k : Fin 8) : (pt i k).val = 8 * i.val + k.val := rfl

theorem pt_div (i k : Fin 8) : (pt i k).val / 8 = i.val := by have := k.isLt; rw [pt_val]; omega

theorem pt_mod (i k : Fin 8) : (pt i k).val % 8 = k.val := by have := k.isLt; rw [pt_val]; omega

/-- Every point of the grid is a step of a row block. -/
theorem pt_div_mod (t : Fin 64) :
    pt ⟨t.val / 8, by have := t.isLt; omega⟩ ⟨t.val % 8, Nat.mod_lt _ (by norm_num)⟩ = t :=
  Fin.ext (by show 8 * (t.val / 8) + t.val % 8 = t.val; exact Nat.div_add_mod _ _)

/-! ## Block sums and the running total -/

/-- The sum of block k of a sequence of 8192 terms: the 1024 terms at the positions 1024 * k + j'. -/
def blk (f : Fin 8192 → M) (k : Fin 8) : M := ∑ j' : Fin 1024, f (pos k j')

/-- A block's sum is the general block sum of eight blocks of 1024 (8 * 1024 is 8192; j * 1024 + k' = 1024 * j + k'). -/
theorem blk_eq_blockSum (f : Fin 8192 → M) (k : Fin 8) : blk f k = blockSum 1024 (n := 8) f k :=
  Finset.sum_congr rfl fun j' _ => congrArg f (Fin.ext (by
    show 1024 * k.val + j'.val = k.val * 1024 + j'.val
    rw [Nat.mul_comm]))

/-- The eight blocks' sums add up to the sum of all 8192 terms. -/
theorem sum_blk (f : Fin 8192 → M) : ∑ k : Fin 8, blk f k = ∑ j : Fin 8192, f j := by
  rw [show (∑ k : Fin 8, blk f k) = ∑ k : Fin 8, blockSum 1024 (n := 8) f k from
    Finset.sum_congr rfl fun k _ => blk_eq_blockSum f k]
  exact sum_blockSum 1024 (n := 8) f

/-- The general running total over all eight blocks of 1024 is the sum of all 8192 terms. -/
theorem accBlocks_eight (f : Fin 8192 → M) : accBlocks 1024 (n := 8) f 8 le_rfl = ∑ j : Fin 8192, f j :=
  accBlocks_all 1024 (n := 8) f

/-- The running total after steps 0, …, k: it starts as 0 + B0 and each later step adds that step's block. -/
def run (f : Fin 8192 → M) : (k : ℕ) → k < 8 → M
  | 0, h => 0 + blk f ⟨0, h⟩
  | k + 1, h => run f k (Nat.lt_of_succ_lt h) + blk f ⟨k + 1, h⟩

theorem run_zero (f : Fin 8192 → M) (h : 0 < 8) : run f 0 h = 0 + blk f ⟨0, h⟩ := rfl

theorem run_succ (f : Fin 8192 → M) (k : ℕ) (h : k + 1 < 8) :
    run f (k + 1) h = run f k (Nat.lt_of_succ_lt h) + blk f ⟨k + 1, h⟩ := rfl

/-- The running total after step k is the sum of the blocks 0, …, k. -/
theorem run_eq_sum (f : Fin 8192 → M) :
    ∀ (k : ℕ) (h : k < 8), run f k h = ∑ j : Fin (k + 1), blk f ⟨j.val, Nat.lt_of_lt_of_le j.isLt h⟩
  | 0, h => by rw [run_zero, zero_add, Fin.sum_univ_one]; rfl
  | k + 1, h => by
    rw [run_succ, run_eq_sum f k (Nat.lt_of_succ_lt h), Fin.sum_univ_castSucc (n := k + 1)]
    rfl

/-- After the last step the running total is the sum of all 8192 terms. -/
theorem run_last (f : Fin 8192 → M) (h : 7 < 8 := by norm_num) : run f 7 h = ∑ j : Fin 8192, f j :=
  (run_eq_sum f 7 h).trans (sum_blk f)

/-- Any running total that starts as 0 + B0 and adds block k + 1 at step k + 1 is `run` at every step. -/
theorem eq_run (f : Fin 8192 → M) (acc : ℕ → M) (h0 : acc 0 = 0 + blk f 0)
    (hs : ∀ (k : ℕ) (h : k + 1 < 8), acc (k + 1) = acc k + blk f ⟨k + 1, h⟩) :
    ∀ (k : ℕ) (h : k < 8), acc k = run f k h
  | 0, _ => h0
  | k + 1, h => by rw [hs k h, eq_run f acc h0 hs k (Nat.lt_of_succ_lt h), run_succ]

/-- Such a running total is, after step 7, the sum of all 8192 terms. -/
theorem acc_last (f : Fin 8192 → M) (acc : ℕ → M) (h0 : acc 0 = 0 + blk f 0)
    (hs : ∀ (k : ℕ) (h : k + 1 < 8), acc (k + 1) = acc k + blk f ⟨k + 1, h⟩) :
    acc 7 = ∑ j : Fin 8192, f j :=
  (eq_run f acc h0 hs 7 (by norm_num)).trans (run_last f)

/-- The eight steps written out: (((0 + B0) + B1) + …) + B7 is the sum of all 8192 terms. -/
theorem sum_eight_blocks (f : Fin 8192 → M) :
    (((((((0 + blk f 0) + blk f 1) + blk f 2) + blk f 3) + blk f 4) + blk f 5) + blk f 6) + blk f 7
      = ∑ j : Fin 8192, f j :=
  run_last f

/-! ## The same over the extended reals, and small facts -/

/-- Zero added on the left changes nothing. -/
theorem zero_add_ereal (a : EReal) : 0 + a = a := zero_add a

theorem sum_eight_blocks_ereal (f : Fin 8192 → EReal) :
    (((((((0 + blk f 0) + blk f 1) + blk f 2) + blk f 3) + blk f 4) + blk f 5) + blk f 6) + blk f 7
      = ∑ j : Fin 8192, f j :=
  sum_eight_blocks f

theorem acc_last_ereal (f : Fin 8192 → EReal) (acc : ℕ → EReal) (h0 : acc 0 = 0 + blk f 0)
    (hs : ∀ (k : ℕ) (h : k + 1 < 8), acc (k + 1) = acc k + blk f ⟨k + 1, h⟩) :
    acc 7 = ∑ j : Fin 8192, f j :=
  acc_last f acc h0 hs

end Cert.BlockLaw
-- ==== Proof.BlockSpec.lean ====
/-
  The specification's long sums, cut into eight blocks.

  An entry of a graph convolution is a sum over the 8192 nodes. Read as eight consecutive blocks of 1024 nodes added one
  after another from zero, it is the last value of the running total of the block law; the hidden layer's entry is the
  maximum of that value and zero. A block's sum is written out by the node's block and place.
-/
import proofs.«119699_j17463337026205_1_alg».proof.Proof.BlockLaw

noncomputable section

namespace Cert.BlockSpec

open scoped BigOperators
open Cert.BlockLaw Cert.Spec Idealize.ShloMosaic Idealize.ShloMosaic.ValueIdx

/-- The terms of entry (r, c) of A · (X · W₁), one for each node j: A (r, j) times entry (j, c) of X · W₁. -/
def hidTerm (adj : SNN.Idx → EReal) (x : SNF.Idx → EReal) (w1 : SFH.Idx → EReal) (r : Fin 8192) (c : Fin 256) :
    Fin 8192 → EReal :=
  fun j => adj (ix2 r j) * xw x w1 j c

/-- The terms of entry (r, d) of A · (H · W), one for each node j: A (r, j) times entry (j, d) of H · W. -/
def convTerm (adj : SNN.Idx → EReal) (h : SNH.Idx → EReal) (w : SHL.Idx → EReal) (r : Fin 8192) (d : Fin 128) :
    Fin 8192 → EReal :=
  fun j => adj (ix2 r j) * hw h w j d

/-- Block k of the terms of A · (X · W₁) at (r, c), written by the node's place in the block. -/
theorem blk_hidTerm (adj : SNN.Idx → EReal) (x : SNF.Idx → EReal) (w1 : SFH.Idx → EReal) (r : Fin 8192) (c : Fin 256)
    (k : Fin 8) :
    blk (hidTerm adj x w1 r c) k
      = ∑ j' : Fin 1024, adj (ix2 r (pos k j')) * ∑ f : Fin 512, x (ix2 (pos k j') f) * w1 (ix2 f c) := rfl

/-- Block k of the terms of A · (H · W) at (r, d), written by the node's place in the block. -/
theorem blk_convTerm (adj : SNN.Idx → EReal) (h : SNH.Idx → EReal) (w : SHL.Idx → EReal) (r : Fin 8192) (d : Fin 128)
    (k : Fin 8) :
    blk (convTerm adj h w r d) k
      = ∑ j' : Fin 1024, adj (ix2 r (pos k j')) * ∑ e : Fin 256, h (ix2 (pos k j') e) * w (ix2 e d) := rfl

/-- An entry of A · (X · W₁) is the running total of its eight blocks after the last step. -/
theorem sum_hidTerm (adj : SNN.Idx → EReal) (x : SNF.Idx → EReal) (w1 : SFH.Idx → EReal) (r : Fin 8192) (c : Fin 256)
    (h7 : 7 < 8) :
    run (hidTerm adj x w1 r c) 7 h7 = ∑ j : Fin 8192, adj (ix2 r j) * xw x w1 j c :=
  run_last (hidTerm adj x w1 r c) h7

/-- An entry of the hidden layer is the maximum of the running total after the last step and zero. -/
theorem hidAt_eq_run (adj : SNN.Idx → EReal) (x : SNF.Idx → EReal) (w1 : SFH.Idx → EReal) (r : Fin 8192) (c : Fin 256)
    (h7 : 7 < 8) :
    hidAt adj x w1 r c = max (run (hidTerm adj x w1 r c) 7 h7) 0 :=
  (congrArg (fun t => max t (0 : EReal)) (sum_hidTerm adj x w1 r c h7)).symm

/-- An entry of a graph convolution A · (H · W) is the running total of its eight blocks after the last step. -/
theorem conv_eq_run (adj : SNN.Idx → EReal) (h : SNH.Idx → EReal) (w : SHL.Idx → EReal) (r : Fin 8192) (d : Fin 128)
    (h7 : 7 < 8) :
    conv adj h w r d = run (convTerm adj h w r d) 7 h7 :=
  (run_last (convTerm adj h w r d) h7).symm

/-- The hidden layer's entry with the eight steps written out. -/
theorem hidAt_eq_blocks (adj : SNN.Idx → EReal) (x : SNF.Idx → EReal) (w1 : SFH.Idx → EReal) (r : Fin 8192) (c : Fin 256) :
    hidAt adj x w1 r c
      = max ((((((((0 + blk (hidTerm adj x w1 r c) 0) + blk (hidTerm adj x w1 r c) 1) + blk (hidTerm adj x w1 r c) 2)
          + blk (hidTerm adj x w1 r c) 3) + blk (hidTerm adj x w1 r c) 4) + blk (hidTerm adj x w1 r c) 5)
          + blk (hidTerm adj x w1 r c) 6) + blk (hidTerm adj x w1 r c) 7) 0 :=
  (congrArg (fun t => max t (0 : EReal)) (sum_eight_blocks (hidTerm adj x w1 r c))).symm

/-- A graph convolution's entry with the eight steps written out. -/
theorem conv_eq_blocks (adj : SNN.Idx → EReal) (h : SNH.Idx → EReal) (w : SHL.Idx → EReal) (r : Fin 8192) (d : Fin 128) :
    conv adj h w r d
      = (((((((0 + blk (convTerm adj h w r d) 0) + blk (convTerm adj h w r d) 1) + blk (convTerm adj h w r d) 2)
          + blk (convTerm adj h w r d) 3) + blk (convTerm adj h w r d) 4) + blk (convTerm adj h w r d) 5)
          + blk (convTerm adj h w r d) 6) + blk (convTerm adj h w r d) 7 :=
  (sum_eight_blocks (convTerm adj h w r d)).symm

end Cert.BlockSpec

end
-- ==== Proof.KI.Val0.lean ====
/-
  What the first call leaves in its output array, entry by entry, on the extended reals.

  Entry (p, q) of the accumulator after step k of row block i is the running total, from zero, of the blocks 0, …, k of
  the 8192 terms A (1024 i + p, j) · (X · W₁) (j, q) of entry (1024 i + p, q) of A · (X · W₁): block k holds the terms
  of the nodes j = 1024 k + j', and it is what one accumulator step adds, since the adjacency block at that point holds
  the entries A (1024 i + p, 1024 k + j'), the feature block the rows 1024 k + j' of X, and the weights all of W₁. After
  step 7 the total is the whole sum (addition is commutative and associative), the stored block is its maximum with
  zero, and it is written back to the rows 1024 i, …, 1024 i + 1023 of the output. Every row lies in one row block, so
  the array ends holding the hidden layer H = relu (A · (X · W₁)). The arrays the call only reads are unchanged.
-/
import proofs.«119699_j17463337026205_1_alg».proof.Proof.KI.Reg0
import proofs.«119699_j17463337026205_1_alg».proof.Proof.KI.PayAt
import proofs.«119699_j17463337026205_1_alg».proof.Proof.BlockSpec
import proofs.«119699_j17463337026205_1_alg».proof.Proof.Spec
import Idealize.ShloMosaic.Lib.Pipeline.Value
import Idealize.ShloMosaic.PureOps.Ideal.Laws

set_option maxRecDepth 16384

noncomputable section

namespace Cert.KernelIdeal.R0

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.BlockLaw Cert.BlockSpec
open scoped BigOperators

-- the TensorCore's buffer contents when the call is entered
variable (V : (c : Dev nD) → (b : Ref sig .tc) → Buf (Elt Ideal) ((c : Thread nD τ).loc b))

/-! ## The arrays the call only reads -/

/-- An input array is never written: it ends as it was entered. -/
theorem arr_in (c : Dev nD) (w : Fin cfg0.W) (hw : w ≠ 3) :
    (dat (F := Ideal) V c).arrAt w cfg0.N = V c (Pipeline.arrRef spec0 w) := by
  have hin : (cfg0.win w).isOut = false := by
    obtain ⟨n, hn⟩ := w
    match n, hn, hw with
    | 0, _, _ => rfl
    | 1, _, _ => rfl
    | 2, _, _ => rfl
    | 3, _, h => exact absurd rfl h
    | n + 4, h, _ => exact absurd h (Nat.not_lt.2 (Nat.le_add_left _ _))
  exact ((dat V c).arrAt_in w hin _).trans (A_eq V c w)

/-! ## The windows' blocks, entry by entry -/

/-- The block indices of the four windows at point t: row block t / 8, step t % 8. -/
theorem idx_facts : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = 0 ∧ win0_2.index t (1 : Fin 2) = 0
    ∧ win0_3.index t (0 : Fin 2) = t.val / 8 ∧ win0_3.index t (1 : Fin 2) = 0 :=
  (by decide +kernel : ∀ t : Fin grid0.N, _)

/-- The adjacency block at step k of row block i holds the entries A (1024 i + p, 1024 k + j). -/
theorem read0 (c : Dev nD) (t : Fin cfg0.N) (i k : Fin 8) (hi : t.val / 8 = i.val) (hk : t.val % 8 = k.val)
    (p j : Fin 1024) :
    (iblk V c 0 t : Vec Ideal S1024x1024 .f32) (ix2 p j) = V c main_arg1 (ix2 (pos i p) (pos k j)) := by
  obtain ⟨e0, e1, -⟩ := idx_facts t
  show V c main_arg1 (((cfg0.win 0).blk t).view.emb (ix2 p j)) = _
  refine congrArg (V c main_arg1) (funext fun a => Fin.ext ?_)
  match a with
  | ⟨0, _⟩ => show win0_0.index t (0 : Fin 2) * 1024 + 1 * p.val = 1024 * i.val + p.val; rw [e0, hi]; omega
  | ⟨1, _⟩ => show win0_0.index t (1 : Fin 2) * 1024 + 1 * j.val = 1024 * k.val + j.val; rw [e1, hk]; omega

/-- The feature block at step k holds the rows 1024 k + j of X. -/
theorem read1 (c : Dev nD) (t : Fin cfg0.N) (k : Fin 8) (hk : t.val % 8 = k.val) (j : Fin 1024) (f : Fin 512) :
    (iblk V c 1 t : Vec Ideal S1024x512 .f32) (ix2 j f) = V c main_arg0 (ix2 (pos k j) f) := by
  obtain ⟨-, -, e2, e3, -⟩ := idx_facts t
  show V c main_arg0 (((cfg0.win 1).blk t).view.emb (ix2 j f)) = _
  refine congrArg (V c main_arg0) (funext fun a => Fin.ext ?_)
  match a with
  | ⟨0, _⟩ => show win0_1.index t (0 : Fin 2) * 1024 + 1 * j.val = 1024 * k.val + j.val; rw [e2, hk]; omega
  | ⟨1, _⟩ => show win0_1.index t (1 : Fin 2) * 512 + 1 * f.val = f.val; rw [e3]; omega

/-- The weights' block is all of W₁ at every point. -/
theorem read2 (c : Dev nD) (t : Fin cfg0.N) (f : Fin 512) (q : Fin 256) :
    (iblk V c 2 t : Vec Ideal S512x256 .f32) (ix2 f q) = V c main_arg2 (ix2 f q) := by
  obtain ⟨-, -, -, -, e4, e5, -⟩ := idx_facts t
  show V c main_arg2 (((cfg0.win 2).blk t).view.emb (ix2 f q)) = _
  refine congrArg (V c main_arg2) (funext fun a => Fin.ext ?_)
  match a with
  | ⟨0, _⟩ => show win0_2.index t (0 : Fin 2) * 512 + 1 * f.val = f.val; rw [e4]; omega
  | ⟨1, _⟩ => show win0_2.index t (1 : Fin 2) * 256 + 1 * q.val = q.val; rw [e5]; omega

/-! ## The accumulator is the running total of the blocks -/

/-- What one accumulator step adds at (p, q) when the three blocks hold, of the arrays A, X, W₁, the entries of step k of
    row block i: block k of the terms of entry (1024 i + p, q). -/
theorem step_term (adj : Cert.Spec.SNN.Idx → EReal) (x : Cert.Spec.SNF.Idx → EReal) (w1 : Cert.Spec.SFH.Idx → EReal)
    (x0 : Vec Ideal S1024x1024 .f32) (x1 : Vec Ideal S1024x512 .f32) (x2 : Vec Ideal S512x256 .f32)
    (i k : Fin 8) (p : Fin 1024) (q : Fin 256)
    (h0 : ∀ j : Fin 1024, x0 (ix2 p j) = adj (ix2 (pos i p) (pos k j)))
    (h1 : ∀ (j : Fin 1024) (f : Fin 512), x1 (ix2 j f) = x (ix2 (pos k j) f))
    (h2 : ∀ f : Fin 512, x2 (ix2 f q) = w1 (ix2 f q)) :
    (∑ j : Fin 1024, x0 (ix2 p j) * ∑ f : Fin 512, x1 (ix2 j f) * x2 (ix2 f q))
      = blk (hidTerm adj x w1 (pos i p) q) k := by
  rw [blk_hidTerm]
  refine Finset.sum_congr rfl fun j _ => ?_
  rw [h0 j]
  refine congrArg (adj (ix2 (pos i p) (pos k j)) * ·) ?_
  exact Finset.sum_congr rfl fun f _ => by rw [h1 j f, h2 f]

/-- The accumulator at a position named in two ways. -/
theorem accAt_congr (c : Dev nD) {n n' : ℕ} (e : n = n') (h : n < cfg0.N) (h' : n' < cfg0.N) :
    accAt V c n h = accAt V c n' h' := by
  subst e; rfl

/-- Entry (p, q) of the accumulator after step k of row block i is the running total of the blocks 0, …, k of the
    terms of entry (1024 i + p, q) of A · (X · W₁): by induction on the step. -/
theorem accAt_run (c : Dev nD) (i : Fin 8) (p : Fin 1024) (q : Fin 256) :
    ∀ (k : ℕ) (hk : k < 8) (hn : 8 * i.val + k < cfg0.N),
      accAt V c (8 * i.val + k) hn (ix2 p q)
        = run (hidTerm (V c main_arg1) (V c main_arg0) (V c main_arg2) (pos i p) q) k hk
  | 0, hk, hn => by
    have hi : (8 * i.val + 0) / 8 = i.val := by omega
    have hk0 : (8 * i.val + 0) % 8 = (⟨0, hk⟩ : Fin 8).val := by show (8 * i.val + 0) % 8 = 0; omega
    refine (congrFun (accAt_first V c ⟨8 * i.val + 0, hn⟩ hk0) (ix2 p q)).trans ?_
    refine (Pay.pay0_step (iblk V c 1 ⟨8 * i.val + 0, hn⟩) (iblk V c 2 ⟨8 * i.val + 0, hn⟩) (iblk V c 0 ⟨8 * i.val + 0, hn⟩) _ p q).trans ?_
    rw [run_zero]
    exact congrArg₂ (· + ·) (Pay.pay0_zero p q) (step_term (V c main_arg1) (V c main_arg0) (V c main_arg2)
        (iblk V c 0 ⟨8 * i.val + 0, hn⟩) (iblk V c 1 ⟨8 * i.val + 0, hn⟩) (iblk V c 2 ⟨8 * i.val + 0, hn⟩) i ⟨0, hk⟩ p q
        (fun j => read0 V c ⟨8 * i.val + 0, hn⟩ i ⟨0, hk⟩ hi hk0 p j) (fun j f => read1 V c ⟨8 * i.val + 0, hn⟩ ⟨0, hk⟩ hk0 j f)
        (fun f => read2 V c ⟨8 * i.val + 0, hn⟩ f q))
  | k + 1, hk, hn => by
    have hi : (8 * i.val + (k + 1)) / 8 = i.val := by omega
    have hk1 : (8 * i.val + (k + 1)) % 8 = (⟨k + 1, hk⟩ : Fin 8).val := by show (8 * i.val + (k + 1)) % 8 = k + 1; omega
    have h0 : ¬(8 * i.val + (k + 1)) % 8 = 0 := by omega
    have hn' : 8 * i.val + k < cfg0.N := Nat.lt_of_succ_lt hn
    refine (congrFun (accAt_next V c ⟨8 * i.val + (k + 1), hn⟩ h0) (ix2 p q)).trans ?_
    refine (Pay.pay0_step (iblk V c 1 ⟨8 * i.val + (k + 1), hn⟩) (iblk V c 2 ⟨8 * i.val + (k + 1), hn⟩) (iblk V c 0 ⟨8 * i.val + (k + 1), hn⟩) _ p q).trans ?_
    rw [run_succ]
    exact congrArg₂ (· + ·)
      ((congrFun (accAt_congr V c (show 8 * i.val + (k + 1) - 1 = 8 * i.val + k by omega) _ hn') (ix2 p q)).trans
        (accAt_run c i p q k (Nat.lt_of_succ_lt hk) hn'))
      (step_term (V c main_arg1) (V c main_arg0) (V c main_arg2)
        (iblk V c 0 ⟨8 * i.val + (k + 1), hn⟩) (iblk V c 1 ⟨8 * i.val + (k + 1), hn⟩) (iblk V c 2 ⟨8 * i.val + (k + 1), hn⟩) i ⟨k + 1, hk⟩ p q
        (fun j => read0 V c ⟨8 * i.val + (k + 1), hn⟩ i ⟨k + 1, hk⟩ hi hk1 p j) (fun j f => read1 V c ⟨8 * i.val + (k + 1), hn⟩ ⟨k + 1, hk⟩ hk1 j f)
        (fun f => read2 V c ⟨8 * i.val + (k + 1), hn⟩ f q))

/-! ## What a row block's last step writes back, and the array at the end -/

/-- The block written back at the last step of row block t / 8 is that row block of the hidden layer. -/
theorem flushed_eq (c : Dev nD) (t : Fin cfg0.N) (hf : (cfg0.win 3).flush t = true) :
    (dat (F := Ideal) V c).flushed 3 t
      = ((cfg0.win 3).blk t).view.read (Elt Ideal) (Cert.Spec.hid (V c main_arg1) (V c main_arg0) (V c main_arg2)) := by
  have h7 : t.val % 8 = 7 := (flush0_3 t).mp hf
  have hN : t.val < 64 := lt_of_lt_of_eq t.isLt N_0
  show (cfg0.win 3).cut (grid0.coords t) ((dat V c).after 3 t) = _
  rw [after3]
  funext y
  obtain ⟨p, q, rfl⟩ : ∃ (p : Fin 1024) (q : Fin 256), y = ix2 p q := ⟨y 0, y 1, eq_ix2 (n0 := 1024) (n1 := 256) y⟩
  have hidx : ((cfg0.win 3).blk t).view.emb (ix2 p q) = ix2 (pos ⟨t.val / 8, by omega⟩ p) q := by
    obtain ⟨-, -, -, -, -, -, e6, e7⟩ := idx_facts t
    funext a; apply Fin.ext
    match a with
    | ⟨0, _⟩ => show win0_3.index t (0 : Fin 2) * 1024 + 1 * p.val = 1024 * (t.val / 8) + p.val; rw [e6]; omega
    | ⟨1, _⟩ => show win0_3.index t (1 : Fin 2) * 256 + 1 * q.val = q.val; rw [e7]; omega
  show k0_pay3 (accAt V c t.val t.isLt) (ix2 p q)
    = Cert.Spec.hid (V c main_arg1) (V c main_arg0) (V c main_arg2) (((cfg0.win 3).blk t).view.emb (ix2 p q))
  rw [hidx]
  refine (Pay.pay0_relu _ p q).trans ?_
  show max (accAt V c t.val t.isLt (ix2 p q)) 0
    = Cert.Spec.hidAt (V c main_arg1) (V c main_arg0) (V c main_arg2) (pos ⟨t.val / 8, by omega⟩ p) q
  rw [hidAt_eq_run _ _ _ _ _ (by norm_num : 7 < 8)]
  refine congrArg (max · 0) ?_
  have hn : 8 * (t.val / 8) + 7 < cfg0.N := lt_of_lt_of_eq (b := 64) (by omega) N_0.symm
  exact (congrFun (accAt_congr V c (show t.val = 8 * (t.val / 8) + 7 by omega) t.isLt hn) (ix2 p q)).trans
    (accAt_run V c ⟨t.val / 8, by omega⟩ p q 7 (by norm_num) hn)

/-- An index of the output array is in point t's block iff each coordinate is in the block's range on its axis. -/
theorem mem_blk3 (t : Fin cfg0.N) (i : S8192x256.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v0).slice (win0_3.rect t)).set ↔ _
  rw [View.set_slice_whole, Rect.mem_set_unit]
  exact Iff.rfl

/-- Row r of the output lies in the block written back at the last step of row block r / 1024. -/
theorem cover3 (i : S8192x256.Idx) :
    ∃ t : Fin cfg0.N, (cfg0.win 3).flush t = true ∧ i ∈ ((cfg0.win 3).blk t).view.set := by
  have h0 : (i 0).val < 8192 := (i 0).isLt
  have h1 : (i 1).val < 256 := (i 1).isLt
  have hn : 8 * ((i 0).val / 1024) + 7 < cfg0.N := lt_of_lt_of_eq (b := 64) (by omega) N_0.symm
  refine ⟨⟨8 * ((i 0).val / 1024) + 7, hn⟩, (flush0_3 _).mpr (by show (8 * ((i 0).val / 1024) + 7) % 8 = 7; omega), ?_⟩
  rw [mem_blk3]
  obtain ⟨-, -, -, -, -, -, e6, e7⟩ := idx_facts ⟨8 * ((i 0).val / 1024) + 7, hn⟩
  intro a
  match a with
  | ⟨0, _⟩ =>
    show win0_3.index ⟨8 * ((i 0).val / 1024) + 7, hn⟩ (0 : Fin 2) * 1024 ≤ (i 0).val
      ∧ (i 0).val < win0_3.index ⟨8 * ((i 0).val / 1024) + 7, hn⟩ (0 : Fin 2) * 1024 + 1024
    rw [e6]
    show (8 * ((i 0).val / 1024) + 7) / 8 * 1024 ≤ (i 0).val ∧ (i 0).val < (8 * ((i 0).val / 1024) + 7) / 8 * 1024 + 1024
    omega
  | ⟨1, _⟩ =>
    show win0_3.index ⟨8 * ((i 0).val / 1024) + 7, hn⟩ (1 : Fin 2) * 256 ≤ (i 1).val
      ∧ (i 1).val < win0_3.index ⟨8 * ((i 0).val / 1024) + 7, hn⟩ (1 : Fin 2) * 256 + 256
    rw [e7]
    omega

/-- THE OUTPUT ARRAY after the call: the hidden layer H = relu (A · (X · W₁)) of the arrays as the call found them. -/
theorem arr_out (c : Dev nD) :
    ((dat (F := Ideal) V c).arrAt 3 cfg0.N : S8192x256.Idx → EReal)
      = Cert.Spec.hid (V c main_arg1) (V c main_arg0) (V c main_arg2) :=
  (dat V c).arrAt_eq_of_cover 3 (Cert.Spec.hid (V c main_arg1) (V c main_arg0) (V c main_arg2))
    (fun t hf => flushed_eq V c t hf) (cover3)

end Cert.KernelIdeal.R0

end
-- ==== Proof.KI.Val1Blocks.lean ====
/-
  The second call's windows read by coordinates, on the extended reals.

  Grid point t = 8 i + k is step k of row block i. There the adjacency window holds rows 1024 i … and columns
  1024 k … of the adjacency matrix, the hidden-layer window rows 1024 k … of the hidden layer, the weight window the whole
  side-by-side weight matrix, and the noise window and the output window rows 1024 i … of their arrays. The output is
  written back at the last step of each row block, and those eight blocks cover its array.
-/
import proofs.«119699_j17463337026205_1_alg».proof.Proof.KI.Reg1
import proofs.«119699_j17463337026205_1_alg».proof.Proof.BlockLaw
import Idealize.ShloMosaic.Lib.Pipeline.Value
import Idealize.ShloMosaic.Lib.ValueIdx

set_option maxRecDepth 16384

noncomputable section

namespace Cert.KernelIdeal.R1

open Cert.KernelIdeal Cert.KernelIdeal.Gen
open Idealize.ShloMosaic Idealize.ShloMosaic.TcCoe Idealize.ShloMosaic.ValueIdx Idealize.SL.Sem
open Idealize.ShloMosaic.Pipeline (Dat)
open Cert.BlockLaw

variable (V : (c : Dev nD) → (b : Ref sig .tc) → Buf (Elt Ideal) ((c : Thread nD τ).loc b))

/-! ## The index maps over the grid -/

/-- At point t the adjacency window is at block (t / 8, t % 8), the hidden-layer window at row block t % 8, the weight
    window at its one block, the noise and output windows at row block t / 8. -/
theorem idx_facts : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0
    ∧ win1_4.index t (0 : Fin 2) = t.val / 8 ∧ win1_4.index t (1 : Fin 2) = 0 :=
  (by decide +kernel : ∀ t : Fin grid1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0
    ∧ win1_4.index t (0 : Fin 2) = t.val / 8 ∧ win1_4.index t (1 : Fin 2) = 0)

/-! ## The blocks by coordinates -/

/-- Entry (p, j') of the adjacency block at step k of row block i is entry (1024 i + p, 1024 k + j') of the matrix. -/
theorem blkA (c : Dev nD) (t : Fin cfg1.N) (i k : Fin 8) (ht : t.val = 8 * i.val + k.val) (p j' : Fin 1024) :
    iblk V c 0 t (ix2 p j') = (V c main_arg1 : S8192x8192.Idx → EReal) (ix2 (pos i p) (pos k j')) := by
  obtain ⟨e0, e1, -⟩ := idx_facts t
  have hk := k.isLt
  show V c main_arg1 (((cfg1.win 0).blk t).view.emb (ix2 p j')) = _
  refine congrArg (V c main_arg1) ?_
  funext a; apply Fin.ext
  match a with
  | ⟨0, _⟩ => show win1_0.index t (0 : Fin 2) * 1024 + 1 * p.val = 1024 * i.val + p.val; omega
  | ⟨1, _⟩ => show win1_0.index t (1 : Fin 2) * 1024 + 1 * j'.val = 1024 * k.val + j'.val; omega

/-- Entry (j', e) of the hidden-layer block at step k is entry (1024 k + j', e) of the hidden layer. -/
theorem blkH (c : Dev nD) (t : Fin cfg1.N) (i k : Fin 8) (ht : t.val = 8 * i.val + k.val) (j' : Fin 1024) (e : Fin 256) :
    iblk V c 1 t (ix2 j' e) = (V c main_v0 : S8192x256.Idx → EReal) (ix2 (pos k j') e) := by
  obtain ⟨-, -, e2, e3, -⟩ := idx_facts t
  have hk := k.isLt
  show V c main_v0 (((cfg1.win 1).blk t).view.emb (ix2 j' e)) = _
  refine congrArg (V c main_v0) ?_
  funext a; apply Fin.ext
  match a with
  | ⟨0, _⟩ => show win1_1.index t (0 : Fin 2) * 1024 + 1 * j'.val = 1024 * k.val + j'.val; omega
  | ⟨1, _⟩ => show win1_1.index t (1 : Fin 2) * 256 + 1 * e.val = e.val; omega

/-- The weight block is the whole side-by-side weight matrix at every point. -/
theorem blkW (c : Dev nD) (t : Fin cfg1.N) (e q : Fin 256) :
    iblk V c 2 t (ix2 e q) = (V c main_v1 : S256x256.Idx → EReal) (ix2 e q) := by
  obtain ⟨-, -, -, -, e4, e5, -⟩ := idx_facts t
  show V c main_v1 (((cfg1.win 2).blk t).view.emb (ix2 e q)) = _
  refine congrArg (V c main_v1) ?_
  funext a; apply Fin.ext
  match a with
  | ⟨0, _⟩ => show win1_2.index t (0 : Fin 2) * 256 + 1 * e.val = e.val; omega
  | ⟨1, _⟩ => show win1_2.index t (1 : Fin 2) * 256 + 1 * q.val = q.val; omega

/-- Entry (p, d) of the noise block of row block i is entry (1024 i + p, d) of the noise. -/
theorem blkE (c : Dev nD) (t : Fin cfg1.N) (i k : Fin 8) (ht : t.val = 8 * i.val + k.val) (p : Fin 1024) (d : Fin 128) :
    iblk V c 3 t (ix2 p d) = (V c main_arg5 : S8192x128.Idx → EReal) (ix2 (pos i p) d) := by
  obtain ⟨-, -, -, -, -, -, e6, e7, -⟩ := idx_facts t
  have hk := k.isLt
  show V c main_arg5 (((cfg1.win 3).blk t).view.emb (ix2 p d)) = _
  refine congrArg (V c main_arg5) ?_
  funext a; apply Fin.ext
  match a with
  | ⟨0, _⟩ => show win1_3.index t (0 : Fin 2) * 1024 + 1 * p.val = 1024 * i.val + p.val; omega
  | ⟨1, _⟩ => show win1_3.index t (1 : Fin 2) * 128 + 1 * d.val = d.val; omega

/-- Entry (p, d) of the output block of row block i sits at (1024 i + p, d) of the output array. -/
theorem emb4 (t : Fin cfg1.N) (i k : Fin 8) (ht : t.val = 8 * i.val + k.val) (p : Fin 1024) (d : Fin 128) :
    ((cfg1.win 4).blk t).view.emb (ix2 p d) = (ix2 (pos i p) d : S8192x128.Idx) := by
  obtain ⟨-, -, -, -, -, -, -, -, e8, e9⟩ := idx_facts t
  have hk := k.isLt
  funext a; apply Fin.ext
  match a with
  | ⟨0, _⟩ => show win1_4.index t (0 : Fin 2) * 1024 + 1 * p.val = 1024 * i.val + p.val; omega
  | ⟨1, _⟩ => show win1_4.index t (1 : Fin 2) * 128 + 1 * d.val = d.val; omega

/-! ## The output's blocks cover its array -/

/-- An index of the output array is in point t's block iff each coordinate is in the block's range on its axis. -/
theorem mem_blk4 (t : Fin cfg1.N) (j : S8192x128.Idx) :
    j ∈ ((cfg1.win 4).blk t).view.set ↔ ∀ a : Fin 2, win1_4.index t a * S1024x128.size a ≤ (j a).val ∧ (j a).val < win1_4.index t a * S1024x128.size a + S1024x128.size a := by
  show j ∈ ((View.whole main_v2).slice (win1_4.rect t)).set ↔ _
  rw [View.set_slice_whole, Rect.mem_set_unit]
  exact Iff.rfl

/-- Row r of the output lies in the block written back at the last step of row block r / 1024. -/
theorem cover4 (j : S8192x128.Idx) :
    ∃ t : Fin cfg1.N, (cfg1.win 4).flush t = true ∧ j ∈ ((cfg1.win 4).blk t).view.set := by
  have hj0 : (j 0).val < 8192 := (j 0).isLt
  have hj1 : (j 1).val < 128 := (j 1).isLt
  have hN : cfg1.N = 64 := N_1
  have hlt : 8 * ((j 0).val / 1024) + 7 < cfg1.N := by omega
  obtain ⟨-, -, -, -, -, -, -, -, e8, e9⟩ := idx_facts ⟨8 * ((j 0).val / 1024) + 7, hlt⟩
  have e8' : win1_4.index ⟨8 * ((j 0).val / 1024) + 7, hlt⟩ (0 : Fin 2) = (8 * ((j 0).val / 1024) + 7) / 8 := e8
  refine ⟨⟨8 * ((j 0).val / 1024) + 7, hlt⟩, (flush1_4 _).mpr (by show (8 * ((j 0).val / 1024) + 7) % 8 = 7; omega), ?_⟩
  rw [mem_blk4]
  intro a
  match a with
  | ⟨0, _⟩ => show win1_4.index ⟨8 * ((j 0).val / 1024) + 7, hlt⟩ (0 : Fin 2) * 1024 ≤ (j 0).val ∧ (j 0).val < win1_4.index ⟨8 * ((j 0).val / 1024) + 7, hlt⟩ (0 : Fin 2) * 1024 + 1024; omega
  | ⟨1, _⟩ => show win1_4.index ⟨8 * ((j 0).val / 1024) + 7, hlt⟩ (1 : Fin 2) * 128 ≤ (j 1).val ∧ (j 1).val < win1_4.index ⟨8 * ((j 0).val / 1024) + 7, hlt⟩ (1 : Fin 2) * 128 + 128; omega

end Cert.KernelIdeal.R1

end
-- ==== Proof.KI.Val1.lean ====
/-
  The second call at the ideal instance: what its arrays hold when the call is left.

  The input windows' arrays are as the call found them. The output array is, entry by entry, the latent sample.
  At step k of row block i the accumulator's entry (p, q) is the running total, over the steps 0 … k, of the blocks
  of the terms A (1024 i + p, j) · (H · Wcat) (j, q), j running over the nodes: by induction on k, one accumulation
  step adding one block of 1024 nodes. Column q < 128 of the side-by-side weight matrix is column q of the mean
  weights and column 128 + d is column d of the deviation weights, so after the last step columns d and 128 + d of the
  accumulator are the two graph convolutions' entries (1024 i + p, d), and the stored block is the latent sample's.
  The eight blocks written back, one per row block, cover the output array.
-/
import proofs.«119699_j17463337026205_1_alg».proof.Proof.KI.Reg1
import proofs.«119699_j17463337026205_1_alg».proof.Proof.KI.Val1Blocks
import proofs.«119699_j17463337026205_1_alg».proof.Proof.KI.PayAt
import proofs.«119699_j17463337026205_1_alg».proof.Proof.BlockSpec
import Idealize.ShloMosaic.Lib.Pipeline.Value
import Idealize.ShloMosaic.PureOps.Ideal.Laws

set_option maxRecDepth 16384

noncomputable section

open scoped BigOperators

namespace Cert.KernelIdeal.R1

open Cert.KernelIdeal Cert.KernelIdeal.Gen
open Idealize.ShloMosaic Idealize.ShloMosaic.TcCoe Idealize.ShloMosaic.ValueIdx Idealize.SL.Sem
open Idealize.ShloMosaic.Pipeline (Dat)
open Cert.BlockLaw Cert.BlockSpec

variable (V : (c : Dev nD) → (b : Ref sig .tc) → Buf (Elt Ideal) ((c : Thread nD τ).loc b))

/-! ## The input windows' arrays -/

/-- An input window's array is never written: it ends as the call found it. -/
theorem arr_in (c : Dev nD) (w : Fin cfg1.W) (hw : w ≠ 4) :
    (dat (F := Ideal) V c).arrAt w cfg1.N = V c (Pipeline.arrRef spec1 w) := by
  match w, hw with
  | ⟨0, _⟩, _ => exact ((dat V c).arrAt_in 0 rfl _).trans (A_eq V c 0)
  | ⟨1, _⟩, _ => exact ((dat V c).arrAt_in 1 rfl _).trans (A_eq V c 1)
  | ⟨2, _⟩, _ => exact ((dat V c).arrAt_in 2 rfl _).trans (A_eq V c 2)
  | ⟨3, _⟩, _ => exact ((dat V c).arrAt_in 3 rfl _).trans (A_eq V c 3)
  | ⟨4, _⟩, h => exact absurd rfl h

/-! ## The accumulator, entry by entry -/

/-- The terms of entry (r, q) of A · (H · Wcat), one for each node j: A (r, j) times entry (j, q) of H · Wcat, for the
    side-by-side weight matrix Wcat of 256 columns. -/
def catTerm (adj : Cert.Spec.SNN.Idx → EReal) (h : Cert.Spec.SNH.Idx → EReal) (wc : S256x256.Idx → EReal) (r : Fin 8192) (q : Fin 256) :
    Fin 8192 → EReal :=
  fun j => adj (ix2 r j) * ∑ e : Fin 256, h (ix2 j e) * wc (ix2 e q)

/-- In the left half of the side-by-side matrix the terms are those of the convolution with the mean weights, -/
theorem catTerm_left (adj : Cert.Spec.SNN.Idx → EReal) (h : Cert.Spec.SNH.Idx → EReal) (wc : S256x256.Idx → EReal)
    (wm ws : Cert.Spec.SHL.Idx → EReal)
    (hcat : wc = concatenate S256x256 1 [⟨S256x128, wm⟩, ⟨S256x128, ws⟩] concatenates_S256x128_S256x128_S256x256_d1)
    (r : Fin 8192) (d : Fin 128) (hd : d.val < 256) :
    catTerm adj h wc r ⟨d.val, hd⟩ = convTerm adj h wm r d := by
  subst hcat
  funext j
  unfold catTerm convTerm Cert.Spec.hw
  refine congrArg (adj (ix2 r j) * ·) (Finset.sum_congr rfl fun e _ => congrArg (h (ix2 j e) * ·) ?_)
  exact Cert.KernelIdeal.Pay.wcat_left wm ws e d

/-- and in the right half those of the convolution with the deviation weights. -/
theorem catTerm_right (adj : Cert.Spec.SNN.Idx → EReal) (h : Cert.Spec.SNH.Idx → EReal) (wc : S256x256.Idx → EReal)
    (wm ws : Cert.Spec.SHL.Idx → EReal)
    (hcat : wc = concatenate S256x256 1 [⟨S256x128, wm⟩, ⟨S256x128, ws⟩] concatenates_S256x128_S256x128_S256x256_d1)
    (r : Fin 8192) (d : Fin 128) (hd : 128 + d.val < 256) :
    catTerm adj h wc r ⟨128 + d.val, hd⟩ = convTerm adj h ws r d := by
  subst hcat
  funext j
  unfold catTerm convTerm Cert.Spec.hw
  refine congrArg (adj (ix2 r j) * ·) (Finset.sum_congr rfl fun e _ => congrArg (h (ix2 j e) * ·) ?_)
  exact Cert.KernelIdeal.Pay.wcat_right wm ws e d

/-- One block of the terms, from three blocks that are the adjacency matrix's, the hidden layer's and the weight
    matrix's at step k of row block i. -/
theorem block_term (adj : Cert.Spec.SNN.Idx → EReal) (h : Cert.Spec.SNH.Idx → EReal) (wc : S256x256.Idx → EReal)
    (x0 : Vec Ideal S1024x1024 .f32) (x1 : Vec Ideal S1024x256 .f32) (x2 : Vec Ideal S256x256 .f32) (i k : Fin 8)
    (hA : ∀ (p j' : Fin 1024), x0 (ix2 p j') = adj (ix2 (pos i p) (pos k j')))
    (hH : ∀ (j' : Fin 1024) (e : Fin 256), x1 (ix2 j' e) = h (ix2 (pos k j') e))
    (hW : ∀ (e q : Fin 256), x2 (ix2 e q) = wc (ix2 e q)) (p : Fin 1024) (q : Fin 256) :
    (∑ j' : Fin 1024, x0 (ix2 p j') * ∑ e : Fin 256, x1 (ix2 j' e) * x2 (ix2 e q))
      = blk (catTerm adj h wc (pos i p) q) k := by
  unfold blk catTerm
  refine Finset.sum_congr rfl fun j' _ => ?_
  rw [hA p j']
  refine congrArg (adj (ix2 (pos i p) (pos k j')) * ·) ?_
  refine Finset.sum_congr rfl fun e _ => ?_
  rw [hH j' e, hW e q]

/-- THE ACCUMULATION, READ. After step k of row block i the accumulator's entry (p, q) is the running total of the
    blocks 0 … k of the terms of entry (1024 i + p, q) of A · (H · Wcat). -/
theorem accAt_run (c : Dev nD) (i : Fin 8) (p : Fin 1024) (q : Fin 256) :
    ∀ (k : ℕ) (hk : k < 8) (t : Fin cfg1.N), t.val = 8 * i.val + k →
      accAt V c t.val t.isLt (ix2 p q) = run (catTerm (V c main_arg1) (V c main_v0) (V c main_v1) (pos i p) q) k hk := by
  intro k
  induction k with
  | zero =>
    intro hk t ht
    have h0 : t.val % 8 = 0 := by omega
    rw [accAt_first V c t h0, run_zero]
    refine (Cert.KernelIdeal.Pay.pay1_step (iblk V c 1 t) (iblk V c 2 t) (iblk V c 0 t) (k1_pay1 (F := Ideal)) p q).trans ?_
    refine congrArg₂ (fun (a b : EReal) => a + b) (Cert.KernelIdeal.Pay.pay1_zero p q) ?_
    exact block_term (V c main_arg1) (V c main_v0) (V c main_v1) (iblk V c 0 t) (iblk V c 1 t) (iblk V c 2 t) i ⟨0, hk⟩
      (blkA V c t i ⟨0, hk⟩ ht) (blkH V c t i ⟨0, hk⟩ ht) (blkW V c t) p q
  | succ k ih =>
    intro hk t ht
    have h0 : ¬t.val % 8 = 0 := by omega
    rw [accAt_next V c t h0, run_succ]
    refine (Cert.KernelIdeal.Pay.pay1_step (iblk V c 1 t) (iblk V c 2 t) (iblk V c 0 t) _ p q).trans ?_
    refine congrArg₂ (fun (a b : EReal) => a + b) ?_
      (block_term (V c main_arg1) (V c main_v0) (V c main_v1) (iblk V c 0 t) (iblk V c 1 t) (iblk V c 2 t) i ⟨k + 1, hk⟩
        (blkA V c t i ⟨k + 1, hk⟩ ht) (blkH V c t i ⟨k + 1, hk⟩ ht) (blkW V c t) p q)
    exact ih (Nat.lt_of_succ_lt hk) ⟨t.val - 1, Nat.lt_of_le_of_lt (Nat.sub_le _ _) t.isLt⟩ (by show t.val - 1 = 8 * i.val + k; omega)

/-! ## The output array -/

/-- An entry of the latent sample at an index written by coordinates. -/
theorem lat_ix2 (adj : Cert.Spec.SNN.Idx → EReal) (h : Cert.Spec.SNH.Idx → EReal) (wm ws : Cert.Spec.SHL.Idx → EReal)
    (eps : Cert.Spec.SNL.Idx → EReal) (r : Fin 8192) (d : Fin 128) :
    Cert.Spec.lat adj h wm ws eps (ix2 r d)
      = Cert.Spec.conv adj h wm r d + eps (ix2 r d) * Ideal.exp (Cert.Spec.conv adj h ws r d) := rfl

/-- What a point that writes the output back writes: its block of the latent sample of the arrays as the call finds
    them. Entry (p, d) of the stored block is column d of the accumulator after the last step plus the noise times the
    exponential of its column 128 + d, and those columns are the two graph convolutions at (1024 i + p, d). -/
theorem flushed_eq (c : Dev nD) (wm ws : Cert.Spec.SHL.Idx → EReal)
    (hcat : (V c main_v1 : S256x256.Idx → EReal) = concatenate S256x256 1 [⟨S256x128, wm⟩, ⟨S256x128, ws⟩] concatenates_S256x128_S256x128_S256x256_d1)
    (t : Fin cfg1.N) (hf : (cfg1.win 4).flush t = true) :
    (dat (F := Ideal) V c).flushed 4 t
      = ((cfg1.win 4).blk t).view.read (Elt Ideal) (Cert.Spec.lat (V c main_arg1) (V c main_v0) wm ws (V c main_arg5)) := by
  have h7 : t.val % 8 = 7 := (flush1_4 t).mp hf
  have hN : t.val < 64 := lt_of_lt_of_eq t.isLt (show cfg1.N = 64 from N_1)
  have hi : t.val / 8 < 8 := by omega
  have ht : t.val = 8 * (⟨t.val / 8, hi⟩ : Fin 8).val + (7 : Fin 8).val := by
    show t.val = 8 * (t.val / 8) + 7; omega
  show (cfg1.win 4).cut (grid1.coords t) ((dat V c).after 4 t) = _
  rw [after_4]
  funext j
  obtain ⟨p, d, rfl⟩ : ∃ (p : Fin 1024) (d : Fin 128), j = ix2 p d := ⟨j 0, j 1, eq_ix2 j⟩
  show k1_pay3 (accAt V c t.val t.isLt) (iblk V c 3 t) (ix2 p d)
    = Cert.Spec.lat (V c main_arg1) (V c main_v0) wm ws (V c main_arg5) (((cfg1.win 4).blk t).view.emb (ix2 p d))
  rw [emb4 t ⟨t.val / 8, hi⟩ 7 ht p d]
  refine (Cert.KernelIdeal.Pay.pay1_out (accAt V c t.val t.isLt) (iblk V c 3 t) p d).trans ?_
  refine Eq.trans ?_ (lat_ix2 (V c main_arg1) (V c main_v0) wm ws (V c main_arg5) (pos ⟨t.val / 8, hi⟩ p) d).symm
  refine congrArg₂ (fun (a b : EReal) => a + b) ?_ (congrArg₂ (fun (a b : EReal) => a * b) (blkE V c t ⟨t.val / 8, hi⟩ 7 ht p d) (congrArg Ideal.exp ?_))
  · rw [accAt_run V c ⟨t.val / 8, hi⟩ p _ 7 (by norm_num) t ht, conv_eq_run _ _ _ _ _ (by norm_num)]
    exact congrArg (fun f => run f 7 (by norm_num)) (catTerm_left _ _ _ wm ws hcat _ d _)
  · rw [accAt_run V c ⟨t.val / 8, hi⟩ p _ 7 (by norm_num) t ht, conv_eq_run _ _ _ _ _ (by norm_num)]
    exact congrArg (fun f => run f 7 (by norm_num)) (catTerm_right _ _ _ wm ws hcat _ d _)

/-- The output array when the call is left: the latent sample of the arrays as the call found them, the side-by-side
    weight matrix being the mean weights beside the deviation weights. -/
theorem arr_out (c : Dev nD) (wm ws : Cert.Spec.SHL.Idx → EReal)
    (hcat : (V c main_v1 : S256x256.Idx → EReal) = concatenate S256x256 1 [⟨S256x128, wm⟩, ⟨S256x128, ws⟩] concatenates_S256x128_S256x128_S256x256_d1) :
    ((dat (F := Ideal) V c).arrAt 4 cfg1.N : S8192x128.Idx → EReal)
      = Cert.Spec.lat (V c main_arg1) (V c main_v0) wm ws (V c main_arg5) :=
  (dat V c).arrAt_eq_of_cover 4 (Cert.Spec.lat (V c main_arg1) (V c main_v0) wm ws (V c main_arg5))
    (fun t hf => flushed_eq V c wm ws hcat t hf) cover4

end Cert.KernelIdeal.R1

end
-- ==== Proof.KI.Val2.lean ====
/-
  Region 2 (the decoder call), read over the extended reals: what its arrays hold when the region is left.

  The two input windows' arrays — the latent array z, twice — are as the region found them. The output array is,
  entry by entry, the reconstruction: entry (r, s) is the logistic of the inner product of rows r and s of z. Grid
  point t = 8 i + j writes the block (i, j): its entry (p, q) is computed from row p of z's row block i and row q of
  z's row block j, which are rows 1024 i + p and 1024 j + q of z, and the 64 blocks cover the array.
-/
import proofs.«119699_j17463337026205_1_alg».proof.Proof.KI.Reg2
import proofs.«119699_j17463337026205_1_alg».proof.Proof.Spec
import proofs.«119699_j17463337026205_1_alg».proof.Proof.KI.PayAt
import Idealize.ShloMosaic.Lib.Pipeline.Value
import Idealize.ShloMosaic.PureOps.Ideal.Laws

set_option maxRecDepth 16384

noncomputable section

open scoped BigOperators

namespace Cert.KernelIdeal.R2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The input windows' arrays -/

/-- An input window's array is never written: it ends as the region found it. -/
theorem arr_in (c : Dev nD) (w : Fin cfg2.W) (hw : w ≠ 2) :
    (dat (F := Ideal) V c).arrAt w cfg2.N = V c (Pipeline.arrRef spec2 w) := by
  match w, hw with
  | ⟨0, _⟩, _ => exact ((dat V c).arrAt_in 0 rfl _).trans (A_eq V c 0)
  | ⟨1, _⟩, _ => exact ((dat V c).arrAt_in 1 rfl _).trans (A_eq V c 1)
  | ⟨2, _⟩, h => exact absurd rfl h

/-! ## The output array -/

theorem hz : (![0, 0] : Fin 2 → Nat) = fun _ => 0 := funext fun a => by fin_cases a <;> rfl

/-- The index maps over the grid: window 0 is at row block i, window 1 at row block j, window 2 at block (i, j),
    and both of the output's block indices are below 8. -/
theorem idx_facts : ∀ t : Fin cfg2.N,
    win2_0.index t (0 : Fin 2) = win2_2.index t (0 : Fin 2) ∧ win2_0.index t (1 : Fin 2) = 0
    ∧ win2_1.index t (0 : Fin 2) = win2_2.index t (1 : Fin 2) ∧ win2_1.index t (1 : Fin 2) = 0
    ∧ win2_2.index t (0 : Fin 2) ≤ 7 ∧ win2_2.index t (1 : Fin 2) ≤ 7 :=
  (by decide +kernel : ∀ t : Fin grid2.N,
    win2_0.index t (0 : Fin 2) = win2_2.index t (0 : Fin 2) ∧ win2_0.index t (1 : Fin 2) = 0
    ∧ win2_1.index t (0 : Fin 2) = win2_2.index t (1 : Fin 2) ∧ win2_1.index t (1 : Fin 2) = 0
    ∧ win2_2.index t (0 : Fin 2) ≤ 7 ∧ win2_2.index t (1 : Fin 2) ≤ 7)

/-- Every block (i, j) of the output is some point's. -/
theorem idx_onto : ∀ (q0 q1 : Fin 8), ∃ t : Fin cfg2.N, win2_2.index t = ![q0.val, q1.val] :=
  (by decide +kernel : ∀ (q0 q1 : Fin 8), ∃ t : Fin grid2.N, win2_2.index t = ![q0.val, q1.val])

/-- What point `t` writes back is block `t` of the reconstruction of the latent array as the region finds it: entry
    (p, q) of the block is the logistic of the inner product of row p of the first input block and row q of the
    second, and those are the rows of z the block's entry names. -/
theorem flushed_eq (c : Dev nD) (t : Fin cfg2.N) :
    (dat (F := Ideal) V c).flushed 2 t = ((cfg2.win 2).blk t).view.read (Elt Ideal) (Cert.Spec.recon (V c main_v2)) := by
  show (cfg2.win 2).cut (grid2.coords t) ((dat V c).after 2 t) = _
  rw [after2]
  unfold out2
  rw [View.canon_unit_zero hz]
  simp only [View.ld_unit_zero (S := S1024x128) hz]
  obtain ⟨e0, e1, e2, e3, e4, e5⟩ := idx_facts t
  funext j
  obtain ⟨p, q, rfl⟩ : ∃ (p q : Fin 1024), j = ix2 p q := ⟨j 0, j 1, eq_ix2 j⟩
  show k2_pay1 (iblk V c 0 t) (iblk V c 1 t) (ix2 p q) = Cert.Spec.recon (V c main_v2) (((cfg2.win 2).blk t).view.emb (ix2 p q))
  rw [Cert.KernelIdeal.Pay.pay2_out]
  unfold Cert.Spec.recon Cert.Spec.recAt
  refine congrArg Ideal.logistic (Finset.sum_congr rfl fun d _ => ?_)
  have h0 : ((cfg2.win 0).blk t).view.emb (ix2 p d) = ix2 ((((cfg2.win 2).blk t).view.emb (ix2 p q)) 0) d := by
    funext a; apply Fin.ext
    match a with
    | ⟨0, _⟩ => show win2_0.index t (0 : Fin 2) * 1024 + 1 * p.val = win2_2.index t (0 : Fin 2) * 1024 + 1 * p.val; omega
    | ⟨1, _⟩ => show win2_0.index t (1 : Fin 2) * 128 + 1 * d.val = d.val; omega
  have h1 : ((cfg2.win 1).blk t).view.emb (ix2 q d) = ix2 ((((cfg2.win 2).blk t).view.emb (ix2 p q)) 1) d := by
    funext a; apply Fin.ext
    match a with
    | ⟨0, _⟩ => show win2_1.index t (0 : Fin 2) * 1024 + 1 * q.val = win2_2.index t (1 : Fin 2) * 1024 + 1 * q.val; omega
    | ⟨1, _⟩ => show win2_1.index t (1 : Fin 2) * 128 + 1 * d.val = d.val; omega
  refine congrArg₂ (· * ·) ?_ ?_
  · exact congrArg (V c main_v2) h0
  · exact congrArg (V c main_v2) h1

/-- An index of the output array is in point `t`'s block iff each coordinate is in the block's range on its axis. -/
theorem mem_blk (t : Fin cfg2.N) (i : S8192x8192.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v3).slice (win2_2.rect t)).set ↔ _
  rw [View.set_slice_whole, Rect.mem_set_unit]
  exact Iff.rfl

/-- The 64 blocks cover the output array: entry (r, s) is in the block (r / 1024, s / 1024). -/
theorem cover (i : S8192x8192.Idx) :
    ∃ t : Fin cfg2.N, (cfg2.win 2).flush t = true ∧ i ∈ ((cfg2.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win2_2.index t (0 : Fin 2) = (i 0).val / 1024 := congrFun ht 0
  have q1 : win2_2.index t (1 : Fin 2) = (i 1).val / 1024 := congrFun ht 1
  refine ⟨t, flush2_2 t, ?_⟩
  rw [mem_blk]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 1024 ≤ (i 1).val ∧ (i 1).val < win2_2.index t (1 : Fin 2) * 1024 + 1024; omega

/-- The output array when the region is left: the reconstruction of the latent array as the region found it. -/
theorem arr_out (c : Dev nD) :
    ((dat (F := Ideal) V c).arrAt 2 cfg2.N : S8192x8192.Idx → EReal) = Cert.Spec.recon (V c main_v2) :=
  (dat V c).arrAt_eq_of_cover 2 (Cert.Spec.recon (V c main_v2)) (fun t _ => flushed_eq V c t) cover

end Cert.KernelIdeal.R2

end
-- ==== Proof.KI.Value.lean ====
/-
  What the program's result array holds at the end, over the extended reals.

  The first region leaves the hidden layer H = relu (A · (X · W₁)) in its output array; the host operation writes the two
  weight matrices side by side; the second region, reading H and the joined weights, leaves the latent sample
  Z = A · (H · Wm) + E ⊙ exp (A · (H · Ws)); the third leaves logistic (Z · Zᵀ). Each region's output is a function of the
  contents it was entered from, and those are the launch contents except for what the regions before it wrote: so the result
  is the specification's whole computation of the six argument arrays.
-/
import proofs.«119699_j17463337026205_1_alg».proof.Proof.KI.Run
import proofs.«119699_j17463337026205_1_alg».proof.Proof.KI.Val0
import proofs.«119699_j17463337026205_1_alg».proof.Proof.KI.Val1
import proofs.«119699_j17463337026205_1_alg».proof.Proof.KI.Val2
import proofs.«119699_j17463337026205_1_alg».proof.Proof.Spec
import Idealize.ShloMosaic.Lib.StableHlo.Run

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.StableHlo

variable (m : (ℓ : Loc nD τ sig) → Buf (Elt Ideal) ℓ)

/-- After the first region its output array is the hidden layer of the launch contents. -/
theorem W1_hid (c : Dev nD) : (W1 m c (Proc.devRef .tc main_v0) : S8192x256.Idx → EReal)
    = Cert.Spec.hid (m ((c : Thread nD τ).loc main_arg1)) (m ((c : Thread nD τ).loc main_arg0)) (m ((c : Thread nD τ).loc main_arg2)) :=
  (W1_arr m c 3).trans (R0.arr_out (V0 m) c)

/-- The host operation writes only the joined weights. -/
theorem W2_of_ne (c : Dev nD) (b : Ref sig .tc) (hb : b ∉ hostOps1_W) : W2 m c (Proc.devRef .tc b) = W1 m c (Proc.devRef .tc b) :=
  StableHlo.after_of_writes_sub hostOps1 _ hostOps1_writes hb

/-- After the host operation the joined weights are the two weight matrices of the launch contents side by side. -/
theorem W2_cat (c : Dev nD) : (W2 m c (Proc.devRef .tc main_v1) : S256x256.Idx → EReal)
    = concatenate S256x256 1 [⟨S256x128, (m ((c : Thread nD τ).loc main_arg3))⟩, ⟨S256x128, (m ((c : Thread nD τ).loc main_arg4))⟩] concatenates_S256x128_S256x128_S256x256_d1 := by
  have e3 : W1 m c (Proc.devRef .tc main_arg3) = (m ((c : Thread nD τ).loc main_arg3)) := W1_of_ne m c main_arg3 (by decide)
  have e4 : W1 m c (Proc.devRef .tc main_arg4) = (m ((c : Thread nD τ).loc main_arg4)) := W1_of_ne m c main_arg4 (by decide)
  rw [← e3, ← e4]
  show StableHlo.after hostOps1 (W1 m c) (Proc.devRef .tc main_v1) = _
  after_results

/-- After the second region its output array is the latent sample of the launch contents. -/
theorem W3_lat (c : Dev nD) : (W3 m c (Proc.devRef .tc main_v2) : S8192x128.Idx → EReal)
    = Cert.Spec.lat (m ((c : Thread nD τ).loc main_arg1)) (Cert.Spec.hid (m ((c : Thread nD τ).loc main_arg1)) (m ((c : Thread nD τ).loc main_arg0)) (m ((c : Thread nD τ).loc main_arg2)))
        (m ((c : Thread nD τ).loc main_arg3)) (m ((c : Thread nD τ).loc main_arg4)) (m ((c : Thread nD τ).loc main_arg5)) := by
  have e1 : V2 m c main_arg1 = (m ((c : Thread nD τ).loc main_arg1)) := (W2_of_ne m c main_arg1 (by decide)).trans (W1_in m c 0 rfl)
  have e0 : (V2 m c main_v0 : S8192x256.Idx → EReal) = Cert.Spec.hid (m ((c : Thread nD τ).loc main_arg1)) (m ((c : Thread nD τ).loc main_arg0)) (m ((c : Thread nD τ).loc main_arg2)) :=
    (W2_of_ne m c main_v0 (by decide)).trans (W1_hid m c)
  have e5 : V2 m c main_arg5 = (m ((c : Thread nD τ).loc main_arg5)) := (W2_of_ne m c main_arg5 (by decide)).trans (W1_of_ne m c main_arg5 (by decide))
  refine (W3_arr m c 4).trans ((R1.arr_out (V2 m) c (m ((c : Thread nD τ).loc main_arg3)) (m ((c : Thread nD τ).loc main_arg4)) (W2_cat m c)).trans ?_)
  rw [e1, e0, e5]

/-- At the end the result array is the specification's computation of the six argument arrays as launched. -/
theorem W4_G (c : Dev nD) : (W4 m c (Proc.devRef .tc main_v3) : S8192x8192.Idx → EReal)
    = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W4_out m c).trans ((R2.arr_out (V3 m) c).trans (congrArg Cert.Spec.recon (W3_lat m c)))

end Cert.KernelIdeal.Run

end
-- ==== Proof.RefValue.lean ====
/-
  The reference program computes G.

  The reference's 22 operations, read one intermediate array at a time at an index written by coordinates:
  the product X · W₁, the hidden layer relu (A · (X · W₁)), the two products H · Wm and H · Ws, the two graph
  convolutions, the latent sample Z = A · (H · Wm) + E ⊙ exp (A · (H · Ws)), the Gram product Z · Zᵀ (the second factor
  is the transposed array, read back at the swapped index), and the last four operations 1 / (1 + exp (−t)), which are the
  logistic function as it is defined on the extended reals. Each contraction is the sum over its whole axis with the
  same bracketing as the specification's, so every step is an identification of indices.
-/
import proofs.«119699_j17463337026205_1_alg».proof.Proof.Gen.ReferenceIdeal.Read
import proofs.«119699_j17463337026205_1_alg».proof.Proof.Spec

set_option maxRecDepth 16384

noncomputable section

namespace Cert.ReferenceIdeal.RefValue

open Cert.ReferenceIdeal Cert.ReferenceIdeal.Read Idealize.ShloMosaic Idealize.ShloMosaic.ValueIdx
open scoped BigOperators

/-- The input arrays' types: features, adjacency, first-layer weights, a second-layer weight matrix, noise. -/
abbrev TX : Type := (⟨S8192x512, .f32⟩ : BufTy).Contents (Elt Ideal)
abbrev TA : Type := (⟨S8192x8192, .f32⟩ : BufTy).Contents (Elt Ideal)
abbrev TW1 : Type := (⟨S512x256, .f32⟩ : BufTy).Contents (Elt Ideal)
abbrev TW : Type := (⟨S256x128, .f32⟩ : BufTy).Contents (Elt Ideal)
abbrev TE : Type := (⟨S8192x128, .f32⟩ : BufTy).Contents (Elt Ideal)

/-! ## The literals -/

/-- The word 0x3F800000 denotes 1. -/
theorem ofBits_one_f32 : Ideal.ofBits .f32 0x3F800000#32 = 1 := by
  simp [Ideal.ofBits, Ideal.ieee, -EReal.coe_mul]; norm_num

/-! ## X · W₁ -/

theorem lidx_v0 (j : Fin 8192) (c : Fin 256) (k : Fin 512) : lidx_main_v0 (ix2 j c) k = ix2 j k :=
  funext fun a => by match a with | ⟨0, _⟩ => rfl | ⟨1, _⟩ => rfl

theorem ridx_v0 (j : Fin 8192) (c : Fin 256) (k : Fin 512) : ridx_main_v0 (ix2 j c) k = ix2 k c :=
  funext fun a => by match a with | ⟨0, _⟩ => rfl | ⟨1, _⟩ => rfl

/-- The first product at (j, c) is the specification's entry of X · W₁. -/
theorem v0_at (x0 : TX) (x2 : TW1) (j : Fin 8192) (c : Fin 256) :
    val_main_v0 (F := Ideal) x0 x2 (ix2 j c) = Cert.Spec.xw x0 x2 j c := by
  rw [val_main_v0_apply]
  exact Finset.sum_congr rfl fun k _ => by rw [lidx_v0, ridx_v0]

/-! ## The hidden layer -/

theorem lidx_v1 (r : Fin 8192) (c : Fin 256) (k : Fin 8192) : lidx_main_v1 (ix2 r c) k = ix2 r k :=
  funext fun a => by match a with | ⟨0, _⟩ => rfl | ⟨1, _⟩ => rfl

theorem ridx_v1 (r : Fin 8192) (c : Fin 256) (k : Fin 8192) : ridx_main_v1 (ix2 r c) k = ix2 k c :=
  funext fun a => by match a with | ⟨0, _⟩ => rfl | ⟨1, _⟩ => rfl

/-- A · (X · W₁) at (r, c). -/
theorem v1_at (x0 : TX) (x1 : TA) (x2 : TW1) (r : Fin 8192) (c : Fin 256) :
    val_main_v1 (F := Ideal) x0 x1 x2 (ix2 r c) = ∑ j : Fin 8192, x1 (ix2 r j) * Cert.Spec.xw x0 x2 j c := by
  rw [val_main_v1_apply]
  exact Finset.sum_congr rfl fun k _ => by rw [lidx_v1, ridx_v1, v0_at]

/-- The hidden layer at (r, c): the maximum of the convolution and the zero literal. -/
theorem v2_at (x0 : TX) (x1 : TA) (x2 : TW1) (r : Fin 8192) (c : Fin 256) :
    val_main_v2 (F := Ideal) x0 x1 x2 (ix2 r c) = Cert.Spec.hidAt x1 x0 x2 r c := by
  rw [val_main_v2_apply, v1_at, val_main_call0_v0_apply, val_main_call0_cst_apply, Ideal.ofBits_def,
    Ideal.ofBits_zero_f32, Ideal.maximumf_def]
  rfl

/-- The reference's hidden layer is the specification's. -/
theorem hid_eq (x0 : TX) (x1 : TA) (x2 : TW1) : val_main_v2 (F := Ideal) x0 x1 x2 = Cert.Spec.hid x1 x0 x2 := by
  funext i
  obtain ⟨r, c, rfl⟩ : ∃ (r : Fin 8192) (c : Fin 256), i = ix2 r c := ⟨i 0, i 1, eq_ix2 i⟩
  exact v2_at x0 x1 x2 r c

/-! ## H · W and the graph convolutions -/

theorem lidx_v3 (j : Fin 8192) (d : Fin 128) (k : Fin 256) : lidx_main_v3 (ix2 j d) k = ix2 j k :=
  funext fun a => by match a with | ⟨0, _⟩ => rfl | ⟨1, _⟩ => rfl

theorem ridx_v3 (j : Fin 8192) (d : Fin 128) (k : Fin 256) : ridx_main_v3 (ix2 j d) k = ix2 k d :=
  funext fun a => by match a with | ⟨0, _⟩ => rfl | ⟨1, _⟩ => rfl

theorem lidx_v5 (j : Fin 8192) (d : Fin 128) (k : Fin 256) : lidx_main_v5 (ix2 j d) k = ix2 j k :=
  funext fun a => by match a with | ⟨0, _⟩ => rfl | ⟨1, _⟩ => rfl

theorem ridx_v5 (j : Fin 8192) (d : Fin 128) (k : Fin 256) : ridx_main_v5 (ix2 j d) k = ix2 k d :=
  funext fun a => by match a with | ⟨0, _⟩ => rfl | ⟨1, _⟩ => rfl

theorem lidx_v4 (r : Fin 8192) (d : Fin 128) (k : Fin 8192) : lidx_main_v4 (ix2 r d) k = ix2 r k :=
  funext fun a => by match a with | ⟨0, _⟩ => rfl | ⟨1, _⟩ => rfl

theorem ridx_v4 (r : Fin 8192) (d : Fin 128) (k : Fin 8192) : ridx_main_v4 (ix2 r d) k = ix2 k d :=
  funext fun a => by match a with | ⟨0, _⟩ => rfl | ⟨1, _⟩ => rfl

theorem lidx_v6 (r : Fin 8192) (d : Fin 128) (k : Fin 8192) : lidx_main_v6 (ix2 r d) k = ix2 r k :=
  funext fun a => by match a with | ⟨0, _⟩ => rfl | ⟨1, _⟩ => rfl

theorem ridx_v6 (r : Fin 8192) (d : Fin 128) (k : Fin 8192) : ridx_main_v6 (ix2 r d) k = ix2 k d :=
  funext fun a => by match a with | ⟨0, _⟩ => rfl | ⟨1, _⟩ => rfl

/-- H · Wm at (j, d). -/
theorem v3_at (x0 : TX) (x1 : TA) (x2 : TW1) (x3 : TW) (j : Fin 8192) (d : Fin 128) :
    val_main_v3 (F := Ideal) x0 x1 x2 x3 (ix2 j d) = Cert.Spec.hw (Cert.Spec.hid x1 x0 x2) x3 j d := by
  rw [val_main_v3_apply, hid_eq]
  exact Finset.sum_congr rfl fun k _ => by rw [lidx_v3, ridx_v3]

/-- H · Ws at (j, d). -/
theorem v5_at (x0 : TX) (x1 : TA) (x2 : TW1) (x4 : TW) (j : Fin 8192) (d : Fin 128) :
    val_main_v5 (F := Ideal) x0 x1 x2 x4 (ix2 j d) = Cert.Spec.hw (Cert.Spec.hid x1 x0 x2) x4 j d := by
  rw [val_main_v5_apply, hid_eq]
  exact Finset.sum_congr rfl fun k _ => by rw [lidx_v5, ridx_v5]

/-- A · (H · Wm) at (r, d). -/
theorem v4_at (x0 : TX) (x1 : TA) (x2 : TW1) (x3 : TW) (r : Fin 8192) (d : Fin 128) :
    val_main_v4 (F := Ideal) x0 x1 x2 x3 (ix2 r d) = Cert.Spec.conv x1 (Cert.Spec.hid x1 x0 x2) x3 r d := by
  rw [val_main_v4_apply]
  exact Finset.sum_congr rfl fun k _ => by rw [lidx_v4, ridx_v4, v3_at]

/-- A · (H · Ws) at (r, d). -/
theorem v6_at (x0 : TX) (x1 : TA) (x2 : TW1) (x4 : TW) (r : Fin 8192) (d : Fin 128) :
    val_main_v6 (F := Ideal) x0 x1 x2 x4 (ix2 r d) = Cert.Spec.conv x1 (Cert.Spec.hid x1 x0 x2) x4 r d := by
  rw [val_main_v6_apply]
  exact Finset.sum_congr rfl fun k _ => by rw [lidx_v6, ridx_v6, v5_at]

/-! ## The latent sample -/

/-- The latent sample at (r, d). -/
theorem v9_at (x0 : TX) (x1 : TA) (x2 : TW1) (x3 x4 : TW) (x5 : TE) (r : Fin 8192) (d : Fin 128) :
    val_main_v9 (F := Ideal) x0 x1 x2 x3 x4 x5 (ix2 r d)
      = Cert.Spec.latAt x1 (Cert.Spec.hid x1 x0 x2) x3 x4 x5 r d := by
  rw [val_main_v9_apply, val_main_v8_apply, val_main_v7_apply, v4_at, v6_at, Ideal.addf_def, Ideal.mulf_def,
    Ideal.hostUnary_exp_def]
  rfl

/-- The reference's latent sample is the specification's. -/
theorem lat_eq (x0 : TX) (x1 : TA) (x2 : TW1) (x3 x4 : TW) (x5 : TE) :
    val_main_v9 (F := Ideal) x0 x1 x2 x3 x4 x5 = Cert.Spec.lat x1 (Cert.Spec.hid x1 x0 x2) x3 x4 x5 := by
  funext i
  obtain ⟨r, d, rfl⟩ : ∃ (r : Fin 8192) (d : Fin 128), i = ix2 r d := ⟨i 0, i 1, eq_ix2 i⟩
  exact v9_at x0 x1 x2 x3 x4 x5 r d

/-! ## The Gram product and the logistic function -/

theorem lidx_v11 (r s : Fin 8192) (k : Fin 128) : lidx_main_v11 (ix2 r s) k = ix2 r k :=
  funext fun a => by match a with | ⟨0, _⟩ => rfl | ⟨1, _⟩ => rfl

theorem ridx_v11 (r s : Fin 8192) (k : Fin 128) : ridx_main_v11 (ix2 r s) k = ix2 k s :=
  funext fun a => by match a with | ⟨0, _⟩ => rfl | ⟨1, _⟩ => rfl

theorem idx_v10 (k : Fin 128) (s : Fin 8192) : idx_main_v10 (ix2 k s) = ix2 s k :=
  funext fun a => by match a with | ⟨0, _⟩ => rfl | ⟨1, _⟩ => rfl

/-- Z · Zᵀ at (r, s): the transposed factor at (d, s) is Z at (s, d). -/
theorem v11_at (x0 : TX) (x1 : TA) (x2 : TW1) (x3 x4 : TW) (x5 : TE) (r s : Fin 8192) :
    val_main_v11 (F := Ideal) x0 x1 x2 x3 x4 x5 (ix2 r s)
      = ∑ d : Fin 128, Cert.Spec.lat x1 (Cert.Spec.hid x1 x0 x2) x3 x4 x5 (ix2 r d)
          * Cert.Spec.lat x1 (Cert.Spec.hid x1 x0 x2) x3 x4 x5 (ix2 s d) := by
  rw [val_main_v11_apply]
  exact Finset.sum_congr rfl fun k _ => by rw [lidx_v11, ridx_v11, val_main_v10_apply, idx_v10, lat_eq]

/-- The result at (r, s): 1 / (1 + exp (−t)) with both literals 1 is the logistic function of t. -/
theorem v17_at (x0 : TX) (x1 : TA) (x2 : TW1) (x3 x4 : TW) (x5 : TE) (r s : Fin 8192) :
    val_main_v17 (F := Ideal) x0 x1 x2 x3 x4 x5 (ix2 r s)
      = Cert.Spec.recAt (Cert.Spec.lat x1 (Cert.Spec.hid x1 x0 x2) x3 x4 x5) r s := by
  rw [val_main_v17_apply, val_main_v16_apply, val_main_cst_0_apply, val_main_v15_apply, val_main_v14_apply,
    val_main_cst_apply, val_main_v13_apply, val_main_v12_apply, v11_at, Ideal.ofBits_def, ofBits_one_f32,
    Ideal.hostDivf_def, Ideal.addf_def, Ideal.hostUnary_exp_def, Ideal.hostNegf_def, Ideal.negf_def]
  rfl

/-- The reference's result is G of its six arguments. -/
theorem ref_is_G (x0 : TX) (x1 : TA) (x2 : TW1) (x3 x4 : TW) (x5 : TE) :
    val_main_v17 (F := Ideal) x0 x1 x2 x3 x4 x5 = Cert.Spec.G x0 x1 x2 x3 x4 x5 := by
  funext i
  obtain ⟨r, s, rfl⟩ : ∃ (r s : Fin 8192), i = ix2 r s := ⟨i 0, i 1, eq_ix2 i⟩
  exact v17_at x0 x1 x2 x3 x4 x5 r s

end Cert.ReferenceIdeal.RefValue

end
-- ==== Proof.lean ====
/-
  The certificate's five claims.

  Both programs of the kernel — its floats read as words, and read as extended reals — run to the end from any
  memory: the program is three kernel regions with one host operation between the first two, each region entered from
  known contents of the buffers outside the kernels' working memory and left at known contents, so the regions chain
  into one run; none writes an argument array. The reference is a straight line of host operations. The extended-real
  program is the word-level one operation for operation: every float operation is read exactly and none is replaced.
  Over the extended reals the kernel's result is the specification's computation of the six
  arguments — hidden layer, latent sample, logistic of the Gram matrix, each sum taken block by block instead of at once —
  and so is the reference's.
-/
import proofs.«119699_j17463337026205_1_alg».proof.Defs
import proofs.«119699_j17463337026205_1_alg».proof.Proof.Gen.Kernel
import proofs.«119699_j17463337026205_1_alg».proof.Proof.Gen.KernelIdeal
import proofs.«119699_j17463337026205_1_alg».proof.Proof.Gen.ReferenceIdeal
import proofs.«119699_j17463337026205_1_alg».proof.Proof.Gen.Pre_finite_inputs
import proofs.«119699_j17463337026205_1_alg».proof.Proof.Gen.ReferenceIdeal.Run
import proofs.«119699_j17463337026205_1_alg».proof.Proof.Gen.ReferenceIdeal.Read
import proofs.«119699_j17463337026205_1_alg».proof.Proof.K.Run
import proofs.«119699_j17463337026205_1_alg».proof.Proof.KI.Run
import proofs.«119699_j17463337026205_1_alg».proof.Proof.KI.Value
import proofs.«119699_j17463337026205_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs to the end and leaves every argument array as launched. -/
theorem frame_k : Cert.frame_Kernel := fun m ρ _ =>
  (θ_run Cert.Kernel.defs _ _).mono (fun r h c =>
    ⟨(h c _ (Cert.Kernel.Run.mem_uc Cert.Kernel.main_arg0 (by decide))).trans (Cert.Kernel.Run.W4_main_arg0 m c),
      (h c _ (Cert.Kernel.Run.mem_uc Cert.Kernel.main_arg1 (by decide))).trans (Cert.Kernel.Run.W4_main_arg1 m c),
      (h c _ (Cert.Kernel.Run.mem_uc Cert.Kernel.main_arg2 (by decide))).trans (Cert.Kernel.Run.W4_main_arg2 m c),
      (h c _ (Cert.Kernel.Run.mem_uc Cert.Kernel.main_arg3 (by decide))).trans (Cert.Kernel.Run.W4_main_arg3 m c),
      (h c _ (Cert.Kernel.Run.mem_uc Cert.Kernel.main_arg4 (by decide))).trans (Cert.Kernel.Run.W4_main_arg4 m c),
      (h c _ (Cert.Kernel.Run.mem_uc Cert.Kernel.main_arg5 (by decide))).trans (Cert.Kernel.Run.W4_main_arg5 m c)⟩)
    (Cert.Kernel.Run.run_main (F := Bits) m ρ)

/-- So does the kernel read over the extended reals. -/
theorem frame_ki : Cert.frame_KernelIdeal := fun m ρ _ =>
  (θ_run Cert.KernelIdeal.defs _ _).mono (fun r h c =>
    ⟨(h c _ (Cert.KernelIdeal.Run.mem_uc Cert.KernelIdeal.main_arg0 (by decide))).trans (Cert.KernelIdeal.Run.W4_main_arg0 m c),
      (h c _ (Cert.KernelIdeal.Run.mem_uc Cert.KernelIdeal.main_arg1 (by decide))).trans (Cert.KernelIdeal.Run.W4_main_arg1 m c),
      (h c _ (Cert.KernelIdeal.Run.mem_uc Cert.KernelIdeal.main_arg2 (by decide))).trans (Cert.KernelIdeal.Run.W4_main_arg2 m c),
      (h c _ (Cert.KernelIdeal.Run.mem_uc Cert.KernelIdeal.main_arg3 (by decide))).trans (Cert.KernelIdeal.Run.W4_main_arg3 m c),
      (h c _ (Cert.KernelIdeal.Run.mem_uc Cert.KernelIdeal.main_arg4 (by decide))).trans (Cert.KernelIdeal.Run.W4_main_arg4 m c),
      (h c _ (Cert.KernelIdeal.Run.mem_uc Cert.KernelIdeal.main_arg5 (by decide))).trans (Cert.KernelIdeal.Run.W4_main_arg5 m c)⟩)
    (Cert.KernelIdeal.Run.run_main (F := Ideal) m ρ)

/-- The reference runs to the end and leaves its arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the specification's computation of them. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun r h c =>
      ⟨(h c _ (Cert.KernelIdeal.Run.mem_uc Cert.KernelIdeal.main_v3 (by decide))).trans (Cert.KernelIdeal.Run.W4_G m c),
      (h c _ (Cert.KernelIdeal.Run.mem_uc Cert.KernelIdeal.main_arg0 (by decide))).trans (Cert.KernelIdeal.Run.W4_main_arg0 m c),
      (h c _ (Cert.KernelIdeal.Run.mem_uc Cert.KernelIdeal.main_arg1 (by decide))).trans (Cert.KernelIdeal.Run.W4_main_arg1 m c),
      (h c _ (Cert.KernelIdeal.Run.mem_uc Cert.KernelIdeal.main_arg2 (by decide))).trans (Cert.KernelIdeal.Run.W4_main_arg2 m c),
      (h c _ (Cert.KernelIdeal.Run.mem_uc Cert.KernelIdeal.main_arg3 (by decide))).trans (Cert.KernelIdeal.Run.W4_main_arg3 m c),
      (h c _ (Cert.KernelIdeal.Run.mem_uc Cert.KernelIdeal.main_arg4 (by decide))).trans (Cert.KernelIdeal.Run.W4_main_arg4 m c),
      (h c _ (Cert.KernelIdeal.Run.mem_uc Cert.KernelIdeal.main_arg5 (by decide))).trans (Cert.KernelIdeal.Run.W4_main_arg5 m c)⟩)
      (Cert.KernelIdeal.Run.run_main (F := Ideal) m ρ)
  · refine (θ_run Cert.ReferenceIdeal.defs _ _).mono (fun _ h c => ⟨?_, (h c).2⟩) (Cert.ReferenceIdeal.Value.run (F := Ideal) m' ρ')
    rw [(h c).1, Cert.ReferenceIdeal.Read.val_main_v17_eq, Cert.ReferenceIdeal.RefValue.ref_is_G,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
